-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x800000 : S_.BroadcastsInDim S2x800000 (![] : Fin 0 → Fin S2x800000.rank)
  reducesTo_S2x800000_S_d0_1 : S2x800000.ReducesTo [0, 1] S_

variable [Facts]

def fn_part1 {F : FTy → Type} [FloatOps F] (main_arg1 : IVec S2x800000 32) (main_v13 : IVec S_ 1) (main_v15 : IVec S2x800000 1) (main_c_5 : IVec S_ 32) : IVec S_ 1 :=
  let main_v16 : IVec S2x800000 32 := broadcastInDim S2x800000 ![] bcast_S_S2x800000 main_c_5
  let main_v17 : IVec S2x800000 1 := cmpi .slt main_arg1 main_v16
  let main_v18 : IVec S2x800000 1 := andi main_v15 main_v17
  let main_c_6 : IVec S_ 1 := constantI S_ 1 1#1
  let main_v19 : IVec S_ 1 := (fun x v => Host.reduce IntOp.andi x v reducesTo_S2x800000_S_d0_1 h_S_) main_v18 main_c_6
  let main_v20 : IVec S_ 1 := andi main_v13 main_v19
  main_v20

def fn {F : FTy → Type} [FloatOps F] (main_arg0 : FVec F S50000x128 .f32) (main_arg1 : IVec S2x800000 32) (main_arg2 : FVec F S128x128 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S2x800000 32 := broadcastInDim S2x800000 ![] bcast_S_S2x800000 main_c_4
  let main_v15 : IVec S2x800000 1 := cmpi .sge main_arg1 main_v14
  let main_c_5 : IVec S_ 32 := constantI S_ 32 50000#32
  fn_part1 (F := F) main_arg1 main_v13 main_v15 main_c_5
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50176x128 : Shape := ⟨2, ![50176, 128]⟩
abbrev S1x128 : Shape := ⟨2, ![1, 128]⟩
abbrev S800000x128 : Shape := ⟨2, ![800000, 128]⟩
abbrev S1x1280 : Shape := ⟨2, ![1, 1280]⟩
abbrev S1792x128 : Shape := ⟨2, ![1792, 128]⟩
abbrev S1280x128 : Shape := ⟨2, ![1280, 128]⟩
abbrev S1792x1 : Shape := ⟨2, ![1792, 1]⟩
abbrev S1792x1280 : Shape := ⟨2, ![1792, 1280]⟩

abbrev nBuf : Space → Nat
  | .hbm => 51
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .i1⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S_, .i32⟩
  | .hbm, ⟨41, _⟩ => ⟨S_, .f32⟩
  | .hbm, ⟨42, _⟩ => ⟨S50176x128, .f32⟩
  | .hbm, ⟨43, _⟩ => ⟨S50176x128, .bf16⟩
  | .hbm, ⟨44, _⟩ => ⟨S1x800000, .i32⟩
  | .hbm, ⟨45, _⟩ => ⟨S1x800000, .i32⟩
  | .hbm, ⟨46, _⟩ => ⟨S1x800000, .f32⟩
  | .hbm, ⟨47, _⟩ => ⟨S1x128, .f32⟩
  | .hbm, ⟨48, _⟩ => ⟨S800000x128, .bf16⟩
  | .hbm, ⟨49, _⟩ => ⟨S50176x128, .f32⟩
  | .hbm, ⟨50, _⟩ => ⟨S50000x128, .f32⟩
  | .local _ .vmem, ⟨0, _⟩ => ⟨S1x1280, .i32⟩
  | .local _ .vmem, ⟨1, _⟩ => ⟨S1x1280, .i32⟩
  | .local _ .vmem, ⟨2, _⟩ => ⟨S1x1280, .f32⟩
  | .local _ .vmem, ⟨3, _⟩ => ⟨S1x1280, .f32⟩
  | .local _ .vmem, ⟨4, _⟩ => ⟨S1792x128, .bf16⟩
  | .local _ .vmem, ⟨5, _⟩ => ⟨S1792x128, .bf16⟩
  | .local _ .vmem, ⟨6, _⟩ => ⟨S1280x128, .bf16⟩
  | .local _ .vmem, ⟨7, _⟩ => ⟨S1280x128, .bf16⟩
  | .local _ .vmem, ⟨8, _⟩ => ⟨S1280x128, .f32⟩
  | .local _ .vmem, ⟨9, _⟩ => ⟨S1x1280, .i32⟩
  | .local _ .vmem, ⟨10, _⟩ => ⟨S1x1280, .i32⟩
  | .local _ .vmem, ⟨11, _⟩ => ⟨S1280x128, .bf16⟩
  | .local _ .vmem, ⟨12, _⟩ => ⟨S1280x128, .bf16⟩
  | .local _ .vmem, ⟨13, _⟩ => ⟨S128x128, .f32⟩
  | .local _ .vmem, ⟨14, _⟩ => ⟨S1x128, .f32⟩
  | .local _ .vmem, ⟨15, _⟩ => ⟨S1792x128, .f32⟩
  | .local _ .vmem, ⟨16, _⟩ => ⟨S1792x128, .f32⟩
  | .local _ .vmem, ⟨17, _⟩ => ⟨S1792x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_call1_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![625, 28], ![false, false]⟩

def k0_cond2 (i : grid0.Coords) : BitVec 1 :=
  let arg1 : BitVec 32 := BitVec.ofNat 32 (i 1).val
  let c27_i32 : BitVec 32 := 27#32
  let v28 : BitVec 1 := Scalar.cmpi .eq arg1 c27_i32
  let v29 : BitVec 32 := Scalar.extui v28
  let c0_i32_10 : BitVec 32 := 0#32
  let v30 : BitVec 1 := Scalar.cmpi .ne v29 c0_i32_10
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1280 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1792x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1280x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![28, 625], ![false, false]⟩

def k1_cond2 (i : grid1.Coords) : BitVec 1 :=
  let arg1 : BitVec 32 := BitVec.ofNat 32 (i 1).val
  let c624_i32 : BitVec 32 := 624#32
  let v23 : BitVec 1 := Scalar.cmpi .eq arg1 c624_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x1280 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1280x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1792x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  pads_S50000x128_S50176x128_01760_000 : S50000x128.Pads (![0, 0] : Fin 2 → Nat) ![176, 0] ![0, 0] S50176x128
  h_S_ : 0 < S_.numel
  bitsLt_bf16_f32 : FTy.bits .bf16 < FTy.bits .f32
  shapeCasts_S800000_S1x800000 : S800000.ShapeCasts S1x800000
  shapeCasts_S128_S1x128 : S128.ShapeCasts S1x128
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  iota_S1792x1_d0_w32 : S1792x1.Iotas .tc 32 [0]
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1792x1_S1792x1280 : S1792x1.Broadcasts S1792x1280
  broadcasts_S1x1280_S1792x1280 : S1x1280.Broadcasts S1792x1280
  natLt_1_32 : 1 < 32
  inb_S1792x128_S1792x128_0_0 : ∀ a, (![0, 0] : Fin 2 → Nat) a + S1792x128.size a ≤ S1792x128.size a
  h_S1792x128 : 0 < S1792x128.numel
  shapeCasts_S1792x128_S1792x128 : S1792x128.ShapeCasts S1792x128
  packedbf16_S1280x128_S1280x128_0_0 : (Rect.unit (s := S1280x128) ![0, 0] S1280x128.size inb_S1280x128_S1280x128_0_0).PackedRows (EltTy.packing .bf16)
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1792x128 : S1x128.Broadcasts S1792x128
  slices_S50176x128_S50000x128_0_0 : S50176x128.Slices ![0, 0] S50000x128
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S1792x1280_S1792x128_S1280x128_0_0_1_1_n_n_wf : DotDims.WF S1792x1280 S1792x128 S1280x128 [0] [0] [1] [1] [] []
  dot_S1792x1280_S1280x128_S1792x128_1_0_0_1_n_n_wf : DotDims.WF S1792x1280 S1280x128 S1792x128 [1] [0] [0] [1] [] []
  dot_S1792x128_S128x128_S1792x128_1_1_0_0_n_n_wf : DotDims.WF S1792x128 S128x128 S1792x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1280.size a ≤ S1x800000.size a
  hwx0_0 : ∀ i : grid0.Coords, EltTy.bits .i32 = 32 ∨ (Rect.block (s := S1x800000) S1x1280.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1280.size a ≤ S1x800000.size a
  hwx0_1 : ∀ i : grid0.Coords, EltTy.bits .f32 = 32 ∨ (Rect.block (s := S1x800000) S1x1280.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1792x128.size a ≤ S50176x128.size a
  hwx0_2 : ∀ i : grid0.Coords, EltTy.bits .bf16 = 32 ∨ (Rect.block (s := S50176x128) S1792x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1280x128.size a ≤ S800000x128.size a
  hwx0_3 : ∀ i : grid0.Coords, EltTy.bits .bf16 = 32 ∨ (Rect.block (s := S800000x128) S1280x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1280.size a ≤ S1x800000.size a
  hwx1_0 : ∀ i : grid1.Coords, EltTy.bits .i32 = 32 ∨ (Rect.block (s := S1x800000) S1x1280.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x128.size a ≤ S800000x128.size a
  hwx1_1 : ∀ i : grid1.Coords, EltTy.bits .bf16 = 32 ∨ (Rect.block (s := S800000x128) S1280x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1792x128.size a ≤ S50176x128.size a
  hwx1_4 : ∀ i : grid1.Coords, EltTy.bits .f32 = 32 ∨ (Rect.block (s := S50176x128) S1792x128.size (cc1_transform_4 i) (hinb1_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S1792x1280_S1792x128_S1280x128_0_0_1_1_n_n : DotDims S1792x1280 S1792x128 S1280x128 where
  lhsContracting := [0]
  rhsContracting := [0]
  lhsNonContracting := [1]
  rhsNonContracting := [1]
  lhsBatch := []
  rhsBatch := []
  wf := dot_S1792x1280_S1792x128_S1280x128_0_0_1_1_n_n_wf
def dot_S1792x1280_S1280x128_S1792x128_1_0_0_1_n_n : DotDims S1792x1280 S1280x128 S1792x128 where
  lhsContracting := [1]
  rhsContracting := [0]
  lhsNonContracting := [0]
  rhsNonContracting := [1]
  lhsBatch := []
  rhsBatch := []
  wf := dot_S1792x1280_S1280x128_S1792x128_1_0_0_1_n_n_wf
def dot_S1792x128_S128x128_S1792x128_1_1_0_0_n_n : DotDims S1792x128 S128x128 S1792x128 where
  lhsContracting := [1]
  rhsContracting := [1]
  lhsNonContracting := [0]
  rhsNonContracting := [0]
  lhsBatch := []
  rhsBatch := []
  wf := dot_S1792x128_S128x128_S1792x128_1_1_0_0_n_n_wf

abbrev win0_0 : Pipeline.Window sig grid0 :=
  Pipeline.Window.ofSpec (Memref.whole main_v30) S1x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S1x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1792x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1280x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v31) S1x1280.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1280x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1792x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 64
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .i1⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S800000x1, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S128x128, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S50000x128, .f32⟩
  | .hbm, ⟨63, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call1_cst : Ref sig .tc := ⟨.hbm, 61, rfl⟩
abbrev main_call1_v0 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KB.Idx.lean ====
/-
  Where the windows' blocks sit: the block index of each window at a grid point, in closed form over the linear point
  index. Call 0's grid is 625 edge blocks by 28 node tiles (the tile fastest): point t is edge block t / 28, tile t % 28.
  Call 1's grid is 28 node tiles by 625 edge blocks (the edge block fastest): point t is tile t / 625, edge block t % 625.
-/
import proofs.«171925_j65137474011136_1_alg».proof.Proof.Gen.Kernel.Launch

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem toNat_ofNat_small (k : ℕ) (h : k < 4294967296) : (BitVec.ofNat 32 k).toNat = k := by
  rw [BitVec.toNat_ofNat]; exact Nat.mod_eq_of_lt h

theorem coords0_0 (t : Fin cfg0.N) : (grid0.coords t 0).val = t.val / 28 := by
  have hN : t.val < 17500 := lt_of_lt_of_eq t.isLt (show cfg0.N = 17500 from N_0)
  show t.val / 28 % 625 = t.val / 28
  omega
theorem coords0_1 (t : Fin cfg0.N) : (grid0.coords t 1).val = t.val % 28 := by
  show t.val / 1 % 28 = t.val % 28
  omega
theorem coords1_0 (t : Fin cfg1.N) : (grid1.coords t 0).val = t.val / 625 := by
  have hN : t.val < 17500 := lt_of_lt_of_eq t.isLt (show cfg1.N = 17500 from N_1)
  show t.val / 625 % 28 = t.val / 625
  omega
theorem coords1_1 (t : Fin cfg1.N) : (grid1.coords t 1).val = t.val % 625 := by
  show t.val / 1 % 625 = t.val % 625
  omega

/-- Call 0: the edge-indexed windows (destination words, weights) follow the edge block on axis 1; -/
theorem idx0_0 (t : Fin cfg0.N) : win0_0.index t 0 = 0 ∧ win0_0.index t 1 = t.val / 28 := by
  have hN : t.val < 17500 := lt_of_lt_of_eq t.isLt (show cfg0.N = 17500 from N_0)
  refine ⟨rfl, ?_⟩
  show (BitVec.ofNat 32 (grid0.coords t 0).val).toNat = t.val / 28
  rw [coords0_0, toNat_ofNat_small _ (by omega)]
theorem idx0_1 (t : Fin cfg0.N) : win0_1.index t 0 = 0 ∧ win0_1.index t 1 = t.val / 28 := by
  have hN : t.val < 17500 := lt_of_lt_of_eq t.isLt (show cfg0.N = 17500 from N_0)
  refine ⟨rfl, ?_⟩
  show (BitVec.ofNat 32 (grid0.coords t 0).val).toNat = t.val / 28
  rw [coords0_0, toNat_ofNat_small _ (by omega)]
/-- the node features follow the tile on axis 0; -/
theorem idx0_2 (t : Fin cfg0.N) : win0_2.index t 0 = t.val % 28 ∧ win0_2.index t 1 = 0 := by
  refine ⟨?_, rfl⟩
  show (BitVec.ofNat 32 (grid0.coords t 1).val).toNat = t.val % 28
  rw [coords0_1, toNat_ofNat_small _ (by omega)]
/-- the output follows the edge block on axis 0. -/
theorem idx0_3 (t : Fin cfg0.N) : win0_3.index t 0 = t.val / 28 ∧ win0_3.index t 1 = 0 := by
  have hN : t.val < 17500 := lt_of_lt_of_eq t.isLt (show cfg0.N = 17500 from N_0)
  refine ⟨?_, rfl⟩
  show (BitVec.ofNat 32 (grid0.coords t 0).val).toNat = t.val / 28
  rw [coords0_0, toNat_ofNat_small _ (by omega)]

/-- Call 1: the source words and the gathered rows follow the edge block; the weight matrix and the bias are one block;
    the output follows the node tile. -/
theorem idx1_0 (t : Fin cfg1.N) : win1_0.index t 0 = 0 ∧ win1_0.index t 1 = t.val % 625 := by
  refine ⟨rfl, ?_⟩
  show (BitVec.ofNat 32 (grid1.coords t 1).val).toNat = t.val % 625
  rw [coords1_1, toNat_ofNat_small _ (by omega)]
theorem idx1_1 (t : Fin cfg1.N) : win1_1.index t 0 = t.val % 625 ∧ win1_1.index t 1 = 0 := by
  refine ⟨?_, rfl⟩
  show (BitVec.ofNat 32 (grid1.coords t 1).val).toNat = t.val % 625
  rw [coords1_1, toNat_ofNat_small _ (by omega)]
theorem idx1_2 (t : Fin cfg1.N) : win1_2.index t 0 = 0 ∧ win1_2.index t 1 = 0 := ⟨rfl, rfl⟩
theorem idx1_3 (t : Fin cfg1.N) : win1_3.index t 0 = 0 ∧ win1_3.index t 1 = 0 := ⟨rfl, rfl⟩
theorem idx1_4 (t : Fin cfg1.N) : win1_4.index t 0 = t.val / 625 ∧ win1_4.index t 1 = 0 := by
  have hN : t.val < 17500 := lt_of_lt_of_eq t.isLt (show cfg1.N = 17500 from N_1)
  refine ⟨?_, rfl⟩
  show (BitVec.ofNat 32 (grid1.coords t 0).val).toNat = t.val / 625
  rw [coords1_0, toNat_ofNat_small _ (by omega)]

end Cert.Kernel.Hand

end
-- ==== Proof.KB.R0Runs.lean ====
/-
  Pallas call 0: what its per-point runs share. A window's block at a grid point, read off the array as the call finds
  it; the two conditions of the body (first and last step of the reduction axis) in closed form over the linear point
  index; where the output window is idle; the staging and scratch buffers as the body is handed them.
-/
import proofs.«171925_j65137474011136_1_alg».proof.Proof.Gen.Kernel.Launch
import proofs.«171925_j65137474011136_1_alg».proof.Proof.Gen.Kernel.Skeleton
import proofs.«171925_j65137474011136_1_alg».proof.Proof.Gen.Kernel.Points
import proofs.«171925_j65137474011136_1_alg».proof.Proof.KB.Idx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-- The body's first condition: this is the first step of the reduction axis. -/
abbrev cond0_0 (i : grid0.Coords) : Prop := (Scalar.cmpi .ne (Scalar.extui (Scalar.cmpi .eq (BitVec.ofNat 32 (i 1).val) 0#32)) 0#32) = 1#1
theorem hcond0_0 (t : Fin cfg0.N) : cond0_0 (grid0.coords t) ↔ t.val % 28 = 0 := by
  have key : ∀ k : Fin 28, ((Scalar.cmpi .ne (Scalar.extui (Scalar.cmpi .eq (BitVec.ofNat 32 k.val) 0#32)) 0#32) = 1#1) ↔ k.val = 0 := by decide
  show ((Scalar.cmpi .ne (Scalar.extui (Scalar.cmpi .eq (BitVec.ofNat 32 (grid0.coords t 1).val) 0#32)) 0#32) = 1#1) ↔ t.val % 28 = 0
  rw [coords0_1]
  exact key ⟨t.val % 28, Nat.mod_lt _ (by decide)⟩

/-- The body's second condition: this is the last step of the reduction axis. -/
abbrev cond0_1 (i : grid0.Coords) : Prop := k0_cond2 i = 1#1
theorem hcond0_1 (t : Fin cfg0.N) : cond0_1 (grid0.coords t) ↔ t.val % 28 = 27 := by
  have key : ∀ k : Fin 28, ((Scalar.cmpi .ne (Scalar.extui (Scalar.cmpi .eq (BitVec.ofNat 32 k.val) 27#32)) 0#32) = 1#1) ↔ k.val = 27 := by decide
  show ((Scalar.cmpi .ne (Scalar.extui (Scalar.cmpi .eq (BitVec.ofNat 32 (grid0.coords t 1).val) 27#32)) 0#32) = 1#1) ↔ t.val % 28 = 27
  rw [coords0_1]
  exact key ⟨t.val % 28, Nat.mod_lt _ (by decide)⟩
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- Away from the last step the output window is idle and not written back; at the last step it is live. -/
theorem idleAt0_3 (t : Fin cfg0.N) (h : ¬cond0_1 (grid0.coords t)) : cfg0.idle 3 (grid0.coords t) = true := by
  show (!(k0_cond2 (grid0.coords t) == 1#1)) = true
  rw [Bool.not_eq_true', beq_eq_false_iff_ne]
  exact h
theorem noFlush0_3 (t : Fin cfg0.N) (h : ¬cond0_1 (grid0.coords t)) : (cfg0.win 3).flush t = false :=
  Bool.eq_false_iff.mpr fun hf => h ((hcond0_1 t).mpr ((flush0_3 t).mp hf))
theorem liveAt0_3_C (t : Fin cfg0.N) (h : cond0_1 (grid0.coords t)) : cfg0.idle 3 (grid0.coords t) = false := by
  show (!(k0_cond2 (grid0.coords t) == 1#1)) = false
  rw [Bool.not_eq_false', beq_iff_eq]
  exact h

/-- One staging buffer of the output window, through which its contents are stated. -/
abbrev VO0_3 : View sig .tc .vmem S1280x128 .bf16 := (Memref.whole cc0_stg3_0 : Memref sig .tc .vmem S1280x128 .bf16).view
abbrev ms0_0 (t : Fin cfg0.N) : Memref sig .tc .vmem S1x1280 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1280 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1792x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x128 .bf16 := win0_3.stage (cfg0.slots t 3)
abbrev hs0_3 (t : Fin cfg0.N) : (ms0_3 t).IsWhole := hstage0_3 ((cfg0.slots t 3).cast nbuf0_3)
/-- The accumulator: a scoped buffer of the call's own, carried from point to point. -/
abbrev scM0_0 : Memref sig .tc .vmem S1280x128 .f32 := Memref.whole cc0_scratch0
abbrev VS0_0 : View sig .tc .vmem S1280x128 .f32 := scM0_0.view

/-- What the call's invariant holds before its first point: every scoped buffer that is no staging buffer of this call at
    some contents (the accumulator among them), and the generator register at some state. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0_0, owns_whole]; try rfl

end Cert.Kernel.Hand

end
-- ==== Proof.KB.R0RunA.lean ====
/-
  Pallas call 0, the body at the first step of the reduction axis (the accumulator is reset, then added to; the output window is left as found): on whole staging buffers — the inputs at given contents, the accumulator as the
  point before left it — the body runs to the end, the inputs as they were, and the buffers it stores into holding
  the stored pieces.
-/
import proofs.«171925_j65137474011136_1_alg».proof.Proof.KB.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (last first), with the proof that the body runs to a continuation holding them. -/
noncomputable def kernelRun0_A (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : cond0_0 i) (hc1 : ¬cond0_1 i)
    (x0 : Vec F S1x1280 .i32) (x1 : Vec F S1x1280 .f32) (x2 : Vec F S1792x128 .bf16) :
    Σ' (L3 : List (View.Piece (Elt F) S1280x128 .bf16)), { LS0 : List (View.Piece (Elt F) S1280x128 .f32) //
      ∀ (xi3 : Vec F S1280x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_scale_kernel i arg2 harg2 arg3 harg3 arg4 harg4 arg5 harg5 arg6 harg6) K } := by
  refine ⟨[], ?_, fun xi3 E K => ?run⟩
  case run =>
    simp only [cc0__gather_scale_kernel_eq_skeleton]; unfold cc0__gather_scale_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KB.R0RunB.lean ====
/-
  Pallas call 0, the body at a middle step of the reduction axis (the accumulator is added to; the output window is left as found): on whole staging buffers — the inputs at given contents, the accumulator as the
  point before left it — the body runs to the end, the inputs as they were, and the buffers it stores into holding
  the stored pieces.
-/
import proofs.«171925_j65137474011136_1_alg».proof.Proof.KB.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (last first), with the proof that the body runs to a continuation holding them. -/
noncomputable def kernelRun0_B (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : ¬cond0_0 i) (hc1 : ¬cond0_1 i)
    (x0 : Vec F S1x1280 .i32) (x1 : Vec F S1x1280 .f32) (x2 : Vec F S1792x128 .bf16) (xs0 : Vec F S1280x128 .f32) :
    Σ' (L3 : List (View.Piece (Elt F) S1280x128 .bf16)), { LS0 : List (View.Piece (Elt F) S1280x128 .f32) //
      ∀ (xi3 : Vec F S1280x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_scale_kernel i arg2 harg2 arg3 harg3 arg4 harg4 arg5 harg5 arg6 harg6) K } := by
  refine ⟨[], ?_, fun xi3 E K => ?run⟩
  case run =>
    simp only [cc0__gather_scale_kernel_eq_skeleton]; unfold cc0__gather_scale_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KB.R0RunC.lean ====
/-
  Pallas call 0, the body at the last step of the reduction axis (the accumulator is added to, then stored into the output window): on whole staging buffers — the inputs at given contents, the accumulator as the
  point before left it — the body runs to the end, the inputs as they were, and the buffers it stores into holding
  the stored pieces.
-/
import proofs.«171925_j65137474011136_1_alg».proof.Proof.KB.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (last first), with the proof that the body runs to a continuation holding them. -/
noncomputable def kernelRun0_C (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : ¬cond0_0 i) (hc1 : cond0_1 i)
    (x0 : Vec F S1x1280 .i32) (x1 : Vec F S1x1280 .f32) (x2 : Vec F S1792x128 .bf16) (xs0 : Vec F S1280x128 .f32) :
    Σ' (L3 : List (View.Piece (Elt F) S1280x128 .bf16)), { LS0 : List (View.Piece (Elt F) S1280x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gather_scale_kernel i arg2 harg2 arg3 harg3 arg4 harg4 arg5 harg5 arg6 harg6) K } := by
  refine ⟨?_, ?_, fun E K => ?run⟩
  case run =>
    simp only [cc0__gather_scale_kernel_eq_skeleton]; unfold cc0__gather_scale_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.KB.R0Frame.lean ====
/-
  Pallas call 0: what the accumulator and the output window hold after each grid point, by recursion on the point
  (the first step of the reduction axis resets the accumulator and adds the step's product, every later step adds
  to what the step before left, the last step also stores the accumulator into the output window); the invariant
  that carries the accumulator between points; the per-point obligation of the body.
-/
import proofs.«171925_j65137474011136_1_alg».proof.Proof.KB.R0RunA
import proofs.«171925_j65137474011136_1_alg».proof.Proof.KB.R0RunB
import proofs.«171925_j65137474011136_1_alg».proof.Proof.KB.R0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What the body leaves in the output window's staging buffer at a step of kind A: its stored pieces read back (none: a placeholder nothing consults). -/
def out0_A_3 (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : cond0_0 i) (hc1 : ¬cond0_1 i)
    (x0 : Vec F S1x1280 .i32) (x1 : Vec F S1x1280 .f32) (x2 : Vec F S1792x128 .bf16) : Vec F S1280x128 .bf16 :=
  VO0_3.read (Elt F) (VO0_3.writes (Elt F) VO0_3.junk (kernelRun0_A c i arg2 harg2 arg3 harg3 arg4 harg4 arg5 harg5 arg6 harg6 hc0 hc1 x0 x1 x2).1)

theorem scover0_A_0 (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : cond0_0 i) (hc1 : ¬cond0_1 i)
    (x0 : Vec F S1x1280 .i32) (x1 : Vec F S1x1280 .f32) (x2 : Vec F S1792x128 .bf16) (y : S1280x128.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1280x128.size (by sl_kernel_rfl) y

/-- What a step of kind A leaves in the accumulator: its stored pieces read back. -/
def sout0_A_0 (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : cond0_0 i) (hc1 : ¬cond0_1 i)
    (x0 : Vec F S1x1280 .i32) (x1 : Vec F S1x1280 .f32) (x2 : Vec F S1792x128 .bf16) : Vec F S1280x128 .f32 :=
  VS0_0.read (Elt F) (VS0_0.writes (Elt F) VS0_0.junk (kernelRun0_A c i arg2 harg2 arg3 harg3 arg4 harg4 arg5 harg5 arg6 harg6 hc0 hc1 x0 x1 x2).2.1)

/-- What the body leaves in the output window's staging buffer at a step of kind B: its stored pieces read back (none: a placeholder nothing consults). -/
def out0_B_3 (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : ¬cond0_0 i) (hc1 : ¬cond0_1 i)
    (x0 : Vec F S1x1280 .i32) (x1 : Vec F S1x1280 .f32) (x2 : Vec F S1792x128 .bf16) (xs0 : Vec F S1280x128 .f32) : Vec F S1280x128 .bf16 :=
  VO0_3.read (Elt F) (VO0_3.writes (Elt F) VO0_3.junk (kernelRun0_B c i arg2 harg2 arg3 harg3 arg4 harg4 arg5 harg5 arg6 harg6 hc0 hc1 x0 x1 x2 xs0).1)

theorem scover0_B_0 (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : ¬cond0_0 i) (hc1 : ¬cond0_1 i)
    (x0 : Vec F S1x1280 .i32) (x1 : Vec F S1x1280 .f32) (x2 : Vec F S1792x128 .bf16) (xs0 : Vec F S1280x128 .f32) (y : S1280x128.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1280x128.size (by sl_kernel_rfl) y

/-- What a step of kind B leaves in the accumulator: its stored pieces read back. -/
def sout0_B_0 (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : ¬cond0_0 i) (hc1 : ¬cond0_1 i)
    (x0 : Vec F S1x1280 .i32) (x1 : Vec F S1x1280 .f32) (x2 : Vec F S1792x128 .bf16) (xs0 : Vec F S1280x128 .f32) : Vec F S1280x128 .f32 :=
  VS0_0.read (Elt F) (VS0_0.writes (Elt F) VS0_0.junk (kernelRun0_B c i arg2 harg2 arg3 harg3 arg4 harg4 arg5 harg5 arg6 harg6 hc0 hc1 x0 x1 x2 xs0).2.1)

theorem cover0_C_3 (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : ¬cond0_0 i) (hc1 : cond0_1 i)
    (x0 : Vec F S1x1280 .i32) (x1 : Vec F S1x1280 .f32) (x2 : Vec F S1792x128 .bf16) (xs0 : Vec F S1280x128 .f32) (y : S1280x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1280x128.size (by sl_kernel_rfl) y

/-- What the body leaves in the output window's staging buffer at a step of kind C: its stored pieces read back. -/
def out0_C_3 (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : ¬cond0_0 i) (hc1 : cond0_1 i)
    (x0 : Vec F S1x1280 .i32) (x1 : Vec F S1x1280 .f32) (x2 : Vec F S1792x128 .bf16) (xs0 : Vec F S1280x128 .f32) : Vec F S1280x128 .bf16 :=
  VO0_3.read (Elt F) (VO0_3.writes (Elt F) VO0_3.junk (kernelRun0_C c i arg2 harg2 arg3 harg3 arg4 harg4 arg5 harg5 arg6 harg6 hc0 hc1 x0 x1 x2 xs0).1)

theorem scover0_C_0 (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : ¬cond0_0 i) (hc1 : cond0_1 i)
    (x0 : Vec F S1x1280 .i32) (x1 : Vec F S1x1280 .f32) (x2 : Vec F S1792x128 .bf16) (xs0 : Vec F S1280x128 .f32) (y : S1280x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1280x128.size (by sl_kernel_rfl) y

/-- What a step of kind C leaves in the accumulator: its stored pieces read back. -/
def sout0_C_0 (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : ¬cond0_0 i) (hc1 : cond0_1 i)
    (x0 : Vec F S1x1280 .i32) (x1 : Vec F S1x1280 .f32) (x2 : Vec F S1792x128 .bf16) (xs0 : Vec F S1280x128 .f32) : Vec F S1280x128 .f32 :=
  VS0_0.read (Elt F) (VS0_0.writes (Elt F) VS0_0.junk (kernelRun0_C c i arg2 harg2 arg3 harg3 arg4 harg4 arg5 harg5 arg6 harg6 hc0 hc1 x0 x1 x2 xs0).2.1)

section
variable (V : (c : Dev nD) → (b : Ref sig .tc) → Buf (Elt F) ((c : Thread nD τ).loc b))

/-- What the output window's staging buffer and the accumulator hold after the body at position n. -/
def outsAt0 (c : Dev nD) : (n : ℕ) → n < cfg0.N → Vec F S1280x128 .bf16 × Vec F S1280x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 28 = 0 then
      if h1 : (n + 1) % 28 = 27 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 28 = 27 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 28 = 0) (h1 : ¬t.val % 28 = 27) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 28 = 0) (h1 : ¬t.val % 28 = 27) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 28 = 0) (h1 : t.val % 28 = 27) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The call's invariant before position n: before the first point, every scoped buffer that is no staging buffer of
    the call at some contents; afterwards the same with the accumulator at what the point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f)) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f)) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f)) ∗ (∃ r, prngReg c r)) := by
  cases n with
  | zero => exact absurd rfl hz
  | succ n => rfl

/-- The proof data of the call on core c: the arrays as the call finds them; after the body each input's buffer at its
    block and the output's at the recursion's first component; the invariant carrying the accumulator. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨_ + 4, h⟩ => absurd h (Nat.not_lt.2 (Nat.le_add_left _ _))
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
/-- The body at any point: the closed forms say which kind of step the point is; the invariant hands the body the
    accumulator as the point before left it (at anything at the very first point) and takes it back at this point's
    contents; the inputs are read and left in place; the output window is stored whole at a last step and left as
    found elsewhere. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 17500 := lt_of_lt_of_eq t.isLt (show cfg0.N = 17500 from N_0)
  by_cases h0 : t.val % 28 = 0
  · by_cases h1 : t.val % 28 = 27
    · exfalso; omega
    · -- a first step
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, R1, R2, R3, R4, R5, R6, R7, R8, R9⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 R1 R2 R3 R4 R5 R6 R7 R8 R9 Hg]
        · isplitl [HS0 R1 R2 R3 R4 R5 R6 R7 R8 R9]
          · isplitl [HS0]
            · unfold owns; iexists _; isplitr
              swap; · iexact HS0
              ipureintro; exact View.read_writes_of_cover _ _ _ _ _ (scover0_A_0 c _ _ _ _ _ _ _ _ _ _ _ _ _ _ _ _)
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            iexact R9
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS0, R1, R2, R3, R4, R5, R6, R7, R8, R9⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 R1 R2 R3 R4 R5 R6 R7 R8 R9 Hg]
        · isplitl [HS0 R1 R2 R3 R4 R5 R6 R7 R8 R9]
          · isplitl [HS0]
            · unfold owns; iexists _; isplitr
              swap; · iexact HS0
              ipureintro; exact View.read_writes_of_cover _ _ _ _ _ (scover0_A_0 c _ _ _ _ _ _ _ _ _ _ _ _ _ _ _ _)
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            iexact R9
          iexact Hg
        isplitl [Ho]; · iexact Ho
        isplitl [H0]; · iexact H0
        isplitl [H1]; · iexact H1
        isplitl [H2]; · iexact H2
        iexists _; iexact H3
  · by_cases h1 : t.val % 28 = 27
    · -- a last step
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_C t ((hcond0_1 t).mpr h1)], after0_3]
      rw [outsAt0_C V c t h0 h1]
      unfold out0_C_3 sout0_C_0; (try dsimp only)
      have hz : t.val ≠ 0 := by omega
      rw [PhiS0_castSucc V c t, PhiS0_pos V c _ _ hz]
      iintro ⟨⟨⟨HS0, R1, R2, R3, R4, R5, R6, R7, R8, R9⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 R1 R2 R3 R4 R5 R6 R7 R8 R9 Hg]
      · isplitl [HS0 R1 R2 R3 R4 R5 R6 R7 R8 R9]
        · isplitl [HS0]
          · unfold owns; iexists _; isplitr
            swap; · iexact HS0
            ipureintro; exact View.read_writes_of_cover _ _ _ _ _ (scover0_C_0 c _ _ _ _ _ _ _ _ _ _ _ _ _ _ _ _ _)
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact R9
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · -- a middle step
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0; (try dsimp only)
      have hz : t.val ≠ 0 := by omega
      rw [PhiS0_castSucc V c t, PhiS0_pos V c _ _ hz]
      iintro ⟨⟨⟨HS0, R1, R2, R3, R4, R5, R6, R7, R8, R9⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 R1 R2 R3 R4 R5 R6 R7 R8 R9 Hg]
      · isplitl [HS0 R1 R2 R3 R4 R5 R6 R7 R8 R9]
        · isplitl [HS0]
          · unfold owns; iexists _; isplitr
            swap; · iexact HS0
            ipureintro; exact View.read_writes_of_cover _ _ _ _ _ (scover0_B_0 c _ _ _ _ _ _ _ _ _ _ _ _ _ _ _ _ _)
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact R9
        iexact Hg
      isplitl [Ho]; · iexact Ho
      isplitl [H0]; · iexact H0
      isplitl [H1]; · iexact H1
      isplitl [H2]; · iexact H2
      iexists _; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's form back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, R1, R2, R3, R4, R5, R6, R7, R8, R9⟩, Hg⟩
  isplitl [HS0 R1 R2 R3 R4 R5 R6 R7 R8 R9]
  · isplitl [HS0]
    · iexists _; iexact HS0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  iexact Hg

theorem hout0 (c : Dev nD) : (dat0 V c).Φ (Fin.last cfg0.N) ⊢ Pipeline.ΦA spec0 c :=
  Phi_out0 V c _ (by rw [Fin.val_last]; have : cfg0.N = 17500 := N_0; omega)

end

end Cert.Kernel.Hand

end
-- ==== Proof.KB.R1Runs.lean ====
/-
  Pallas call 1: what its per-point runs share. A window's block at a grid point, read off the array as the call finds
  it; the two conditions of the body (first and last step of the reduction axis) in closed form over the linear point
  index; where the output window is idle; the staging and scratch buffers as the body is handed them.
-/
import proofs.«171925_j65137474011136_1_alg».proof.Proof.Gen.Kernel.Launch
import proofs.«171925_j65137474011136_1_alg».proof.Proof.Gen.Kernel.Skeleton
import proofs.«171925_j65137474011136_1_alg».proof.Proof.Gen.Kernel.Points
import proofs.«171925_j65137474011136_1_alg».proof.Proof.KB.Idx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-- The body's first condition: this is the first step of the reduction axis. -/
abbrev cond1_0 (i : grid1.Coords) : Prop := (Scalar.cmpi .ne (Scalar.extui (Scalar.cmpi .eq (BitVec.ofNat 32 (i 1).val) 0#32)) 0#32) = 1#1
theorem hcond1_0 (t : Fin cfg1.N) : cond1_0 (grid1.coords t) ↔ t.val % 625 = 0 := by
  have key : ∀ k : Fin 625, ((Scalar.cmpi .ne (Scalar.extui (Scalar.cmpi .eq (BitVec.ofNat 32 k.val) 0#32)) 0#32) = 1#1) ↔ k.val = 0 := by decide
  show ((Scalar.cmpi .ne (Scalar.extui (Scalar.cmpi .eq (BitVec.ofNat 32 (grid1.coords t 1).val) 0#32)) 0#32) = 1#1) ↔ t.val % 625 = 0
  rw [coords1_1]
  exact key ⟨t.val % 625, Nat.mod_lt _ (by decide)⟩

/-- The body's second condition: this is the last step of the reduction axis. -/
abbrev cond1_1 (i : grid1.Coords) : Prop := k1_cond2 i = 1#1
theorem hcond1_1 (t : Fin cfg1.N) : cond1_1 (grid1.coords t) ↔ t.val % 625 = 624 := by
  have key : ∀ k : Fin 625, ((Scalar.cmpi .ne (Scalar.extui (Scalar.cmpi .eq (BitVec.ofNat 32 k.val) 624#32)) 0#32) = 1#1) ↔ k.val = 624 := by decide
  show ((Scalar.cmpi .ne (Scalar.extui (Scalar.cmpi .eq (BitVec.ofNat 32 (grid1.coords t 1).val) 624#32)) 0#32) = 1#1) ↔ t.val % 625 = 624
  rw [coords1_1]
  exact key ⟨t.val % 625, Nat.mod_lt _ (by decide)⟩
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Away from the last step the output window is idle and not written back; at the last step it is live. -/
theorem idleAt1_4 (t : Fin cfg1.N) (h : ¬cond1_1 (grid1.coords t)) : cfg1.idle 4 (grid1.coords t) = true := by
  show (!(k1_cond2 (grid1.coords t) == 1#1)) = true
  rw [Bool.not_eq_true', beq_eq_false_iff_ne]
  exact h
theorem noFlush1_4 (t : Fin cfg1.N) (h : ¬cond1_1 (grid1.coords t)) : (cfg1.win 4).flush t = false :=
  Bool.eq_false_iff.mpr fun hf => h ((hcond1_1 t).mpr ((flush1_4 t).mp hf))
theorem liveAt1_4_C (t : Fin cfg1.N) (h : cond1_1 (grid1.coords t)) : cfg1.idle 4 (grid1.coords t) = false := by
  show (!(k1_cond2 (grid1.coords t) == 1#1)) = false
  rw [Bool.not_eq_false', beq_iff_eq]
  exact h

/-- One staging buffer of the output window, through which its contents are stated. -/
abbrev VO1_4 : View sig .tc .vmem S1792x128 .f32 := (Memref.whole cc1_stg4_0 : Memref sig .tc .vmem S1792x128 .f32).view
abbrev ms1_0 (t : Fin cfg1.N) : Memref sig .tc .vmem S1x1280 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1280x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1792x128 .f32 := win1_4.stage (cfg1.slots t 4)
abbrev hs1_4 (t : Fin cfg1.N) : (ms1_4 t).IsWhole := hstage1_4 ((cfg1.slots t 4).cast nbuf1_4)
/-- The accumulator: a scoped buffer of the call's own, carried from point to point. -/
abbrev scM1_0 : Memref sig .tc .vmem S1792x128 .f32 := Memref.whole cc1_scratch0
abbrev VS1_0 : View sig .tc .vmem S1792x128 .f32 := scM1_0.view

/-- What the call's invariant holds before its first point: every scoped buffer that is no staging buffer of this call at
    some contents (the accumulator among them), and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.KB.R1RunA.lean ====
/-
  Pallas call 1, the body at the first step of the reduction axis (the accumulator is reset, then added to; the output window is left as found): on whole staging buffers — the inputs at given contents, the accumulator as the
  point before left it — the body runs to the end, the inputs as they were, and the buffers it stores into holding
  the stored pieces.
-/
import proofs.«171925_j65137474011136_1_alg».proof.Proof.KB.R1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (last first), with the proof that the body runs to a continuation holding them. -/
noncomputable def kernelRun1_A (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : cond1_0 i) (hc1 : ¬cond1_1 i)
    (x0 : Vec F S1x1280 .i32) (x1 : Vec F S1280x128 .bf16) (x2 : Vec F S128x128 .f32) (x3 : Vec F S1x128 .f32) :
    Σ' (L4 : List (View.Piece (Elt F) S1792x128 .f32)), { LS0 : List (View.Piece (Elt F) S1792x128 .f32) //
      ∀ (xi4 : Vec F S1792x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__scatter_linear_kernel i arg2 harg2 arg3 harg3 arg4 harg4 arg5 harg5 arg6 harg6 arg7 harg7) K } := by
  refine ⟨[], ?_, fun xi4 E K => ?run⟩
  case run =>
    simp only [cc1__scatter_linear_kernel_eq_skeleton]; unfold cc1__scatter_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KB.R1RunB.lean ====
/-
  Pallas call 1, the body at a middle step of the reduction axis (the accumulator is added to; the output window is left as found): on whole staging buffers — the inputs at given contents, the accumulator as the
  point before left it — the body runs to the end, the inputs as they were, and the buffers it stores into holding
  the stored pieces.
-/
import proofs.«171925_j65137474011136_1_alg».proof.Proof.KB.R1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (last first), with the proof that the body runs to a continuation holding them. -/
noncomputable def kernelRun1_B (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : ¬cond1_0 i) (hc1 : ¬cond1_1 i)
    (x0 : Vec F S1x1280 .i32) (x1 : Vec F S1280x128 .bf16) (x2 : Vec F S128x128 .f32) (x3 : Vec F S1x128 .f32) (xs0 : Vec F S1792x128 .f32) :
    Σ' (L4 : List (View.Piece (Elt F) S1792x128 .f32)), { LS0 : List (View.Piece (Elt F) S1792x128 .f32) //
      ∀ (xi4 : Vec F S1792x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__scatter_linear_kernel i arg2 harg2 arg3 harg3 arg4 harg4 arg5 harg5 arg6 harg6 arg7 harg7) K } := by
  refine ⟨[], ?_, fun xi4 E K => ?run⟩
  case run =>
    simp only [cc1__scatter_linear_kernel_eq_skeleton]; unfold cc1__scatter_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KB.R1RunC.lean ====
/-
  Pallas call 1, the body at the last step of the reduction axis (the accumulator is added to, then stored into the output window): on whole staging buffers — the inputs at given contents, the accumulator as the
  point before left it — the body runs to the end, the inputs as they were, and the buffers it stores into holding
  the stored pieces.
-/
import proofs.«171925_j65137474011136_1_alg».proof.Proof.KB.R1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (last first), with the proof that the body runs to a continuation holding them. -/
noncomputable def kernelRun1_C (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : ¬cond1_0 i) (hc1 : cond1_1 i)
    (x0 : Vec F S1x1280 .i32) (x1 : Vec F S1280x128 .bf16) (x2 : Vec F S128x128 .f32) (x3 : Vec F S1x128 .f32) (xs0 : Vec F S1792x128 .f32) :
    Σ' (L4 : List (View.Piece (Elt F) S1792x128 .f32)), { LS0 : List (View.Piece (Elt F) S1792x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__scatter_linear_kernel i arg2 harg2 arg3 harg3 arg4 harg4 arg5 harg5 arg6 harg6 arg7 harg7) K } := by
  refine ⟨?_, ?_, fun E K => ?run⟩
  case run =>
    simp only [cc1__scatter_linear_kernel_eq_skeleton]; unfold cc1__scatter_linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.KB.R1Frame.lean ====
/-
  Pallas call 1: what the accumulator and the output window hold after each grid point, by recursion on the point
  (the first step of the reduction axis resets the accumulator and adds the step's product, every later step adds
  to what the step before left, the last step also stores the accumulator into the output window); the invariant
  that carries the accumulator between points; the per-point obligation of the body.
-/
import proofs.«171925_j65137474011136_1_alg».proof.Proof.KB.R1RunA
import proofs.«171925_j65137474011136_1_alg».proof.Proof.KB.R1RunB
import proofs.«171925_j65137474011136_1_alg».proof.Proof.KB.R1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What the body leaves in the output window's staging buffer at a step of kind A: its stored pieces read back (none: a placeholder nothing consults). -/
def out1_A_4 (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : cond1_0 i) (hc1 : ¬cond1_1 i)
    (x0 : Vec F S1x1280 .i32) (x1 : Vec F S1280x128 .bf16) (x2 : Vec F S128x128 .f32) (x3 : Vec F S1x128 .f32) : Vec F S1792x128 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

theorem scover1_A_0 (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : cond1_0 i) (hc1 : ¬cond1_1 i)
    (x0 : Vec F S1x1280 .i32) (x1 : Vec F S1280x128 .bf16) (x2 : Vec F S128x128 .f32) (x3 : Vec F S1x128 .f32) (y : S1792x128.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S1792x128.size (by sl_kernel_rfl) y

/-- What a step of kind A leaves in the accumulator: its stored pieces read back. -/
def sout1_A_0 (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : cond1_0 i) (hc1 : ¬cond1_1 i)
    (x0 : Vec F S1x1280 .i32) (x1 : Vec F S1280x128 .bf16) (x2 : Vec F S128x128 .f32) (x3 : Vec F S1x128 .f32) : Vec F S1792x128 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- What the body leaves in the output window's staging buffer at a step of kind B: its stored pieces read back (none: a placeholder nothing consults). -/
def out1_B_4 (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : ¬cond1_0 i) (hc1 : ¬cond1_1 i)
    (x0 : Vec F S1x1280 .i32) (x1 : Vec F S1280x128 .bf16) (x2 : Vec F S128x128 .f32) (x3 : Vec F S1x128 .f32) (xs0 : Vec F S1792x128 .f32) : Vec F S1792x128 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

theorem scover1_B_0 (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : ¬cond1_0 i) (hc1 : ¬cond1_1 i)
    (x0 : Vec F S1x1280 .i32) (x1 : Vec F S1280x128 .bf16) (x2 : Vec F S128x128 .f32) (x3 : Vec F S1x128 .f32) (xs0 : Vec F S1792x128 .f32) (y : S1792x128.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S1792x128.size (by sl_kernel_rfl) y

/-- What a step of kind B leaves in the accumulator: its stored pieces read back. -/
def sout1_B_0 (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : ¬cond1_0 i) (hc1 : ¬cond1_1 i)
    (x0 : Vec F S1x1280 .i32) (x1 : Vec F S1280x128 .bf16) (x2 : Vec F S128x128 .f32) (x3 : Vec F S1x128 .f32) (xs0 : Vec F S1792x128 .f32) : Vec F S1792x128 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

theorem cover1_C_4 (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : ¬cond1_0 i) (hc1 : cond1_1 i)
    (x0 : Vec F S1x1280 .i32) (x1 : Vec F S1280x128 .bf16) (x2 : Vec F S128x128 .f32) (x3 : Vec F S1x128 .f32) (xs0 : Vec F S1792x128 .f32) (y : S1792x128.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1792x128.size (by sl_kernel_rfl) y

/-- What the body leaves in the output window's staging buffer at a step of kind C: its stored pieces read back. -/
def out1_C_4 (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : ¬cond1_0 i) (hc1 : cond1_1 i)
    (x0 : Vec F S1x1280 .i32) (x1 : Vec F S1280x128 .bf16) (x2 : Vec F S128x128 .f32) (x3 : Vec F S1x128 .f32) (xs0 : Vec F S1792x128 .f32) : Vec F S1792x128 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

theorem scover1_C_0 (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : ¬cond1_0 i) (hc1 : cond1_1 i)
    (x0 : Vec F S1x1280 .i32) (x1 : Vec F S1280x128 .bf16) (x2 : Vec F S128x128 .f32) (x3 : Vec F S1x128 .f32) (xs0 : Vec F S1792x128 .f32) (y : S1792x128.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1792x128.size (by sl_kernel_rfl) y

/-- What a step of kind C leaves in the accumulator: its stored pieces read back. -/
def sout1_C_0 (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : ¬cond1_0 i) (hc1 : cond1_1 i)
    (x0 : Vec F S1x1280 .i32) (x1 : Vec F S1280x128 .bf16) (x2 : Vec F S128x128 .f32) (x3 : Vec F S1x128 .f32) (xs0 : Vec F S1792x128 .f32) : Vec F S1792x128 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

section
variable (V : (c : Dev nD) → (b : Ref sig .tc) → Buf (Elt F) ((c : Thread nD τ).loc b))

/-- What the output window's staging buffer and the accumulator hold after the body at position n. -/
def outsAt1 (c : Dev nD) : (n : ℕ) → n < cfg1.N → Vec F S1792x128 .f32 × Vec F S1792x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 625 = 0 then
      if h1 : (n + 1) % 625 = 624 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 625 = 624 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 625 = 0) (h1 : ¬t.val % 625 = 624) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 625 = 0) (h1 : ¬t.val % 625 = 624) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 625 = 0) (h1 : t.val % 625 = 624) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The call's invariant before position n: before the first point, every scoped buffer that is no staging buffer of
    the call at some contents; afterwards the same with the accumulator at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2)) ∗ (∃ r, prngReg c r)) := by
  cases n with
  | zero => exact absurd rfl hz
  | succ n => rfl

/-- The proof data of the call on core c: the arrays as the call finds them; after the body each input's buffer at its
    block and the output's at the recursion's first component; the invariant carrying the accumulator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨_ + 5, h⟩ => absurd h (Nat.not_lt.2 (Nat.le_add_left _ _))
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the closed forms say which kind of step the point is; the invariant hands the body the
    accumulator as the point before left it (at anything at the very first point) and takes it back at this point's
    contents; the inputs are read and left in place; the output window is stored whole at a last step and left as
    found elsewhere. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 17500 := lt_of_lt_of_eq t.isLt (show cfg1.N = 17500 from N_1)
  by_cases h0 : t.val % 625 = 0
  · by_cases h1 : t.val % 625 = 624
    · exfalso; omega
    · -- a first step
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨R0, R1, R2, R3, R4, R5, R6, R7, R8, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [R0 R1 R2 R3 R4 R5 R6 R7 R8 HS0 Hg]
        · isplitl [R0 R1 R2 R3 R4 R5 R6 R7 R8 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨R0, R1, R2, R3, R4, R5, R6, R7, R8, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [R0 R1 R2 R3 R4 R5 R6 R7 R8 HS0 Hg]
        · isplitl [R0 R1 R2 R3 R4 R5 R6 R7 R8 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 625 = 624
    · -- a last step
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t ((hcond1_1 t).mpr h1)], after1_4]
      rw [outsAt1_C V c t h0 h1]
      unfold out1_C_4 sout1_C_0; (try dsimp only)
      have hz : t.val ≠ 0 := by omega
      rw [PhiS1_castSucc V c t, PhiS1_pos V c _ _ hz]
      iintro ⟨⟨⟨R0, R1, R2, R3, R4, R5, R6, R7, R8, HS0⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [R0 R1 R2 R3 R4 R5 R6 R7 R8 HS0 Hg]
      · isplitl [R0 R1 R2 R3 R4 R5 R6 R7 R8 HS0]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          unfold owns; iexists _; isplitr
          swap; · iexact HS0
          ipureintro; exact View.read_writes_of_cover _ _ _ _ _ (scover1_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · -- a middle step
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨⟨R0, R1, R2, R3, R4, R5, R6, R7, R8, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [R0 R1 R2 R3 R4 R5 R6 R7 R8 HS0 Hg]
      · isplitl [R0 R1 R2 R3 R4 R5 R6 R7 R8 HS0]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          unfold owns; iexists _; isplitr
          swap; · iexact HS0
          ipureintro; exact View.read_writes_of_cover _ _ _ _ _ (scover1_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's form back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨R0, R1, R2, R3, R4, R5, R6, R7, R8, HS0⟩, Hg⟩
  isplitl [R0 R1 R2 R3 R4 R5 R6 R7 R8 HS0]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexists _; iexact HS0
  iexact Hg

theorem hout1 (c : Dev nD) : (dat1 V c).Φ (Fin.last cfg1.N) ⊢ Pipeline.ΦA spec1 c :=
  Phi_out1 V c _ (by rw [Fin.val_last]; have : cfg1.N = 17500 := N_1; omega)

end

end Cert.Kernel.Hand

end
-- ==== Proof.KB.Main.lean ====
/-
  The whole program as a run of segments: five stretches of host operations, the two Pallas calls, a closing host
  operation. Between segments every unscoped buffer is held at named contents — a fold from the launch memory: a host
  stretch applies its operations, a call replaces its output array by what its write-backs leave. The run ends with
  every unscoped buffer at the fold's last value; the argument arrays are never written.
-/
import proofs.«171925_j65137474011136_1_alg».proof.Proof.KB.R0Frame
import proofs.«171925_j65137474011136_1_alg».proof.Proof.KB.R1Frame
import proofs.«171925_j65137474011136_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the first call finds them, read at the TensorCore's references. -/
abbrev Vr0 : (c : Dev nD) → (b : Ref sig .tc) → Buf (Elt F) ((c : Thread nD τ).loc b) := fun c b => V5 m c b
/-- After the first call: its arrays at what the pipeline leaves, every other buffer as entered. -/
def W6 (c : Dev nD) : Valuation τ sig (Elt F) :=
  Pipeline.withArrays spec0 c (V5 m c) fun w => (dat0 (Vr0 m) c).arrAt w cfg0.N
theorem W6_arr (c : Dev nD) (w : Fin cfg0.W) :
    W6 m c (Proc.devRef .tc (Pipeline.arrRef spec0 w)) = (dat0 (Vr0 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = V5 m c (Proc.devRef .tc b) := by
  unfold W6; exact Pipeline.withArrays_of_ne spec0 c _ _ b hb
abbrev Vr1 : (c : Dev nD) → (b : Ref sig .tc) → Buf (Elt F) ((c : Thread nD τ).loc b) := fun c b => W6 m c b
theorem hF0 (c : Dev nD) (w : Fin cfg0.W) : (dat0 (Vr0 m) c).arrAt w cfg0.N = Vr1 m c (Pipeline.arrRef spec0 w) :=
  (W6_arr m c w).symm
theorem hrest0 (c : Dev nD) : ∀ b, b ∉ Finset.univ.image (Pipeline.arrRef spec0) → Vr1 m c b = Vr0 m c b :=
  fun b hb => W6_of_ne m c b fun w e => hb (Finset.mem_image.mpr ⟨w, Finset.mem_univ _, e⟩)

/-- After the second call. -/
def W7 (c : Dev nD) : Valuation τ sig (Elt F) :=
  Pipeline.withArrays spec1 c (W6 m c) fun w => (dat1 (Vr1 m) c).arrAt w cfg1.N
theorem W7_arr (c : Dev nD) (w : Fin cfg1.W) :
    W7 m c (Proc.devRef .tc (Pipeline.arrRef spec1 w)) = (dat1 (Vr1 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev Vr2 : (c : Dev nD) → (b : Ref sig .tc) → Buf (Elt F) ((c : Thread nD τ).loc b) := fun c b => W7 m c b
theorem hF1 (c : Dev nD) (w : Fin cfg1.W) : (dat1 (Vr1 m) c).arrAt w cfg1.N = Vr2 m c (Pipeline.arrRef spec1 w) :=
  (W7_arr m c w).symm
theorem hrest1 (c : Dev nD) : ∀ b, b ∉ Finset.univ.image (Pipeline.arrRef spec1) → Vr2 m c b = Vr1 m c b :=
  fun b hb => W7_of_ne m c b fun w e => hb (Finset.mem_image.mpr ⟨w, Finset.mem_univ _, e⟩)

/-- After the closing host operation. -/
abbrev W8 (c : Dev nD) : Valuation τ sig (Elt F) := StableHlo.after hostOps2 (W7 m c)

theorem W8_main_arg0 (c : Dev nD) : W8 m c (Proc.devRef .tc main_arg0) = m ((c : Thread nD τ).loc main_arg0) :=
  calc W8 m c (Proc.devRef .tc main_arg0)
    _ = W7 m c (Proc.devRef .tc main_arg0) := StableHlo.after_of_writes_sub hostOps2 _ hostOps2_writes (by decide)
    _ = W6 m c (Proc.devRef .tc main_arg0) := W7_of_ne m c main_arg0 (by decide)
    _ = V5 m c (Proc.devRef .tc main_arg0) := W6_of_ne m c main_arg0 (by decide)
    _ = m ((c : Thread nD τ).loc main_arg0) := (V5_of m c main_arg0 (by decide)).trans <| (V4_of m c main_arg0 (by decide)).trans <| (V3_of m c main_arg0 (by decide)).trans <| (V2_of m c main_arg0 (by decide)).trans <| (V1_of m c main_arg0 (by decide)).trans rfl

theorem W8_main_arg1 (c : Dev nD) : W8 m c (Proc.devRef .tc main_arg1) = m ((c : Thread nD τ).loc main_arg1) :=
  calc W8 m c (Proc.devRef .tc main_arg1)
    _ = W7 m c (Proc.devRef .tc main_arg1) := StableHlo.after_of_writes_sub hostOps2 _ hostOps2_writes (by decide)
    _ = W6 m c (Proc.devRef .tc main_arg1) := W7_of_ne m c main_arg1 (by decide)
    _ = V5 m c (Proc.devRef .tc main_arg1) := W6_of_ne m c main_arg1 (by decide)
    _ = m ((c : Thread nD τ).loc main_arg1) := (V5_of m c main_arg1 (by decide)).trans <| (V4_of m c main_arg1 (by decide)).trans <| (V3_of m c main_arg1 (by decide)).trans <| (V2_of m c main_arg1 (by decide)).trans <| (V1_of m c main_arg1 (by decide)).trans rfl

theorem W8_main_arg2 (c : Dev nD) : W8 m c (Proc.devRef .tc main_arg2) = m ((c : Thread nD τ).loc main_arg2) :=
  calc W8 m c (Proc.devRef .tc main_arg2)
    _ = W7 m c (Proc.devRef .tc main_arg2) := StableHlo.after_of_writes_sub hostOps2 _ hostOps2_writes (by decide)
    _ = W6 m c (Proc.devRef .tc main_arg2) := (W7_arr m c 2).trans (((dat1 (Vr1 m) c).arrAt_in 2 rfl _).trans (A_eq1 (Vr1 m) c 2))
    _ = V5 m c (Proc.devRef .tc main_arg2) := W6_of_ne m c main_arg2 (by decide)
    _ = m ((c : Thread nD τ).loc main_arg2) := (V5_of m c main_arg2 (by decide)).trans <| (V4_of m c main_arg2 (by decide)).trans <| (V3_of m c main_arg2 (by decide)).trans <| (V2_of m c main_arg2 (by decide)).trans <| (V1_of m c main_arg2 (by decide)).trans rfl

theorem W8_main_arg3 (c : Dev nD) : W8 m c (Proc.devRef .tc main_arg3) = m ((c : Thread nD τ).loc main_arg3) :=
  calc W8 m c (Proc.devRef .tc main_arg3)
    _ = W7 m c (Proc.devRef .tc main_arg3) := StableHlo.after_of_writes_sub hostOps2 _ hostOps2_writes (by decide)
    _ = W6 m c (Proc.devRef .tc main_arg3) := W7_of_ne m c main_arg3 (by decide)
    _ = V5 m c (Proc.devRef .tc main_arg3) := W6_of_ne m c main_arg3 (by decide)
    _ = m ((c : Thread nD τ).loc main_arg3) := (V5_of m c main_arg3 (by decide)).trans <| (V4_of m c main_arg3 (by decide)).trans <| (V3_of m c main_arg3 (by decide)).trans <| (V2_of m c main_arg3 (by decide)).trans <| (V1_of m c main_arg3 (by decide)).trans rfl

/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr1 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m c) ∗ ∃ r, prngReg c r)

set_option backward.isDefEq.respectTransparency.types false in
/-- Pallas call 0 as a segment: entered with every unscoped buffer at the contents before it, left with the call's
    arrays at what its write-backs leave and every other buffer as entered. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (Vr0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (fun b => W6 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment: entered with every unscoped buffer at the contents before it, left with the call's
    arrays at what its write-backs leave and every other buffer as entered. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (Vr1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr1 m c) (fun b => W7 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's eight segments in order. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .region (reg0 m),
    .region (reg1 m),
    .host (hseg hostOps2 hostOps2_sub hostOps2_fresh (W7 m)) ]
theorem main_run (c : Dev nD) : main (F := F) c = Pipeline.Seg.run (segs m) := (main_chain c).trans (by chain_rfl)

set_option backward.isDefEq.respectTransparency.types false in
/-- Every weakly fair execution of the program from memory m with zero counters terminates, nothing faulting, with
    every unscoped buffer at the fold's last value. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W8 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c)⟩) (run_all m ρ)

end Cert.Kernel.Hand

end
-- ==== Proof.KI.Idx.lean ====
/-
  Where the windows' blocks sit: the block index of each window at a grid point, in closed form over the linear point
  index. Call 0's grid is 625 edge blocks by 28 node tiles (the tile fastest): point t is edge block t / 28, tile t % 28.
  Call 1's grid is 28 node tiles by 625 edge blocks (the edge block fastest): point t is tile t / 625, edge block t % 625.
-/
import proofs.«171925_j65137474011136_1_alg».proof.Proof.Gen.KernelIdeal.Launch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem toNat_ofNat_small (k : ℕ) (h : k < 4294967296) : (BitVec.ofNat 32 k).toNat = k := by
  rw [BitVec.toNat_ofNat]; exact Nat.mod_eq_of_lt h

theorem coords0_0 (t : Fin cfg0.N) : (grid0.coords t 0).val = t.val / 28 := by
  have hN : t.val < 17500 := lt_of_lt_of_eq t.isLt (show cfg0.N = 17500 from N_0)
  show t.val / 28 % 625 = t.val / 28
  omega
theorem coords0_1 (t : Fin cfg0.N) : (grid0.coords t 1).val = t.val % 28 := by
  show t.val / 1 % 28 = t.val % 28
  omega
theorem coords1_0 (t : Fin cfg1.N) : (grid1.coords t 0).val = t.val / 625 := by
  have hN : t.val < 17500 := lt_of_lt_of_eq t.isLt (show cfg1.N = 17500 from N_1)
  show t.val / 625 % 28 = t.val / 625
  omega
theorem coords1_1 (t : Fin cfg1.N) : (grid1.coords t 1).val = t.val % 625 := by
  show t.val / 1 % 625 = t.val % 625
  omega

/-- Call 0: the edge-indexed windows (destination words, weights) follow the edge block on axis 1; -/
theorem idx0_0 (t : Fin cfg0.N) : win0_0.index t 0 = 0 ∧ win0_0.index t 1 = t.val / 28 := by
  have hN : t.val < 17500 := lt_of_lt_of_eq t.isLt (show cfg0.N = 17500 from N_0)
  refine ⟨rfl, ?_⟩
  show (BitVec.ofNat 32 (grid0.coords t 0).val).toNat = t.val / 28
  rw [coords0_0, toNat_ofNat_small _ (by omega)]
theorem idx0_1 (t : Fin cfg0.N) : win0_1.index t 0 = 0 ∧ win0_1.index t 1 = t.val / 28 := by
  have hN : t.val < 17500 := lt_of_lt_of_eq t.isLt (show cfg0.N = 17500 from N_0)
  refine ⟨rfl, ?_⟩
  show (BitVec.ofNat 32 (grid0.coords t 0).val).toNat = t.val / 28
  rw [coords0_0, toNat_ofNat_small _ (by omega)]
/-- the node features follow the tile on axis 0; -/
theorem idx0_2 (t : Fin cfg0.N) : win0_2.index t 0 = t.val % 28 ∧ win0_2.index t 1 = 0 := by
  refine ⟨?_, rfl⟩
  show (BitVec.ofNat 32 (grid0.coords t 1).val).toNat = t.val % 28
  rw [coords0_1, toNat_ofNat_small _ (by omega)]
/-- the output follows the edge block on axis 0. -/
theorem idx0_3 (t : Fin cfg0.N) : win0_3.index t 0 = t.val / 28 ∧ win0_3.index t 1 = 0 := by
  have hN : t.val < 17500 := lt_of_lt_of_eq t.isLt (show cfg0.N = 17500 from N_0)
  refine ⟨?_, rfl⟩
  show (BitVec.ofNat 32 (grid0.coords t 0).val).toNat = t.val / 28
  rw [coords0_0, toNat_ofNat_small _ (by omega)]

/-- Call 1: the source words and the gathered rows follow the edge block; the weight matrix and the bias are one block;
    the output follows the node tile. -/
theorem idx1_0 (t : Fin cfg1.N) : win1_0.index t 0 = 0 ∧ win1_0.index t 1 = t.val % 625 := by
  refine ⟨rfl, ?_⟩
  show (BitVec.ofNat 32 (grid1.coords t 1).val).toNat = t.val % 625
  rw [coords1_1, toNat_ofNat_small _ (by omega)]
theorem idx1_1 (t : Fin cfg1.N) : win1_1.index t 0 = t.val % 625 ∧ win1_1.index t 1 = 0 := by
  refine ⟨?_, rfl⟩
  show (BitVec.ofNat 32 (grid1.coords t 1).val).toNat = t.val % 625
  rw [coords1_1, toNat_ofNat_small _ (by omega)]
theorem idx1_2 (t : Fin cfg1.N) : win1_2.index t 0 = 0 ∧ win1_2.index t 1 = 0 := ⟨rfl, rfl⟩
theorem idx1_3 (t : Fin cfg1.N) : win1_3.index t 0 = 0 ∧ win1_3.index t 1 = 0 := ⟨rfl, rfl⟩
theorem idx1_4 (t : Fin cfg1.N) : win1_4.index t 0 = t.val / 625 ∧ win1_4.index t 1 = 0 := by
  have hN : t.val < 17500 := lt_of_lt_of_eq t.isLt (show cfg1.N = 17500 from N_1)
  refine ⟨?_, rfl⟩
  show (BitVec.ofNat 32 (grid1.coords t 0).val).toNat = t.val / 625
  rw [coords1_0, toNat_ofNat_small _ (by omega)]

end Cert.KernelIdeal.Hand

end
-- ==== Proof.KI.R0Runs.lean ====
/-
  Pallas call 0: what its per-point runs share. A window's block at a grid point, read off the array as the call finds
  it; the two conditions of the body (first and last step of the reduction axis) in closed form over the linear point
  index; where the output window is idle; the staging and scratch buffers as the body is handed them.
-/
import proofs.«171925_j65137474011136_1_alg».proof.Proof.Gen.KernelIdeal.Launch
import proofs.«171925_j65137474011136_1_alg».proof.Proof.Gen.KernelIdeal.Skeleton
import proofs.«171925_j65137474011136_1_alg».proof.Proof.Gen.KernelIdeal.Points
import proofs.«171925_j65137474011136_1_alg».proof.Proof.KI.Idx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-- The body's first condition: this is the first step of the reduction axis. -/
abbrev cond0_0 (i : grid0.Coords) : Prop := (Scalar.cmpi .ne (Scalar.extui (Scalar.cmpi .eq (BitVec.ofNat 32 (i 1).val) 0#32)) 0#32) = 1#1
theorem hcond0_0 (t : Fin cfg0.N) : cond0_0 (grid0.coords t) ↔ t.val % 28 = 0 := by
  have key : ∀ k : Fin 28, ((Scalar.cmpi .ne (Scalar.extui (Scalar.cmpi .eq (BitVec.ofNat 32 k.val) 0#32)) 0#32) = 1#1) ↔ k.val = 0 := by decide
  show ((Scalar.cmpi .ne (Scalar.extui (Scalar.cmpi .eq (BitVec.ofNat 32 (grid0.coords t 1).val) 0#32)) 0#32) = 1#1) ↔ t.val % 28 = 0
  rw [coords0_1]
  exact key ⟨t.val % 28, Nat.mod_lt _ (by decide)⟩

/-- The body's second condition: this is the last step of the reduction axis. -/
abbrev cond0_1 (i : grid0.Coords) : Prop := k0_cond2 i = 1#1
theorem hcond0_1 (t : Fin cfg0.N) : cond0_1 (grid0.coords t) ↔ t.val % 28 = 27 := by
  have key : ∀ k : Fin 28, ((Scalar.cmpi .ne (Scalar.extui (Scalar.cmpi .eq (BitVec.ofNat 32 k.val) 27#32)) 0#32) = 1#1) ↔ k.val = 27 := by decide
  show ((Scalar.cmpi .ne (Scalar.extui (Scalar.cmpi .eq (BitVec.ofNat 32 (grid0.coords t 1).val) 27#32)) 0#32) = 1#1) ↔ t.val % 28 = 27
  rw [coords0_1]
  exact key ⟨t.val % 28, Nat.mod_lt _ (by decide)⟩
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- Away from the last step the output window is idle and not written back; at the last step it is live. -/
theorem idleAt0_3 (t : Fin cfg0.N) (h : ¬cond0_1 (grid0.coords t)) : cfg0.idle 3 (grid0.coords t) = true := by
  show (!(k0_cond2 (grid0.coords t) == 1#1)) = true
  rw [Bool.not_eq_true', beq_eq_false_iff_ne]
  exact h
theorem noFlush0_3 (t : Fin cfg0.N) (h : ¬cond0_1 (grid0.coords t)) : (cfg0.win 3).flush t = false :=
  Bool.eq_false_iff.mpr fun hf => h ((hcond0_1 t).mpr ((flush0_3 t).mp hf))
theorem liveAt0_3_C (t : Fin cfg0.N) (h : cond0_1 (grid0.coords t)) : cfg0.idle 3 (grid0.coords t) = false := by
  show (!(k0_cond2 (grid0.coords t) == 1#1)) = false
  rw [Bool.not_eq_false', beq_iff_eq]
  exact h

/-- One staging buffer of the output window, through which its contents are stated. -/
abbrev VO0_3 : View sig .tc .vmem S1280x128 .bf16 := (Memref.whole cc0_stg3_0 : Memref sig .tc .vmem S1280x128 .bf16).view
abbrev ms0_0 (t : Fin cfg0.N) : Memref sig .tc .vmem S1x1280 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1280 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1792x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x128 .bf16 := win0_3.stage (cfg0.slots t 3)
abbrev hs0_3 (t : Fin cfg0.N) : (ms0_3 t).IsWhole := hstage0_3 ((cfg0.slots t 3).cast nbuf0_3)
/-- The accumulator: a scoped buffer of the call's own, carried from point to point. -/
abbrev scM0_0 : Memref sig .tc .vmem S1280x128 .f32 := Memref.whole cc0_scratch0
abbrev VS0_0 : View sig .tc .vmem S1280x128 .f32 := scM0_0.view

/-- What the call's invariant holds before its first point: every scoped buffer that is no staging buffer of this call at
    some contents (the accumulator among them), and the generator register at some state. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0_0, owns_whole]; try rfl

end Cert.KernelIdeal.Hand

end
-- ==== Proof.KI.R0RunA.lean ====
/-
  Pallas call 0, the body at the first step of the reduction axis (the accumulator is reset, then added to; the output window is left as found): on whole staging buffers — the inputs at given contents, the accumulator as the
  point before left it — the body runs to the end, the inputs as they were, and the buffers it stores into holding
  the stored pieces.
-/
import proofs.«171925_j65137474011136_1_alg».proof.Proof.KI.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (last first), with the proof that the body runs to a continuation holding them. -/
noncomputable def kernelRun0_A (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : cond0_0 i) (hc1 : ¬cond0_1 i)
    (x0 : Vec F S1x1280 .i32) (x1 : Vec F S1x1280 .f32) (x2 : Vec F S1792x128 .bf16) :
    Σ' (L3 : List (View.Piece (Elt F) S1280x128 .bf16)), { LS0 : List (View.Piece (Elt F) S1280x128 .f32) //
      ∀ (xi3 : Vec F S1280x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_scale_kernel i arg2 harg2 arg3 harg3 arg4 harg4 arg5 harg5 arg6 harg6) K } := by
  refine ⟨[], ?_, fun xi3 E K => ?run⟩
  case run =>
    simp only [cc0__gather_scale_kernel_eq_skeleton]; unfold cc0__gather_scale_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R0RunB.lean ====
/-
  Pallas call 0, the body at a middle step of the reduction axis (the accumulator is added to; the output window is left as found): on whole staging buffers — the inputs at given contents, the accumulator as the
  point before left it — the body runs to the end, the inputs as they were, and the buffers it stores into holding
  the stored pieces.
-/
import proofs.«171925_j65137474011136_1_alg».proof.Proof.KI.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (last first), with the proof that the body runs to a continuation holding them. -/
noncomputable def kernelRun0_B (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : ¬cond0_0 i) (hc1 : ¬cond0_1 i)
    (x0 : Vec F S1x1280 .i32) (x1 : Vec F S1x1280 .f32) (x2 : Vec F S1792x128 .bf16) (xs0 : Vec F S1280x128 .f32) :
    Σ' (L3 : List (View.Piece (Elt F) S1280x128 .bf16)), { LS0 : List (View.Piece (Elt F) S1280x128 .f32) //
      ∀ (xi3 : Vec F S1280x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_scale_kernel i arg2 harg2 arg3 harg3 arg4 harg4 arg5 harg5 arg6 harg6) K } := by
  refine ⟨[], ?_, fun xi3 E K => ?run⟩
  case run =>
    simp only [cc0__gather_scale_kernel_eq_skeleton]; unfold cc0__gather_scale_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R0RunC.lean ====
/-
  Pallas call 0, the body at the last step of the reduction axis (the accumulator is added to, then stored into the output window): on whole staging buffers — the inputs at given contents, the accumulator as the
  point before left it — the body runs to the end, the inputs as they were, and the buffers it stores into holding
  the stored pieces.
-/
import proofs.«171925_j65137474011136_1_alg».proof.Proof.KI.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (last first), with the proof that the body runs to a continuation holding them. -/
noncomputable def kernelRun0_C (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : ¬cond0_0 i) (hc1 : cond0_1 i)
    (x0 : Vec F S1x1280 .i32) (x1 : Vec F S1x1280 .f32) (x2 : Vec F S1792x128 .bf16) (xs0 : Vec F S1280x128 .f32) :
    Σ' (L3 : List (View.Piece (Elt F) S1280x128 .bf16)), { LS0 : List (View.Piece (Elt F) S1280x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gather_scale_kernel i arg2 harg2 arg3 harg3 arg4 harg4 arg5 harg5 arg6 harg6) K } := by
  refine ⟨?_, ?_, fun E K => ?run⟩
  case run =>
    simp only [cc0__gather_scale_kernel_eq_skeleton]; unfold cc0__gather_scale_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R0Frame.lean ====
/-
  Pallas call 0: what the accumulator and the output window hold after each grid point, by recursion on the point
  (the first step of the reduction axis resets the accumulator and adds the step's product, every later step adds
  to what the step before left, the last step also stores the accumulator into the output window); the invariant
  that carries the accumulator between points; the per-point obligation of the body.
-/
import proofs.«171925_j65137474011136_1_alg».proof.Proof.KI.R0RunA
import proofs.«171925_j65137474011136_1_alg».proof.Proof.KI.R0RunB
import proofs.«171925_j65137474011136_1_alg».proof.Proof.KI.R0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What the body leaves in the output window's staging buffer at a step of kind A: its stored pieces read back (none: a placeholder nothing consults). -/
def out0_A_3 (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : cond0_0 i) (hc1 : ¬cond0_1 i)
    (x0 : Vec F S1x1280 .i32) (x1 : Vec F S1x1280 .f32) (x2 : Vec F S1792x128 .bf16) : Vec F S1280x128 .bf16 :=
  VO0_3.read (Elt F) (VO0_3.writes (Elt F) VO0_3.junk (kernelRun0_A c i arg2 harg2 arg3 harg3 arg4 harg4 arg5 harg5 arg6 harg6 hc0 hc1 x0 x1 x2).1)

theorem scover0_A_0 (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : cond0_0 i) (hc1 : ¬cond0_1 i)
    (x0 : Vec F S1x1280 .i32) (x1 : Vec F S1x1280 .f32) (x2 : Vec F S1792x128 .bf16) (y : S1280x128.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1280x128.size (by sl_kernel_rfl) y

/-- What a step of kind A leaves in the accumulator: its stored pieces read back. -/
def sout0_A_0 (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : cond0_0 i) (hc1 : ¬cond0_1 i)
    (x0 : Vec F S1x1280 .i32) (x1 : Vec F S1x1280 .f32) (x2 : Vec F S1792x128 .bf16) : Vec F S1280x128 .f32 :=
  VS0_0.read (Elt F) (VS0_0.writes (Elt F) VS0_0.junk (kernelRun0_A c i arg2 harg2 arg3 harg3 arg4 harg4 arg5 harg5 arg6 harg6 hc0 hc1 x0 x1 x2).2.1)

/-- What the body leaves in the output window's staging buffer at a step of kind B: its stored pieces read back (none: a placeholder nothing consults). -/
def out0_B_3 (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : ¬cond0_0 i) (hc1 : ¬cond0_1 i)
    (x0 : Vec F S1x1280 .i32) (x1 : Vec F S1x1280 .f32) (x2 : Vec F S1792x128 .bf16) (xs0 : Vec F S1280x128 .f32) : Vec F S1280x128 .bf16 :=
  VO0_3.read (Elt F) (VO0_3.writes (Elt F) VO0_3.junk (kernelRun0_B c i arg2 harg2 arg3 harg3 arg4 harg4 arg5 harg5 arg6 harg6 hc0 hc1 x0 x1 x2 xs0).1)

theorem scover0_B_0 (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : ¬cond0_0 i) (hc1 : ¬cond0_1 i)
    (x0 : Vec F S1x1280 .i32) (x1 : Vec F S1x1280 .f32) (x2 : Vec F S1792x128 .bf16) (xs0 : Vec F S1280x128 .f32) (y : S1280x128.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1280x128.size (by sl_kernel_rfl) y

/-- What a step of kind B leaves in the accumulator: its stored pieces read back. -/
def sout0_B_0 (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : ¬cond0_0 i) (hc1 : ¬cond0_1 i)
    (x0 : Vec F S1x1280 .i32) (x1 : Vec F S1x1280 .f32) (x2 : Vec F S1792x128 .bf16) (xs0 : Vec F S1280x128 .f32) : Vec F S1280x128 .f32 :=
  VS0_0.read (Elt F) (VS0_0.writes (Elt F) VS0_0.junk (kernelRun0_B c i arg2 harg2 arg3 harg3 arg4 harg4 arg5 harg5 arg6 harg6 hc0 hc1 x0 x1 x2 xs0).2.1)

theorem cover0_C_3 (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : ¬cond0_0 i) (hc1 : cond0_1 i)
    (x0 : Vec F S1x1280 .i32) (x1 : Vec F S1x1280 .f32) (x2 : Vec F S1792x128 .bf16) (xs0 : Vec F S1280x128 .f32) (y : S1280x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1280x128.size (by sl_kernel_rfl) y

/-- What the body leaves in the output window's staging buffer at a step of kind C: its stored pieces read back. -/
def out0_C_3 (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : ¬cond0_0 i) (hc1 : cond0_1 i)
    (x0 : Vec F S1x1280 .i32) (x1 : Vec F S1x1280 .f32) (x2 : Vec F S1792x128 .bf16) (xs0 : Vec F S1280x128 .f32) : Vec F S1280x128 .bf16 :=
  VO0_3.read (Elt F) (VO0_3.writes (Elt F) VO0_3.junk (kernelRun0_C c i arg2 harg2 arg3 harg3 arg4 harg4 arg5 harg5 arg6 harg6 hc0 hc1 x0 x1 x2 xs0).1)

theorem scover0_C_0 (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : ¬cond0_0 i) (hc1 : cond0_1 i)
    (x0 : Vec F S1x1280 .i32) (x1 : Vec F S1x1280 .f32) (x2 : Vec F S1792x128 .bf16) (xs0 : Vec F S1280x128 .f32) (y : S1280x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1280x128.size (by sl_kernel_rfl) y

/-- What a step of kind C leaves in the accumulator: its stored pieces read back. -/
def sout0_C_0 (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : ¬cond0_0 i) (hc1 : cond0_1 i)
    (x0 : Vec F S1x1280 .i32) (x1 : Vec F S1x1280 .f32) (x2 : Vec F S1792x128 .bf16) (xs0 : Vec F S1280x128 .f32) : Vec F S1280x128 .f32 :=
  VS0_0.read (Elt F) (VS0_0.writes (Elt F) VS0_0.junk (kernelRun0_C c i arg2 harg2 arg3 harg3 arg4 harg4 arg5 harg5 arg6 harg6 hc0 hc1 x0 x1 x2 xs0).2.1)

section
variable (V : (c : Dev nD) → (b : Ref sig .tc) → Buf (Elt F) ((c : Thread nD τ).loc b))

/-- What the output window's staging buffer and the accumulator hold after the body at position n. -/
def outsAt0 (c : Dev nD) : (n : ℕ) → n < cfg0.N → Vec F S1280x128 .bf16 × Vec F S1280x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 28 = 0 then
      if h1 : (n + 1) % 28 = 27 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 28 = 27 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 28 = 0) (h1 : ¬t.val % 28 = 27) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 28 = 0) (h1 : ¬t.val % 28 = 27) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 28 = 0) (h1 : t.val % 28 = 27) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The call's invariant before position n: before the first point, every scoped buffer that is no staging buffer of
    the call at some contents; afterwards the same with the accumulator at what the point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f)) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f)) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f)) ∗ (∃ r, prngReg c r)) := by
  cases n with
  | zero => exact absurd rfl hz
  | succ n => rfl

/-- The proof data of the call on core c: the arrays as the call finds them; after the body each input's buffer at its
    block and the output's at the recursion's first component; the invariant carrying the accumulator. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨_ + 4, h⟩ => absurd h (Nat.not_lt.2 (Nat.le_add_left _ _))
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
/-- The body at any point: the closed forms say which kind of step the point is; the invariant hands the body the
    accumulator as the point before left it (at anything at the very first point) and takes it back at this point's
    contents; the inputs are read and left in place; the output window is stored whole at a last step and left as
    found elsewhere. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 17500 := lt_of_lt_of_eq t.isLt (show cfg0.N = 17500 from N_0)
  by_cases h0 : t.val % 28 = 0
  · by_cases h1 : t.val % 28 = 27
    · exfalso; omega
    · -- a first step
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, R1, R2, R3, R4, R5, R6, R7, R8, R9⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 R1 R2 R3 R4 R5 R6 R7 R8 R9 Hg]
        · isplitl [HS0 R1 R2 R3 R4 R5 R6 R7 R8 R9]
          · isplitl [HS0]
            · unfold owns; iexists _; isplitr
              swap; · iexact HS0
              ipureintro; exact View.read_writes_of_cover _ _ _ _ _ (scover0_A_0 c _ _ _ _ _ _ _ _ _ _ _ _ _ _ _ _)
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            iexact R9
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS0, R1, R2, R3, R4, R5, R6, R7, R8, R9⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 R1 R2 R3 R4 R5 R6 R7 R8 R9 Hg]
        · isplitl [HS0 R1 R2 R3 R4 R5 R6 R7 R8 R9]
          · isplitl [HS0]
            · unfold owns; iexists _; isplitr
              swap; · iexact HS0
              ipureintro; exact View.read_writes_of_cover _ _ _ _ _ (scover0_A_0 c _ _ _ _ _ _ _ _ _ _ _ _ _ _ _ _)
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            iexact R9
          iexact Hg
        isplitl [Ho]; · iexact Ho
        isplitl [H0]; · iexact H0
        isplitl [H1]; · iexact H1
        isplitl [H2]; · iexact H2
        iexists _; iexact H3
  · by_cases h1 : t.val % 28 = 27
    · -- a last step
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_C t ((hcond0_1 t).mpr h1)], after0_3]
      rw [outsAt0_C V c t h0 h1]
      unfold out0_C_3 sout0_C_0; (try dsimp only)
      have hz : t.val ≠ 0 := by omega
      rw [PhiS0_castSucc V c t, PhiS0_pos V c _ _ hz]
      iintro ⟨⟨⟨HS0, R1, R2, R3, R4, R5, R6, R7, R8, R9⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 R1 R2 R3 R4 R5 R6 R7 R8 R9 Hg]
      · isplitl [HS0 R1 R2 R3 R4 R5 R6 R7 R8 R9]
        · isplitl [HS0]
          · unfold owns; iexists _; isplitr
            swap; · iexact HS0
            ipureintro; exact View.read_writes_of_cover _ _ _ _ _ (scover0_C_0 c _ _ _ _ _ _ _ _ _ _ _ _ _ _ _ _ _)
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact R9
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · -- a middle step
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0; (try dsimp only)
      have hz : t.val ≠ 0 := by omega
      rw [PhiS0_castSucc V c t, PhiS0_pos V c _ _ hz]
      iintro ⟨⟨⟨HS0, R1, R2, R3, R4, R5, R6, R7, R8, R9⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 R1 R2 R3 R4 R5 R6 R7 R8 R9 Hg]
      · isplitl [HS0 R1 R2 R3 R4 R5 R6 R7 R8 R9]
        · isplitl [HS0]
          · unfold owns; iexists _; isplitr
            swap; · iexact HS0
            ipureintro; exact View.read_writes_of_cover _ _ _ _ _ (scover0_B_0 c _ _ _ _ _ _ _ _ _ _ _ _ _ _ _ _ _)
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact R9
        iexact Hg
      isplitl [Ho]; · iexact Ho
      isplitl [H0]; · iexact H0
      isplitl [H1]; · iexact H1
      isplitl [H2]; · iexact H2
      iexists _; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's form back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, R1, R2, R3, R4, R5, R6, R7, R8, R9⟩, Hg⟩
  isplitl [HS0 R1 R2 R3 R4 R5 R6 R7 R8 R9]
  · isplitl [HS0]
    · iexists _; iexact HS0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  iexact Hg

theorem hout0 (c : Dev nD) : (dat0 V c).Φ (Fin.last cfg0.N) ⊢ Pipeline.ΦA spec0 c :=
  Phi_out0 V c _ (by rw [Fin.val_last]; have : cfg0.N = 17500 := N_0; omega)

end

end Cert.KernelIdeal.Hand

end
-- ==== Proof.KI.R1Runs.lean ====
/-
  Pallas call 1: what its per-point runs share. A window's block at a grid point, read off the array as the call finds
  it; the two conditions of the body (first and last step of the reduction axis) in closed form over the linear point
  index; where the output window is idle; the staging and scratch buffers as the body is handed them.
-/
import proofs.«171925_j65137474011136_1_alg».proof.Proof.Gen.KernelIdeal.Launch
import proofs.«171925_j65137474011136_1_alg».proof.Proof.Gen.KernelIdeal.Skeleton
import proofs.«171925_j65137474011136_1_alg».proof.Proof.Gen.KernelIdeal.Points
import proofs.«171925_j65137474011136_1_alg».proof.Proof.KI.Idx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-- The body's first condition: this is the first step of the reduction axis. -/
abbrev cond1_0 (i : grid1.Coords) : Prop := (Scalar.cmpi .ne (Scalar.extui (Scalar.cmpi .eq (BitVec.ofNat 32 (i 1).val) 0#32)) 0#32) = 1#1
theorem hcond1_0 (t : Fin cfg1.N) : cond1_0 (grid1.coords t) ↔ t.val % 625 = 0 := by
  have key : ∀ k : Fin 625, ((Scalar.cmpi .ne (Scalar.extui (Scalar.cmpi .eq (BitVec.ofNat 32 k.val) 0#32)) 0#32) = 1#1) ↔ k.val = 0 := by decide
  show ((Scalar.cmpi .ne (Scalar.extui (Scalar.cmpi .eq (BitVec.ofNat 32 (grid1.coords t 1).val) 0#32)) 0#32) = 1#1) ↔ t.val % 625 = 0
  rw [coords1_1]
  exact key ⟨t.val % 625, Nat.mod_lt _ (by decide)⟩

/-- The body's second condition: this is the last step of the reduction axis. -/
abbrev cond1_1 (i : grid1.Coords) : Prop := k1_cond2 i = 1#1
theorem hcond1_1 (t : Fin cfg1.N) : cond1_1 (grid1.coords t) ↔ t.val % 625 = 624 := by
  have key : ∀ k : Fin 625, ((Scalar.cmpi .ne (Scalar.extui (Scalar.cmpi .eq (BitVec.ofNat 32 k.val) 624#32)) 0#32) = 1#1) ↔ k.val = 624 := by decide
  show ((Scalar.cmpi .ne (Scalar.extui (Scalar.cmpi .eq (BitVec.ofNat 32 (grid1.coords t 1).val) 624#32)) 0#32) = 1#1) ↔ t.val % 625 = 624
  rw [coords1_1]
  exact key ⟨t.val % 625, Nat.mod_lt _ (by decide)⟩
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Away from the last step the output window is idle and not written back; at the last step it is live. -/
theorem idleAt1_4 (t : Fin cfg1.N) (h : ¬cond1_1 (grid1.coords t)) : cfg1.idle 4 (grid1.coords t) = true := by
  show (!(k1_cond2 (grid1.coords t) == 1#1)) = true
  rw [Bool.not_eq_true', beq_eq_false_iff_ne]
  exact h
theorem noFlush1_4 (t : Fin cfg1.N) (h : ¬cond1_1 (grid1.coords t)) : (cfg1.win 4).flush t = false :=
  Bool.eq_false_iff.mpr fun hf => h ((hcond1_1 t).mpr ((flush1_4 t).mp hf))
theorem liveAt1_4_C (t : Fin cfg1.N) (h : cond1_1 (grid1.coords t)) : cfg1.idle 4 (grid1.coords t) = false := by
  show (!(k1_cond2 (grid1.coords t) == 1#1)) = false
  rw [Bool.not_eq_false', beq_iff_eq]
  exact h

/-- One staging buffer of the output window, through which its contents are stated. -/
abbrev VO1_4 : View sig .tc .vmem S1792x128 .f32 := (Memref.whole cc1_stg4_0 : Memref sig .tc .vmem S1792x128 .f32).view
abbrev ms1_0 (t : Fin cfg1.N) : Memref sig .tc .vmem S1x1280 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1280x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1792x128 .f32 := win1_4.stage (cfg1.slots t 4)
abbrev hs1_4 (t : Fin cfg1.N) : (ms1_4 t).IsWhole := hstage1_4 ((cfg1.slots t 4).cast nbuf1_4)
/-- The accumulator: a scoped buffer of the call's own, carried from point to point. -/
abbrev scM1_0 : Memref sig .tc .vmem S1792x128 .f32 := Memref.whole cc1_scratch0
abbrev VS1_0 : View sig .tc .vmem S1792x128 .f32 := scM1_0.view

/-- What the call's invariant holds before its first point: every scoped buffer that is no staging buffer of this call at
    some contents (the accumulator among them), and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KI.R1RunA.lean ====
/-
  Pallas call 1, the body at the first step of the reduction axis (the accumulator is reset, then added to; the output window is left as found): on whole staging buffers — the inputs at given contents, the accumulator as the
  point before left it — the body runs to the end, the inputs as they were, and the buffers it stores into holding
  the stored pieces.
-/
import proofs.«171925_j65137474011136_1_alg».proof.Proof.KI.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (last first), with the proof that the body runs to a continuation holding them. -/
noncomputable def kernelRun1_A (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : cond1_0 i) (hc1 : ¬cond1_1 i)
    (x0 : Vec F S1x1280 .i32) (x1 : Vec F S1280x128 .bf16) (x2 : Vec F S128x128 .f32) (x3 : Vec F S1x128 .f32) :
    Σ' (L4 : List (View.Piece (Elt F) S1792x128 .f32)), { LS0 : List (View.Piece (Elt F) S1792x128 .f32) //
      ∀ (xi4 : Vec F S1792x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__scatter_linear_kernel i arg2 harg2 arg3 harg3 arg4 harg4 arg5 harg5 arg6 harg6 arg7 harg7) K } := by
  refine ⟨[], ?_, fun xi4 E K => ?run⟩
  case run =>
    simp only [cc1__scatter_linear_kernel_eq_skeleton]; unfold cc1__scatter_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.R1RunB.lean ====
/-
  Pallas call 1, the body at a middle step of the reduction axis (the accumulator is added to; the output window is left as found): on whole staging buffers — the inputs at given contents, the accumulator as the
  point before left it — the body runs to the end, the inputs as they were, and the buffers it stores into holding
  the stored pieces.
-/
import proofs.«171925_j65137474011136_1_alg».proof.Proof.KI.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (last first), with the proof that the body runs to a continuation holding them. -/
noncomputable def kernelRun1_B (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : ¬cond1_0 i) (hc1 : ¬cond1_1 i)
    (x0 : Vec F S1x1280 .i32) (x1 : Vec F S1280x128 .bf16) (x2 : Vec F S128x128 .f32) (x3 : Vec F S1x128 .f32) (xs0 : Vec F S1792x128 .f32) :
    Σ' (L4 : List (View.Piece (Elt F) S1792x128 .f32)), { LS0 : List (View.Piece (Elt F) S1792x128 .f32) //
      ∀ (xi4 : Vec F S1792x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__scatter_linear_kernel i arg2 harg2 arg3 harg3 arg4 harg4 arg5 harg5 arg6 harg6 arg7 harg7) K } := by
  refine ⟨[], ?_, fun xi4 E K => ?run⟩
  case run =>
    simp only [cc1__scatter_linear_kernel_eq_skeleton]; unfold cc1__scatter_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.R1RunC.lean ====
/-
  Pallas call 1, the body at the last step of the reduction axis (the accumulator is added to, then stored into the output window): on whole staging buffers — the inputs at given contents, the accumulator as the
  point before left it — the body runs to the end, the inputs as they were, and the buffers it stores into holding
  the stored pieces.
-/
import proofs.«171925_j65137474011136_1_alg».proof.Proof.KI.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (last first), with the proof that the body runs to a continuation holding them. -/
noncomputable def kernelRun1_C (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : ¬cond1_0 i) (hc1 : cond1_1 i)
    (x0 : Vec F S1x1280 .i32) (x1 : Vec F S1280x128 .bf16) (x2 : Vec F S128x128 .f32) (x3 : Vec F S1x128 .f32) (xs0 : Vec F S1792x128 .f32) :
    Σ' (L4 : List (View.Piece (Elt F) S1792x128 .f32)), { LS0 : List (View.Piece (Elt F) S1792x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__scatter_linear_kernel i arg2 harg2 arg3 harg3 arg4 harg4 arg5 harg5 arg6 harg6 arg7 harg7) K } := by
  refine ⟨?_, ?_, fun E K => ?run⟩
  case run =>
    simp only [cc1__scatter_linear_kernel_eq_skeleton]; unfold cc1__scatter_linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.R1Frame.lean ====
/-
  Pallas call 1: what the accumulator and the output window hold after each grid point, by recursion on the point
  (the first step of the reduction axis resets the accumulator and adds the step's product, every later step adds
  to what the step before left, the last step also stores the accumulator into the output window); the invariant
  that carries the accumulator between points; the per-point obligation of the body.
-/
import proofs.«171925_j65137474011136_1_alg».proof.Proof.KI.R1RunA
import proofs.«171925_j65137474011136_1_alg».proof.Proof.KI.R1RunB
import proofs.«171925_j65137474011136_1_alg».proof.Proof.KI.R1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What the body leaves in the output window's staging buffer at a step of kind A: its stored pieces read back (none: a placeholder nothing consults). -/
def out1_A_4 (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : cond1_0 i) (hc1 : ¬cond1_1 i)
    (x0 : Vec F S1x1280 .i32) (x1 : Vec F S1280x128 .bf16) (x2 : Vec F S128x128 .f32) (x3 : Vec F S1x128 .f32) : Vec F S1792x128 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

theorem scover1_A_0 (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : cond1_0 i) (hc1 : ¬cond1_1 i)
    (x0 : Vec F S1x1280 .i32) (x1 : Vec F S1280x128 .bf16) (x2 : Vec F S128x128 .f32) (x3 : Vec F S1x128 .f32) (y : S1792x128.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S1792x128.size (by sl_kernel_rfl) y

/-- What a step of kind A leaves in the accumulator: its stored pieces read back. -/
def sout1_A_0 (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : cond1_0 i) (hc1 : ¬cond1_1 i)
    (x0 : Vec F S1x1280 .i32) (x1 : Vec F S1280x128 .bf16) (x2 : Vec F S128x128 .f32) (x3 : Vec F S1x128 .f32) : Vec F S1792x128 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- What the body leaves in the output window's staging buffer at a step of kind B: its stored pieces read back (none: a placeholder nothing consults). -/
def out1_B_4 (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : ¬cond1_0 i) (hc1 : ¬cond1_1 i)
    (x0 : Vec F S1x1280 .i32) (x1 : Vec F S1280x128 .bf16) (x2 : Vec F S128x128 .f32) (x3 : Vec F S1x128 .f32) (xs0 : Vec F S1792x128 .f32) : Vec F S1792x128 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

theorem scover1_B_0 (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : ¬cond1_0 i) (hc1 : ¬cond1_1 i)
    (x0 : Vec F S1x1280 .i32) (x1 : Vec F S1280x128 .bf16) (x2 : Vec F S128x128 .f32) (x3 : Vec F S1x128 .f32) (xs0 : Vec F S1792x128 .f32) (y : S1792x128.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S1792x128.size (by sl_kernel_rfl) y

/-- What a step of kind B leaves in the accumulator: its stored pieces read back. -/
def sout1_B_0 (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : ¬cond1_0 i) (hc1 : ¬cond1_1 i)
    (x0 : Vec F S1x1280 .i32) (x1 : Vec F S1280x128 .bf16) (x2 : Vec F S128x128 .f32) (x3 : Vec F S1x128 .f32) (xs0 : Vec F S1792x128 .f32) : Vec F S1792x128 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

theorem cover1_C_4 (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : ¬cond1_0 i) (hc1 : cond1_1 i)
    (x0 : Vec F S1x1280 .i32) (x1 : Vec F S1280x128 .bf16) (x2 : Vec F S128x128 .f32) (x3 : Vec F S1x128 .f32) (xs0 : Vec F S1792x128 .f32) (y : S1792x128.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1792x128.size (by sl_kernel_rfl) y

/-- What the body leaves in the output window's staging buffer at a step of kind C: its stored pieces read back. -/
def out1_C_4 (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : ¬cond1_0 i) (hc1 : cond1_1 i)
    (x0 : Vec F S1x1280 .i32) (x1 : Vec F S1280x128 .bf16) (x2 : Vec F S128x128 .f32) (x3 : Vec F S1x128 .f32) (xs0 : Vec F S1792x128 .f32) : Vec F S1792x128 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

theorem scover1_C_0 (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : ¬cond1_0 i) (hc1 : cond1_1 i)
    (x0 : Vec F S1x1280 .i32) (x1 : Vec F S1280x128 .bf16) (x2 : Vec F S128x128 .f32) (x3 : Vec F S1x128 .f32) (xs0 : Vec F S1792x128 .f32) (y : S1792x128.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1792x128.size (by sl_kernel_rfl) y

/-- What a step of kind C leaves in the accumulator: its stored pieces read back. -/
def sout1_C_0 (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : ¬cond1_0 i) (hc1 : cond1_1 i)
    (x0 : Vec F S1x1280 .i32) (x1 : Vec F S1280x128 .bf16) (x2 : Vec F S128x128 .f32) (x3 : Vec F S1x128 .f32) (xs0 : Vec F S1792x128 .f32) : Vec F S1792x128 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

section
variable (V : (c : Dev nD) → (b : Ref sig .tc) → Buf (Elt F) ((c : Thread nD τ).loc b))

/-- What the output window's staging buffer and the accumulator hold after the body at position n. -/
def outsAt1 (c : Dev nD) : (n : ℕ) → n < cfg1.N → Vec F S1792x128 .f32 × Vec F S1792x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 625 = 0 then
      if h1 : (n + 1) % 625 = 624 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 625 = 624 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 625 = 0) (h1 : ¬t.val % 625 = 624) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 625 = 0) (h1 : ¬t.val % 625 = 624) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 625 = 0) (h1 : t.val % 625 = 624) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The call's invariant before position n: before the first point, every scoped buffer that is no staging buffer of
    the call at some contents; afterwards the same with the accumulator at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2)) ∗ (∃ r, prngReg c r)) := by
  cases n with
  | zero => exact absurd rfl hz
  | succ n => rfl

/-- The proof data of the call on core c: the arrays as the call finds them; after the body each input's buffer at its
    block and the output's at the recursion's first component; the invariant carrying the accumulator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨_ + 5, h⟩ => absurd h (Nat.not_lt.2 (Nat.le_add_left _ _))
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the closed forms say which kind of step the point is; the invariant hands the body the
    accumulator as the point before left it (at anything at the very first point) and takes it back at this point's
    contents; the inputs are read and left in place; the output window is stored whole at a last step and left as
    found elsewhere. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 17500 := lt_of_lt_of_eq t.isLt (show cfg1.N = 17500 from N_1)
  by_cases h0 : t.val % 625 = 0
  · by_cases h1 : t.val % 625 = 624
    · exfalso; omega
    · -- a first step
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨R0, R1, R2, R3, R4, R5, R6, R7, R8, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [R0 R1 R2 R3 R4 R5 R6 R7 R8 HS0 Hg]
        · isplitl [R0 R1 R2 R3 R4 R5 R6 R7 R8 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨R0, R1, R2, R3, R4, R5, R6, R7, R8, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [R0 R1 R2 R3 R4 R5 R6 R7 R8 HS0 Hg]
        · isplitl [R0 R1 R2 R3 R4 R5 R6 R7 R8 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 625 = 624
    · -- a last step
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t ((hcond1_1 t).mpr h1)], after1_4]
      rw [outsAt1_C V c t h0 h1]
      unfold out1_C_4 sout1_C_0; (try dsimp only)
      have hz : t.val ≠ 0 := by omega
      rw [PhiS1_castSucc V c t, PhiS1_pos V c _ _ hz]
      iintro ⟨⟨⟨R0, R1, R2, R3, R4, R5, R6, R7, R8, HS0⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [R0 R1 R2 R3 R4 R5 R6 R7 R8 HS0 Hg]
      · isplitl [R0 R1 R2 R3 R4 R5 R6 R7 R8 HS0]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          unfold owns; iexists _; isplitr
          swap; · iexact HS0
          ipureintro; exact View.read_writes_of_cover _ _ _ _ _ (scover1_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · -- a middle step
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨⟨R0, R1, R2, R3, R4, R5, R6, R7, R8, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [R0 R1 R2 R3 R4 R5 R6 R7 R8 HS0 Hg]
      · isplitl [R0 R1 R2 R3 R4 R5 R6 R7 R8 HS0]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          unfold owns; iexists _; isplitr
          swap; · iexact HS0
          ipureintro; exact View.read_writes_of_cover _ _ _ _ _ (scover1_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's form back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨R0, R1, R2, R3, R4, R5, R6, R7, R8, HS0⟩, Hg⟩
  isplitl [R0 R1 R2 R3 R4 R5 R6 R7 R8 HS0]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexists _; iexact HS0
  iexact Hg

theorem hout1 (c : Dev nD) : (dat1 V c).Φ (Fin.last cfg1.N) ⊢ Pipeline.ΦA spec1 c :=
  Phi_out1 V c _ (by rw [Fin.val_last]; have : cfg1.N = 17500 := N_1; omega)

end

end Cert.KernelIdeal.Hand

end
-- ==== Proof.KI.Main.lean ====
/-
  The whole program as a run of segments: five stretches of host operations, the two Pallas calls, a closing host
  operation. Between segments every unscoped buffer is held at named contents — a fold from the launch memory: a host
  stretch applies its operations, a call replaces its output array by what its write-backs leave. The run ends with
  every unscoped buffer at the fold's last value; the argument arrays are never written.
-/
import proofs.«171925_j65137474011136_1_alg».proof.Proof.KI.R0Frame
import proofs.«171925_j65137474011136_1_alg».proof.Proof.KI.R1Frame
import proofs.«171925_j65137474011136_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the first call finds them, read at the TensorCore's references. -/
abbrev Vr0 : (c : Dev nD) → (b : Ref sig .tc) → Buf (Elt F) ((c : Thread nD τ).loc b) := fun c b => V5 m c b
/-- After the first call: its arrays at what the pipeline leaves, every other buffer as entered. -/
def W6 (c : Dev nD) : Valuation τ sig (Elt F) :=
  Pipeline.withArrays spec0 c (V5 m c) fun w => (dat0 (Vr0 m) c).arrAt w cfg0.N
theorem W6_arr (c : Dev nD) (w : Fin cfg0.W) :
    W6 m c (Proc.devRef .tc (Pipeline.arrRef spec0 w)) = (dat0 (Vr0 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = V5 m c (Proc.devRef .tc b) := by
  unfold W6; exact Pipeline.withArrays_of_ne spec0 c _ _ b hb
abbrev Vr1 : (c : Dev nD) → (b : Ref sig .tc) → Buf (Elt F) ((c : Thread nD τ).loc b) := fun c b => W6 m c b
theorem hF0 (c : Dev nD) (w : Fin cfg0.W) : (dat0 (Vr0 m) c).arrAt w cfg0.N = Vr1 m c (Pipeline.arrRef spec0 w) :=
  (W6_arr m c w).symm
theorem hrest0 (c : Dev nD) : ∀ b, b ∉ Finset.univ.image (Pipeline.arrRef spec0) → Vr1 m c b = Vr0 m c b :=
  fun b hb => W6_of_ne m c b fun w e => hb (Finset.mem_image.mpr ⟨w, Finset.mem_univ _, e⟩)

/-- After the second call. -/
def W7 (c : Dev nD) : Valuation τ sig (Elt F) :=
  Pipeline.withArrays spec1 c (W6 m c) fun w => (dat1 (Vr1 m) c).arrAt w cfg1.N
theorem W7_arr (c : Dev nD) (w : Fin cfg1.W) :
    W7 m c (Proc.devRef .tc (Pipeline.arrRef spec1 w)) = (dat1 (Vr1 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev Vr2 : (c : Dev nD) → (b : Ref sig .tc) → Buf (Elt F) ((c : Thread nD τ).loc b) := fun c b => W7 m c b
theorem hF1 (c : Dev nD) (w : Fin cfg1.W) : (dat1 (Vr1 m) c).arrAt w cfg1.N = Vr2 m c (Pipeline.arrRef spec1 w) :=
  (W7_arr m c w).symm
theorem hrest1 (c : Dev nD) : ∀ b, b ∉ Finset.univ.image (Pipeline.arrRef spec1) → Vr2 m c b = Vr1 m c b :=
  fun b hb => W7_of_ne m c b fun w e => hb (Finset.mem_image.mpr ⟨w, Finset.mem_univ _, e⟩)

/-- After the closing host operation. -/
abbrev W8 (c : Dev nD) : Valuation τ sig (Elt F) := StableHlo.after hostOps2 (W7 m c)

theorem W8_main_arg0 (c : Dev nD) : W8 m c (Proc.devRef .tc main_arg0) = m ((c : Thread nD τ).loc main_arg0) :=
  calc W8 m c (Proc.devRef .tc main_arg0)
    _ = W7 m c (Proc.devRef .tc main_arg0) := StableHlo.after_of_writes_sub hostOps2 _ hostOps2_writes (by decide)
    _ = W6 m c (Proc.devRef .tc main_arg0) := W7_of_ne m c main_arg0 (by decide)
    _ = V5 m c (Proc.devRef .tc main_arg0) := W6_of_ne m c main_arg0 (by decide)
    _ = m ((c : Thread nD τ).loc main_arg0) := (V5_of m c main_arg0 (by decide)).trans <| (V4_of m c main_arg0 (by decide)).trans <| (V3_of m c main_arg0 (by decide)).trans <| (V2_of m c main_arg0 (by decide)).trans <| (V1_of m c main_arg0 (by decide)).trans rfl

theorem W8_main_arg1 (c : Dev nD) : W8 m c (Proc.devRef .tc main_arg1) = m ((c : Thread nD τ).loc main_arg1) :=
  calc W8 m c (Proc.devRef .tc main_arg1)
    _ = W7 m c (Proc.devRef .tc main_arg1) := StableHlo.after_of_writes_sub hostOps2 _ hostOps2_writes (by decide)
    _ = W6 m c (Proc.devRef .tc main_arg1) := W7_of_ne m c main_arg1 (by decide)
    _ = V5 m c (Proc.devRef .tc main_arg1) := W6_of_ne m c main_arg1 (by decide)
    _ = m ((c : Thread nD τ).loc main_arg1) := (V5_of m c main_arg1 (by decide)).trans <| (V4_of m c main_arg1 (by decide)).trans <| (V3_of m c main_arg1 (by decide)).trans <| (V2_of m c main_arg1 (by decide)).trans <| (V1_of m c main_arg1 (by decide)).trans rfl

theorem W8_main_arg2 (c : Dev nD) : W8 m c (Proc.devRef .tc main_arg2) = m ((c : Thread nD τ).loc main_arg2) :=
  calc W8 m c (Proc.devRef .tc main_arg2)
    _ = W7 m c (Proc.devRef .tc main_arg2) := StableHlo.after_of_writes_sub hostOps2 _ hostOps2_writes (by decide)
    _ = W6 m c (Proc.devRef .tc main_arg2) := (W7_arr m c 2).trans (((dat1 (Vr1 m) c).arrAt_in 2 rfl _).trans (A_eq1 (Vr1 m) c 2))
    _ = V5 m c (Proc.devRef .tc main_arg2) := W6_of_ne m c main_arg2 (by decide)
    _ = m ((c : Thread nD τ).loc main_arg2) := (V5_of m c main_arg2 (by decide)).trans <| (V4_of m c main_arg2 (by decide)).trans <| (V3_of m c main_arg2 (by decide)).trans <| (V2_of m c main_arg2 (by decide)).trans <| (V1_of m c main_arg2 (by decide)).trans rfl

theorem W8_main_arg3 (c : Dev nD) : W8 m c (Proc.devRef .tc main_arg3) = m ((c : Thread nD τ).loc main_arg3) :=
  calc W8 m c (Proc.devRef .tc main_arg3)
    _ = W7 m c (Proc.devRef .tc main_arg3) := StableHlo.after_of_writes_sub hostOps2 _ hostOps2_writes (by decide)
    _ = W6 m c (Proc.devRef .tc main_arg3) := W7_of_ne m c main_arg3 (by decide)
    _ = V5 m c (Proc.devRef .tc main_arg3) := W6_of_ne m c main_arg3 (by decide)
    _ = m ((c : Thread nD τ).loc main_arg3) := (V5_of m c main_arg3 (by decide)).trans <| (V4_of m c main_arg3 (by decide)).trans <| (V3_of m c main_arg3 (by decide)).trans <| (V2_of m c main_arg3 (by decide)).trans <| (V1_of m c main_arg3 (by decide)).trans rfl

/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr1 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m c) ∗ ∃ r, prngReg c r)

set_option backward.isDefEq.respectTransparency.types false in
/-- Pallas call 0 as a segment: entered with every unscoped buffer at the contents before it, left with the call's
    arrays at what its write-backs leave and every other buffer as entered. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (Vr0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (fun b => W6 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment: entered with every unscoped buffer at the contents before it, left with the call's
    arrays at what its write-backs leave and every other buffer as entered. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (Vr1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr1 m c) (fun b => W7 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's eight segments in order. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .region (reg0 m),
    .region (reg1 m),
    .host (hseg hostOps2 hostOps2_sub hostOps2_fresh (W7 m)) ]
theorem main_run (c : Dev nD) : main (F := F) c = Pipeline.Seg.run (segs m) := (main_chain c).trans (by chain_rfl)

set_option backward.isDefEq.respectTransparency.types false in
/-- Every weakly fair execution of the program from memory m with zero counters terminates, nothing faulting, with
    every unscoped buffer at the fold's last value. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W8 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c)⟩) (run_all m ρ)

end Cert.KernelIdeal.Hand

end
-- ==== Proof.PayloadValue.lean ====
/-
  The kernel bodies' arithmetic, read one element at a time on the extended reals: the zero fill, the one-hot
  matrix products that gather and scatter rows, the narrowing copy (the identity here), and the final
  matrix product with bias and rectifier.
-/
import proofs.«171925_j65137474011136_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayloadValue

open Idealize.ShloMosaic Idealize.ShloMosaic.ValueIdx
open Cert.KernelIdeal Cert.KernelIdeal.Gen

variable [Cert.KernelIdeal.Facts]

/-- The first kernel's zero fill. -/
theorem k0_pay1_apply (j : Fin 1280) (d : Fin 128) : k0_pay1 (F := Ideal) (ix2 j d) = 0 := by
  unfold k0_pay1
  simp only [shapeCast_self]
  show Ideal.ofBits .f32 0x00000000#32 = 0
  exact Ideal.ofBits_zero_f32

/-- The narrowing copy is the identity. -/
theorem k0_pay3_eq (v31 : Vec Ideal S1280x128 .f32) : k0_pay3 (F := Ideal) v31 = v31 := rfl

/-- The second kernel's zero fill. -/
theorem k1_pay1_apply (r : Fin 1792) (d : Fin 128) : k1_pay1 (F := Ideal) (ix2 r d) = 0 := by
  unfold k1_pay1
  simp only [shapeCast_self]
  show Ideal.ofBits .f32 0x00000000#32 = 0
  exact Ideal.ofBits_zero_f32

/-! ## Words and layout -/

/-- A column broadcast across the columns reads, at (p, c), the operand's one column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The offset word plus the row word is the word of the sum. -/
theorem offset_word (a r : ℕ) :
    IntOp.addi (Scalar.muli (BitVec.ofNat 32 a) 1792#32) (BitVec.ofNat 32 r) = BitVec.ofNat 32 (a * 1792 + r) := by
  show BitVec.ofNat 32 a * BitVec.ofNat 32 1792 + BitVec.ofNat 32 r = _
  rw [BitVec.ofNat_add, BitVec.ofNat_mul]

/-- The comparison of the word of n (n below 2^32) with a word w, widened and read as a signed integer, is the
    indicator of w = n. -/
theorem onehot_word (n : ℕ) (hn : n < 2 ^ 32) (w : BitVec 32) :
    (FloatOps.sitofp (F := Ideal) .f32 ((IntOp.cmpi .eq (BitVec.ofNat 32 n) w).setWidth 32) : EReal)
      = if w.toNat = n then 1 else 0 := by
  show (((((IntOp.cmpi .eq (BitVec.ofNat 32 n) w).setWidth 32).toInt : ℤ) : ℝ) : EReal) = _
  by_cases h : w.toNat = n
  · rw [if_pos h]
    have hw : w = BitVec.ofNat 32 n := by
      apply BitVec.eq_of_toNat_eq
      rw [BitVec.toNat_ofNat, h, Nat.mod_eq_of_lt hn]
    subst hw
    have : IntOp.cmpi .eq (BitVec.ofNat 32 n) (BitVec.ofNat 32 n) = 1#1 := by
      simp [IntOp.cmpi]
    rw [this]
    norm_num
  · rw [if_neg h]
    have hne : ¬ BitVec.ofNat 32 n = w := by
      intro e
      apply h
      rw [← e, BitVec.toNat_ofNat, Nat.mod_eq_of_lt hn]
    have : IntOp.cmpi .eq (BitVec.ofNat 32 n) w = 0#1 := by
      show BitVec.ofBool (BitVec.ofNat 32 n == w) = 0#1
      rw [beq_eq_false_iff_ne.mpr hne]
      rfl
    rw [this]
    norm_num

/-- The one-hot entry the kernels build at row r of the tile at offset a·1792 (below 50176) against the edge word w. -/
theorem onehot_entry (a : ℕ) (ha : a < 28) (r : Fin 1792) (w : BitVec 32) :
    (FloatOps.sitofp (F := Ideal) .f32
        ((IntOp.cmpi .eq (IntOp.addi (Scalar.muli (BitVec.ofNat 32 a) 1792#32) (BitVec.ofNat 32 r.val)) w).setWidth 32) : EReal)
      = if w.toNat = a * 1792 + r.val then 1 else 0 := by
  rw [offset_word]
  exact onehot_word _ (by have := r.isLt; omega) w

/-- The gather step: the accumulator plus, for each node of the tile that is this edge's destination, the edge's
    weight times the node's row. -/
theorem k0_pay2_apply (i : grid0.Coords) (hi : (i 1).val < 28) (v7 : Vec Ideal S1x1280 .i32) (v12 : Vec Ideal S1x1280 .f32)
    (v20 : Vec Ideal S1792x128 .bf16) (v23 : Vec Ideal S1280x128 .f32) (j : Fin 1280) (d : Fin 128) :
    k0_pay2 (F := Ideal) i v7 v12 v20 v23 (ix2 j d)
      = v23 (ix2 j d) + ∑ r : Fin 1792,
          ((if (v7 (ix2 (0 : Fin 1) j)).toNat = (i 1).val * 1792 + r.val then (1 : EReal) else 0) * v12 (ix2 (0 : Fin 1) j))
            * v20 (ix2 r d) := by
  unfold k0_pay2
  simp only [shapeCast_self]
  rw [addf_apply]
  simp only [matmul]
  rw [Ideal.matmul_constant_zero_apply]
  congr 1
  rw [← Equiv.sum_comp (contrEquiv1 dot_S1792x1280_S1792x128_S1280x128_0_0_1_1_n_n 1792 rfl rfl).symm]
  refine Finset.sum_congr rfl fun k _ => ?_
  have hl : dot_S1792x1280_S1792x128_S1280x128_0_0_1_1_n_n.lhsIdx (ix2 j d)
      ((contrEquiv1 dot_S1792x1280_S1792x128_S1280x128_0_0_1_1_n_n 1792 rfl rfl).symm k) = ix2 k j := by
    funext a
    match a with
    | ⟨0, _⟩ =>
      refine Fin.ext ?_
      rw [DotDims.lhsIdx_val_of_single _ rfl]
      exact contrEquiv1_symm_val _ _ _ _ k
    | ⟨1, _⟩ => rfl
  have hr : dot_S1792x1280_S1792x128_S1280x128_0_0_1_1_n_n.rhsIdx (ix2 j d)
      ((contrEquiv1 dot_S1792x1280_S1792x128_S1280x128_0_0_1_1_n_n 1792 rfl rfl).symm k) = ix2 k d := by
    funext a
    match a with
    | ⟨0, _⟩ =>
      refine Fin.ext ?_
      rw [DotDims.rhsIdx_val_of_single _ rfl]
      exact contrEquiv1_symm_val _ _ _ _ k
    | ⟨1, _⟩ => rfl
  rw [hl, hr, mulf_apply, broadcastTo_1b_ab_apply, truncf_apply, truncf_apply, sitofp_apply, extui_apply]
  congr 2
  refine Eq.trans ?_ (onehot_entry (i 1).val hi k (v7 (ix2 (0 : Fin 1) j)))
  congr 3
  show IntOp.cmpi .eq (broadcastTo S1792x1280 _ _ (ix2 k j)) (broadcastTo S1792x1280 _ _ (ix2 k j)) = _
  rw [broadcastTo_a1_ab_apply, broadcastTo_1b_ab_apply]
  congr 1
  show IntOp.addi _ (iota .tc S1792x1 32 [0] _ (ix2 k (0 : Fin 1))) = _
  rw [iota_single_apply]
  rfl
/-- The scatter step: the accumulator plus, for each edge of the tile whose source is this row, the edge's row. -/
theorem k1_pay2_apply (i : grid1.Coords) (hi : (i 0).val < 28) (v7 : Vec Ideal S1x1280 .i32) (v15 : Vec Ideal S1280x128 .bf16)
    (v18 : Vec Ideal S1792x128 .f32) (r : Fin 1792) (d : Fin 128) :
    k1_pay2 (F := Ideal) i v7 v15 v18 (ix2 r d)
      = v18 (ix2 r d) + ∑ j : Fin 1280,
          (if (v7 (ix2 (0 : Fin 1) j)).toNat = (i 0).val * 1792 + r.val then (1 : EReal) else 0) * v15 (ix2 j d) := by
  unfold k1_pay2
  simp only [shapeCast_self]
  rw [addf_apply]
  simp only [matmul]
  rw [Ideal.matmul_constant_zero_apply]
  congr 1
  rw [← Equiv.sum_comp (contrEquiv1 dot_S1792x1280_S1280x128_S1792x128_1_0_0_1_n_n 1280 rfl rfl).symm]
  refine Finset.sum_congr rfl fun k _ => ?_
  have hl : dot_S1792x1280_S1280x128_S1792x128_1_0_0_1_n_n.lhsIdx (ix2 r d)
      ((contrEquiv1 dot_S1792x1280_S1280x128_S1792x128_1_0_0_1_n_n 1280 rfl rfl).symm k) = ix2 r k := by
    funext a
    match a with
    | ⟨0, _⟩ => rfl
    | ⟨1, _⟩ =>
      refine Fin.ext ?_
      rw [DotDims.lhsIdx_val_of_single _ rfl]
      exact contrEquiv1_symm_val _ _ _ _ k
  have hr : dot_S1792x1280_S1280x128_S1792x128_1_0_0_1_n_n.rhsIdx (ix2 r d)
      ((contrEquiv1 dot_S1792x1280_S1280x128_S1792x128_1_0_0_1_n_n 1280 rfl rfl).symm k) = ix2 k d := by
    funext a
    match a with
    | ⟨0, _⟩ =>
      refine Fin.ext ?_
      rw [DotDims.rhsIdx_val_of_single _ rfl]
      exact contrEquiv1_symm_val _ _ _ _ k
    | ⟨1, _⟩ => rfl
  rw [hl, hr, truncf_apply, sitofp_apply, extui_apply]
  congr 1
  refine Eq.trans ?_ (onehot_entry (i 0).val hi r (v7 (ix2 (0 : Fin 1) k)))
  congr 3
  show IntOp.cmpi .eq (broadcastTo S1792x1280 _ _ (ix2 r k)) (broadcastTo S1792x1280 _ _ (ix2 r k)) = _
  rw [broadcastTo_a1_ab_apply, broadcastTo_1b_ab_apply]
  congr 1
  show IntOp.addi _ (iota .tc S1792x1 32 [0] _ (ix2 r (0 : Fin 1))) = _
  rw [iota_single_apply]
  rfl

/-- The final product: row r of the aggregate against row o of the weights, plus the bias, rectified. -/
theorem k1_pay3_apply (v26 : Vec Ideal S1792x128 .f32) (v28 : Vec Ideal S128x128 .f32) (v31 : Vec Ideal S1x128 .f32)
    (r : Fin 1792) (o : Fin 128) :
    k1_pay3 (F := Ideal) v26 v28 v31 (ix2 r o)
      = max ((∑ k : Fin 128, v26 (ix2 r k) * v28 (ix2 o k)) + v31 (ix2 (0 : Fin 1) o)) 0 := by
  unfold k1_pay3
  simp only [shapeCast_self]
  rw [maximumf_apply, addf_apply, broadcast_apply, broadcastTo_1b_ab_apply]
  simp only [matmul]
  rw [Ideal.matmul_constant_zero_apply]
  have hz : (Scalar.ofBits .f32 0x00000000#32 : Ideal .f32) = 0 := Ideal.ofBits_zero_f32
  rw [hz]
  congr 2
  rw [← Equiv.sum_comp (contrEquiv1 dot_S1792x128_S128x128_S1792x128_1_1_0_0_n_n 128 rfl rfl).symm]
  refine Finset.sum_congr rfl fun k _ => ?_
  rw [truncf_apply, truncf_apply]
  congr 2
  · funext a
    match a with
    | ⟨0, _⟩ => rfl
    | ⟨1, _⟩ =>
      refine Fin.ext ?_
      rw [DotDims.lhsIdx_val_of_single _ rfl]
      exact contrEquiv1_symm_val _ _ _ _ k
  · funext a
    match a with
    | ⟨0, _⟩ => rfl
    | ⟨1, _⟩ =>
      refine Fin.ext ?_
      rw [DotDims.rhsIdx_val_of_single _ rfl]
      exact contrEquiv1_symm_val _ _ _ _ k

end Cert.KernelIdeal.PayloadValue

end
-- ==== Proof.LibTileSums.lean ====
/-
  Sums over a finite range against an indicator, on the extended reals: an indicator that holds at exactly one
  position picks that term out, and one that holds nowhere leaves zero (zero times anything, infinite or not, is zero).
-/
import Idealize.ShloMosaic.PureOps.Ideal

noncomputable section

namespace Cert.PayloadSums

open scoped BigOperators

/-- The indicator of position a, times c, against f: the one term c · f a. -/
theorem sum_indicator_mul {N : ℕ} (f : Fin N → EReal) (c : EReal) (a : ℕ) (h : a < N) :
    ∑ n : Fin N, ((if a = n.val then (1 : EReal) else 0) * c) * f n = c * f ⟨a, h⟩ := by
  rw [Finset.sum_eq_single (⟨a, h⟩ : Fin N)]
  · rw [if_pos rfl, one_mul]
  · intro b _ hb
    have hne : ¬ a = b.val := fun e => hb (Fin.ext e.symm)
    rw [if_neg hne, zero_mul, zero_mul]
  · intro hmem
    exact absurd (Finset.mem_univ _) hmem

/-- With a outside the range every term vanishes. -/
theorem sum_indicator_mul_of_not_lt {N : ℕ} (f : Fin N → EReal) (c : EReal) (a : ℕ) (h : ¬ a < N) :
    ∑ n : Fin N, ((if a = n.val then (1 : EReal) else 0) * c) * f n = 0 := by
  refine Finset.sum_eq_zero fun n _ => ?_
  have hne : ¬ a = n.val := fun e => h (e ▸ n.isLt)
  rw [if_neg hne, zero_mul, zero_mul]

/-- The same against a range that starts at b: the indicator of w = b + n picks out position w − b. -/
theorem sum_indicator_offset_mul {N : ℕ} (f : Fin N → EReal) (c : EReal) (w b : ℕ) (hb : b ≤ w) (h : w - b < N) :
    ∑ n : Fin N, ((if w = b + n.val then (1 : EReal) else 0) * c) * f n = c * f ⟨w - b, h⟩ := by
  rw [← sum_indicator_mul f c (w - b) h]
  refine Finset.sum_congr rfl fun n _ => ?_
  have e : (w = b + n.val) ↔ (w - b = n.val) := by omega
  simp only [e]

/-- With w outside [b, b + N) every term vanishes. -/
theorem sum_indicator_offset_mul_of_not_mem {N : ℕ} (f : Fin N → EReal) (c : EReal) (w b : ℕ)
    (h : ¬ (b ≤ w ∧ w < b + N)) :
    ∑ n : Fin N, ((if w = b + n.val then (1 : EReal) else 0) * c) * f n = 0 := by
  refine Finset.sum_eq_zero fun n _ => ?_
  have hne : ¬ w = b + n.val := fun e => h ⟨by omega, by have := n.isLt; omega⟩
  rw [if_neg hne, zero_mul, zero_mul]

/-! ## The one-hot collapse, total in w -/

/-- The indicator of position w, times c, against g: c times g at w, or zero when w is outside the range. -/
theorem sum_onehot_mul {N : ℕ} (w : ℕ) (c : EReal) (g : Fin N → EReal) :
    ∑ n : Fin N, ((if w = n.val then (1 : EReal) else 0) * c) * g n = c * (if h : w < N then g ⟨w, h⟩ else 0) := by
  by_cases h : w < N
  · rw [dif_pos h]
    exact sum_indicator_mul g c w h
  · rw [dif_neg h, mul_zero]
    exact sum_indicator_mul_of_not_lt g c w h

/-- The same without the factor c. -/
theorem sum_onehot {N : ℕ} (w : ℕ) (g : Fin N → EReal) :
    ∑ n : Fin N, (if w = n.val then (1 : EReal) else 0) * g n = (if h : w < N then g ⟨w, h⟩ else 0) := by
  rw [← one_mul (dite _ _ _), ← sum_onehot_mul w 1 g]
  refine Finset.sum_congr rfl fun n _ => ?_
  rw [mul_one]

/-! ## Blocks of a range -/

/-- A range of A · B positions is A consecutive blocks of B. -/
theorem sum_range_block {M : Type*} [AddCommMonoid M] (A B : ℕ) (f : ℕ → M) :
    ∑ a ∈ Finset.range A, ∑ j ∈ Finset.range B, f (a * B + j) = ∑ e ∈ Finset.range (A * B), f e := by
  induction A with
  | zero => rw [Nat.zero_mul, Finset.sum_range_zero, Finset.sum_range_zero]
  | succ A ih =>
    rw [Finset.sum_range_succ, ih, Nat.succ_mul, Finset.sum_range_add]

/-- The same with the inner and the outer positions bounded by their types. -/
theorem sum_block {M : Type*} [AddCommMonoid M] (A B : ℕ) (f : ℕ → M) :
    ∑ a ∈ Finset.range A, ∑ j : Fin B, f (a * B + j.val) = ∑ e : Fin (A * B), f e.val := by
  rw [Fin.sum_univ_eq_sum_range (fun e => f e) (A * B), ← sum_range_block A B f]
  refine Finset.sum_congr rfl fun a _ => ?_
  exact Fin.sum_univ_eq_sum_range (fun j => f (a * B + j)) B

/-- 28 blocks of 1792 are the 50176 positions. -/
theorem sum_block_28_1792 {M : Type*} [AddCommMonoid M] (f : ℕ → M) :
    ∑ a ∈ Finset.range 28, ∑ j : Fin 1792, f (a * 1792 + j.val) = ∑ e : Fin 50176, f e.val :=
  sum_block 28 1792 f

/-- 625 blocks of 1280 are the 800000 positions. -/
theorem sum_block_625_1280 {M : Type*} [AddCommMonoid M] (f : ℕ → M) :
    ∑ a ∈ Finset.range 625, ∑ j : Fin 1280, f (a * 1280 + j.val) = ∑ e : Fin 800000, f e.val :=
  sum_block 625 1280 f

/-! ## The running sum -/

/-- The first step onto zero is the sum of one term. -/
theorem run_zero (p : ℕ → EReal) : 0 + p 0 = ∑ a ∈ Finset.range 1, p a := by
  rw [Finset.sum_range_one, zero_add]

/-- One more step extends the sum by one term. -/
theorem run_succ (p : ℕ → EReal) (k : ℕ) :
    (∑ a ∈ Finset.range (k + 1), p a) + p (k + 1) = ∑ a ∈ Finset.range (k + 2), p a :=
  (Finset.sum_range_succ p (k + 1)).symm

/-- The first step, for functions. -/
theorem run_zero_fun {ι : Type*} (P : ℕ → ι → EReal) :
    (fun i => 0 + P 0 i) = fun i => ∑ a ∈ Finset.range 1, P a i :=
  funext fun i => run_zero (fun a => P a i)

/-- One more step, for functions. -/
theorem run_succ_fun {ι : Type*} (P : ℕ → ι → EReal) (k : ℕ) :
    (fun i => (∑ a ∈ Finset.range (k + 1), P a i) + P (k + 1) i) = fun i => ∑ a ∈ Finset.range (k + 2), P a i :=
  funext fun i => run_succ (fun a => P a i) k

/-! ## An indicator factor is a condition on the term -/

/-- Multiplying by the indicator of s e = n keeps the terms with s e = n and zeroes the rest. -/
theorem sum_indicator_mul_eq_sum_ite {E : ℕ} (s : Fin E → ℕ) (n : ℕ) (c y : Fin E → EReal) :
    ∑ e : Fin E, (if s e = n then (1 : EReal) else 0) * (c e * y e) = ∑ e : Fin E, if s e = n then c e * y e else 0 := by
  refine Finset.sum_congr rfl fun e _ => ?_
  by_cases h : s e = n
  · rw [if_pos h, if_pos h, one_mul]
  · rw [if_neg h, if_neg h, zero_mul]

/-! ## End to end -/

/-- The gather over all 28 tiles of 1792 rows: the weight times the row the word names, nothing when it names none. -/
theorem gather_tiles (dstw : ℕ) (c : EReal) (xp : ℕ → EReal) :
    ∑ a ∈ Finset.range 28, ∑ r : Fin 1792,
        ((if dstw = a * 1792 + r.val then (1 : EReal) else 0) * c) * xp (a * 1792 + r.val)
      = c * (if dstw < 50176 then xp dstw else 0) := by
  rw [sum_block_28_1792 (fun e => ((if dstw = e then (1 : EReal) else 0) * c) * xp e),
    sum_onehot_mul dstw c (fun e : Fin 50176 => xp e.val)]
  by_cases h : dstw < 50176
  · rw [dif_pos h, if_pos h]
  · rw [dif_neg h, if_neg h]

/-- The scatter over all 625 tiles of 1280 edges: the sum over the edges whose source word is n. -/
theorem scatter_tiles (srcw : ℕ → ℕ) (n : ℕ) (y : ℕ → EReal) :
    ∑ a ∈ Finset.range 625, ∑ j : Fin 1280,
        (if srcw (a * 1280 + j.val) = n then (1 : EReal) else 0) * y (a * 1280 + j.val)
      = ∑ e : Fin 800000, if srcw e.val = n then y e.val else 0 := by
  rw [sum_block_625_1280 (fun e => (if srcw e = n then (1 : EReal) else 0) * y e)]
  refine Finset.sum_congr rfl fun e _ => ?_
  by_cases h : srcw e.val = n
  · rw [if_pos h, if_pos h, one_mul]
  · rw [if_neg h, if_neg h, zero_mul]

end Cert.PayloadSums

end
-- ==== Proof.KI.R0Pieces.lean ====
/-
  Pallas call 0 read as values. What each kind of step leaves in the accumulator, as the body's arithmetic applied to
  the step's input blocks and to what the step before left; where a block's element sits in its array (the block
  index times the block size plus the element's own coordinate); and, at the ideal instance, the accumulator after
  every point in closed form: after reduction step s of edge block a, entry (j, d) is the sum over the node tiles
  0 … s and the rows r of a tile of [dst (1280 a + j) = 1792 tile + r] · weight (1280 a + j) · x (1792 tile + r, d).
  At the last step of an edge block that is weight · x (dst, d), or 0 when dst names no padded row; the write-backs
  tile the gathered array, which therefore ends holding that function of the edge and the column.
-/
import proofs.«171925_j65137474011136_1_alg».proof.Proof.KI.R0Frame
import proofs.«171925_j65137474011136_1_alg».proof.Proof.KI.Idx
import proofs.«171925_j65137474011136_1_alg».proof.Proof.PayloadValue
import proofs.«171925_j65137474011136_1_alg».proof.Proof.LibTileSums
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx Cert.KernelIdeal.PayloadValue

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-! ## What a step leaves, as the body's arithmetic -/

theorem soutA0_eq (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : cond0_0 i) (hc1 : ¬cond0_1 i)
    (x0 : Vec F S1x1280 .i32) (x1 : Vec F S1x1280 .f32) (x2 : Vec F S1792x128 .bf16) :
    sout0_A_0 c i arg2 harg2 arg3 harg3 arg4 harg4 arg5 harg5 arg6 harg6 hc0 hc1 x0 x1 x2 = k0_pay2 i x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  try sl_unfold_words
  rw [View.canon_cons_unit_zero hz2]
  simp only [View.readAt_eq_ld, harg2.read_unread, harg3.read_unread, harg4.read_unread, View.ld_unit_zero (S := S1x1280) hz2, View.ld_unit_zero (S := S1792x128) hz2, View.readCov_unit_zero (S := S1280x128) _ hz2]

theorem soutB0_eq (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : ¬cond0_0 i) (hc1 : ¬cond0_1 i)
    (x0 : Vec F S1x1280 .i32) (x1 : Vec F S1x1280 .f32) (x2 : Vec F S1792x128 .bf16) (xs0 : Vec F S1280x128 .f32) :
    sout0_B_0 c i arg2 harg2 arg3 harg3 arg4 harg4 arg5 harg5 arg6 harg6 hc0 hc1 x0 x1 x2 xs0 = k0_pay2 i x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  try sl_unfold_words
  rw [View.canon_unit_zero hz2]
  simp only [View.readAt_eq_ld, harg2.read_unread, harg3.read_unread, harg4.read_unread, harg6.read_unread, View.ld_unit_zero (S := S1x1280) hz2, View.ld_unit_zero (S := S1792x128) hz2, View.ld_unit_zero (S := S1280x128) hz2]

theorem soutC0_eq (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : ¬cond0_0 i) (hc1 : cond0_1 i)
    (x0 : Vec F S1x1280 .i32) (x1 : Vec F S1x1280 .f32) (x2 : Vec F S1792x128 .bf16) (xs0 : Vec F S1280x128 .f32) :
    sout0_C_0 c i arg2 harg2 arg3 harg3 arg4 harg4 arg5 harg5 arg6 harg6 hc0 hc1 x0 x1 x2 xs0 = k0_pay2 i x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  try sl_unfold_words
  rw [View.canon_unit_zero hz2]
  simp only [View.readAt_eq_ld, harg2.read_unread, harg3.read_unread, harg4.read_unread, harg6.read_unread, View.ld_unit_zero (S := S1x1280) hz2, View.ld_unit_zero (S := S1792x128) hz2, View.ld_unit_zero (S := S1280x128) hz2]

theorem outC0_eq (c : Dev nD) (i : grid0.Coords) (arg2 : Memref sig .tc .vmem S1x1280 .i32) (harg2 : arg2.IsWhole) (arg3 : Memref sig .tc .vmem S1x1280 .f32) (harg3 : arg3.IsWhole) (arg4 : Memref sig .tc .vmem S1792x128 .bf16) (harg4 : arg4.IsWhole) (arg5 : Memref sig .tc .vmem S1280x128 .bf16) (harg5 : arg5.IsWhole) (arg6 : Memref sig .tc .vmem S1280x128 .f32) (harg6 : arg6.IsWhole) (hc0 : ¬cond0_0 i) (hc1 : cond0_1 i)
    (x0 : Vec F S1x1280 .i32) (x1 : Vec F S1x1280 .f32) (x2 : Vec F S1792x128 .bf16) (xs0 : Vec F S1280x128 .f32) :
    out0_C_3 c i arg2 harg2 arg3 harg3 arg4 harg4 arg5 harg5 arg6 harg6 hc0 hc1 x0 x1 x2 xs0 = k0_pay3 (k0_pay2 i x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  try sl_unfold_words
  rw [View.canon_unit_zero hz2]
  simp only [View.readAt_eq_ld, harg2.read_unread, harg3.read_unread, harg4.read_unread, harg6.read_unread, View.ld_unit_zero (S := S1x1280) hz2, View.ld_unit_zero (S := S1792x128) hz2, View.ld_unit_zero (S := S1280x128) hz2, View.readCov_unit_zero (S := S1280x128) _ hz2]

end Cert.KernelIdeal.Hand

end
-- ==== Proof.KI.R0Acc.lean ====
/-
  Pallas call 0 at the ideal instance: where a block's element sits in its array, and the accumulator after every grid
  point in closed form. Point t is edge block a = t / 28 at reduction step s = t % 28; after it, entry (j, d) of the
  accumulator is the sum over the node tiles 0 … s and the rows r of a tile of
  [dst (1280 a + j) = 1792 tile + r] · weight (1280 a + j) · x (1792 tile + r, d).
-/
import proofs.«171925_j65137474011136_1_alg».proof.Proof.KI.R0Pieces
import proofs.«171925_j65137474011136_1_alg».proof.Proof.KI.Idx
import proofs.«171925_j65137474011136_1_alg».proof.Proof.PayloadValue
import proofs.«171925_j65137474011136_1_alg».proof.Proof.LibTileSums
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx Cert.KernelIdeal.PayloadValue

variable (V : (c : Dev nD) → (b : Ref sig .tc) → Buf (Elt Ideal) ((c : Thread nD τ).loc b))

/-! ## Where a block's element sits -/

/-- Destination words: element (0, j) of the block at point t is element (0, 1280 (t / 28) + j) of the array. -/
theorem iblk0_0_apply (c : Dev nD) (t : Fin cfg0.N) (j : Fin 1280) (k : Fin 800000) (hk : k.val = t.val / 28 * 1280 + j.val) :
    (iblk0 V c 0 t : Vec Ideal S1x1280 .i32) (ix2 (0 : Fin 1) j) = (V c main_v30 : S1x800000.Idx → BitVec 32) (ix2 (0 : Fin 1) k) := by
  unfold iblk0
  rw [View.read_apply]
  show V c main_v30 _ = V c main_v30 _
  congr 1
  funext a
  apply Fin.ext
  match a with
  | ⟨0, _⟩ => show win0_0.index t 0 * 1 + 1 * 0 = 0; rw [(idx0_0 t).1]
  | ⟨1, _⟩ => show win0_0.index t 1 * 1280 + 1 * j.val = k.val; rw [(idx0_0 t).2, hk]; omega

/-- Edge weights: the same placement. -/
theorem iblk0_1_apply (c : Dev nD) (t : Fin cfg0.N) (j : Fin 1280) (k : Fin 800000) (hk : k.val = t.val / 28 * 1280 + j.val) :
    (iblk0 V c 1 t : Vec Ideal S1x1280 .f32) (ix2 (0 : Fin 1) j) = (V c main_v32 : S1x800000.Idx → EReal) (ix2 (0 : Fin 1) k) := by
  unfold iblk0
  rw [View.read_apply]
  show V c main_v32 _ = V c main_v32 _
  congr 1
  funext a
  apply Fin.ext
  match a with
  | ⟨0, _⟩ => show win0_1.index t 0 * 1 + 1 * 0 = 0; rw [(idx0_1 t).1]
  | ⟨1, _⟩ => show win0_1.index t 1 * 1280 + 1 * j.val = k.val; rw [(idx0_1 t).2, hk]; omega

/-- Node features: element (r, d) of the block at point t is element (1792 (t % 28) + r, d) of the padded array. -/
theorem iblk0_2_apply (c : Dev nD) (t : Fin cfg0.N) (r : Fin 1792) (d : Fin 128) (n : Fin 50176) (hn : n.val = t.val % 28 * 1792 + r.val) :
    (iblk0 V c 2 t : Vec Ideal S1792x128 .bf16) (ix2 r d) = (V c main_v29 : S50176x128.Idx → EReal) (ix2 n d) := by
  unfold iblk0
  rw [View.read_apply]
  show V c main_v29 _ = V c main_v29 _
  congr 1
  funext a
  apply Fin.ext
  match a with
  | ⟨0, _⟩ => show win0_2.index t 0 * 1792 + 1 * r.val = n.val; rw [(idx0_2 t).1, hn]; omega
  | ⟨1, _⟩ => show win0_2.index t 1 * 128 + 1 * d.val = d.val; rw [(idx0_2 t).2]; omega

/-! ## The arrays as functions of plain numbers -/

/-- The destination word of edge k, as a number. -/
def dW (c : Dev nD) (k : ℕ) : ℕ := if h : k < 800000 then ((V c main_v30 : S1x800000.Idx → BitVec 32) (ix2 (0 : Fin 1) (⟨k, h⟩ : Fin 800000))).toNat else 0
/-- The weight of edge k. -/
def nW (c : Dev nD) (k : ℕ) : EReal := if h : k < 800000 then (V c main_v32 : S1x800000.Idx → EReal) (ix2 (0 : Fin 1) (⟨k, h⟩ : Fin 800000)) else 0
/-- Row n of the padded node features at column d. -/
def xP (c : Dev nD) (n : ℕ) (d : Fin 128) : EReal := if h : n < 50176 then (V c main_v29 : S50176x128.Idx → EReal) (ix2 (⟨n, h⟩ : Fin 50176) d) else 0

/-- One reduction step's product for edge block a and node tile s, at entry y of the accumulator. -/
def step0 (c : Dev nD) (a s : ℕ) (y : S1280x128.Idx) : EReal :=
  ∑ r : Fin 1792, ((if dW V c (a * 1280 + (y 0).val) = s * 1792 + r.val then (1 : EReal) else 0) * nW V c (a * 1280 + (y 0).val)) * xP V c (s * 1792 + r.val) (y 1)

/-- The body's accumulation at point t: what it was, plus the point's product. -/
theorem pay2_step (c : Dev nD) (t : Fin cfg0.N) (acc : Vec Ideal S1280x128 .f32) :
    k0_pay2 (F := Ideal) (grid0.coords t) (iblk0 V c 0 t) (iblk0 V c 1 t) (iblk0 V c 2 t) acc
      = fun y => acc y + step0 V c (t.val / 28) (t.val % 28) y := by
  have hN : t.val < 17500 := lt_of_lt_of_eq t.isLt (show cfg0.N = 17500 from N_0)
  funext y
  obtain ⟨j, d, rfl⟩ : ∃ (j : Fin 1280) (d : Fin 128), y = ix2 j d := ⟨y 0, y 1, eq_ix2 y⟩
  have hi : (grid0.coords t 1).val < 28 := by rw [coords0_1]; omega
  refine (k0_pay2_apply (grid0.coords t) hi _ _ _ _ j d).trans ?_
  unfold step0
  congr 1
  refine Finset.sum_congr rfl fun r _ => ?_
  have hk : t.val / 28 * 1280 + j.val < 800000 := by omega
  have hn : t.val % 28 * 1792 + r.val < 50176 := by omega
  rw [iblk0_0_apply V c t j ⟨_, hk⟩ rfl, iblk0_1_apply V c t j ⟨_, hk⟩ rfl, iblk0_2_apply V c t r d ⟨_, hn⟩ rfl, coords0_1]
  show _ = ((if dW V c (t.val / 28 * 1280 + j.val) = _ then (1 : EReal) else 0) * nW V c (t.val / 28 * 1280 + j.val)) * xP V c (t.val % 28 * 1792 + r.val) d
  unfold dW nW xP
  rw [dif_pos hk, dif_pos hk, dif_pos hn]

/-- THE ACCUMULATOR IN CLOSED FORM, after every point. -/
theorem acc0_closed (c : Dev nD) : ∀ (n : ℕ) (hn : n < cfg0.N),
    (outsAt0 V c n hn).2 = fun y => ∑ s ∈ Finset.range (n % 28 + 1), step0 V c (n / 28) s y := by
  intro n
  induction n with
  | zero =>
    intro hn
    rw [outsAt0_A V c ⟨0, hn⟩ (Nat.zero_mod _) (by show ¬ (0 : ℕ) % 28 = 27; omega)]
    dsimp only
    rw [soutA0_eq, pay2_step]
    funext y
    obtain ⟨j, d, rfl⟩ : ∃ (j : Fin 1280) (d : Fin 128), y = ix2 j d := ⟨y 0, y 1, eq_ix2 y⟩
    rw [k0_pay1_apply, zero_add]
    show step0 V c (0 / 28) (0 % 28) _ = ∑ s ∈ Finset.range (0 % 28 + 1), step0 V c (0 / 28) s _
    simp only [Nat.zero_mod, Nat.zero_div, Nat.zero_add, Finset.sum_range_one]
  | succ n ih =>
    intro hn
    have hN : n + 1 < 17500 := lt_of_lt_of_eq hn (show cfg0.N = 17500 from N_0)
    by_cases h0 : (n + 1) % 28 = 0
    · rw [outsAt0_A V c ⟨n + 1, hn⟩ h0 (by show ¬ (n + 1) % 28 = 27; omega)]
      dsimp only
      rw [soutA0_eq, pay2_step]
      funext y
      obtain ⟨j, d, rfl⟩ : ∃ (j : Fin 1280) (d : Fin 128), y = ix2 j d := ⟨y 0, y 1, eq_ix2 y⟩
      rw [k0_pay1_apply, zero_add]
      show step0 V c ((n + 1) / 28) ((n + 1) % 28) _ = ∑ s ∈ Finset.range ((n + 1) % 28 + 1), step0 V c ((n + 1) / 28) s _
      rw [h0, Finset.sum_range_one]
    · have hd : (n + 1) / 28 = n / 28 := by omega
      have hm : (n + 1) % 28 = n % 28 + 1 := by omega
      have hprev := ih (Nat.lt_of_succ_lt hn)
      by_cases h1 : (n + 1) % 28 = 27
      · rw [outsAt0_C V c ⟨n + 1, hn⟩ h0 h1]
        dsimp only
        rw [soutC0_eq, pay2_step]
        funext y
        show (outsAt0 V c n _).2 y + step0 V c ((n + 1) / 28) ((n + 1) % 28) y = _
        rw [hprev, hd, hm, Finset.sum_range_succ]
      · rw [outsAt0_B V c ⟨n + 1, hn⟩ h0 h1]
        dsimp only
        rw [soutB0_eq, pay2_step]
        funext y
        show (outsAt0 V c n _).2 y + step0 V c ((n + 1) / 28) ((n + 1) % 28) y = _
        rw [hprev, hd, hm, Finset.sum_range_succ]

end Cert.KernelIdeal.Hand

end
-- ==== Proof.KI.R0Out.lean ====
/-
  Pallas call 0, the result: at the last reduction step of an edge block the accumulator — and the block stored into the
  output window — holds, at entry (j, d), weight (e) · x (dst e, d) for the edge e = 1280 block + j, or 0 when dst e names
  no row of the padded features; the write-backs of the 625 edge blocks tile the output array, which therefore ends
  holding that function of the edge and the column.
-/
import proofs.«171925_j65137474011136_1_alg».proof.Proof.KI.R0Acc

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx Cert.KernelIdeal.PayloadValue

variable (V : (c : Dev nD) → (b : Ref sig .tc) → Buf (Elt Ideal) ((c : Thread nD τ).loc b))

/-- The gathered, weighted row: entry (e, d) of the first call's output array. -/
def G0 (c : Dev nD) : S800000x128.Idx → EReal := fun i =>
  nW V c (i 0).val * (if dW V c (i 0).val < 50176 then xP V c (dW V c (i 0).val) (i 1) else 0)

/-- At a last reduction step the stored block is the accumulator, and the sum over all node tiles collapses to the one
    row the destination names. -/
theorem last0 (c : Dev nD) (t : Fin cfg0.N) (h27 : t.val % 28 = 27) :
    (outsAt0 V c t.val t.isLt).1 = fun y => nW V c (t.val / 28 * 1280 + (y 0).val)
      * (if dW V c (t.val / 28 * 1280 + (y 0).val) < 50176 then xP V c (dW V c (t.val / 28 * 1280 + (y 0).val)) (y 1) else 0) := by
  have h0 : ¬ t.val % 28 = 0 := by omega
  have e1 : (outsAt0 V c t.val t.isLt).1 = (outsAt0 V c t.val t.isLt).2 := by
    rw [outsAt0_C V c t h0 h27]; dsimp only; rw [outC0_eq, soutC0_eq, k0_pay3_eq]
  rw [e1, acc0_closed V c t.val t.isLt]
  funext y
  rw [h27]
  unfold step0
  exact Cert.PayloadSums.gather_tiles _ _ (fun n => xP V c n (y 1))

theorem mem_blk0_3 (t : Fin cfg0.N) (i : S800000x128.Idx) :
    i ∈ ((cfg0.win 3).blk t).view.set ↔ ∀ a : Fin 2, win0_3.index t a * S1280x128.size a ≤ (i a).val ∧ (i a).val < win0_3.index t a * S1280x128.size a + S1280x128.size a := by
  show i ∈ ((View.whole main_v34).slice (win0_3.rect t)).set ↔ _
  rw [View.set_slice_whole, Rect.mem_set_unit]
  exact Iff.rfl

/-- What a last step writes back is its block of the gathered array. -/
theorem flushed0_eq (c : Dev nD) (t : Fin cfg0.N) (hf : (cfg0.win 3).flush t = true) :
    (dat0 V c).flushed 3 t = ((cfg0.win 3).blk t).view.read (Elt Ideal) (G0 V c) := by
  have h27 := (flush0_3 t).mp hf
  show (cfg0.win 3).cut (grid0.coords t) ((dat0 V c).after 3 t) = _
  rw [after0_3, last0 V c t h27]
  funext j
  show _ = G0 V c (((cfg0.win 3).blk t).view.emb j)
  have e0 : ((((cfg0.win 3).blk t).view.emb j) 0).val = t.val / 28 * 1280 + (j 0).val := by
    show win0_3.index t 0 * 1280 + 1 * (j 0).val = _; rw [(idx0_3 t).1]; omega
  have e1 : (((cfg0.win 3).blk t).view.emb j) 1 = j 1 := by
    apply Fin.ext; show win0_3.index t 1 * 128 + 1 * (j 1).val = (j 1).val; rw [(idx0_3 t).2]; omega
  unfold G0
  rw [e0, e1]

/-- The output array after the call. -/
theorem final0 (c : Dev nD) : (dat0 V c).arrAt 3 cfg0.N = G0 V c :=
  (dat0 V c).arrAt_eq_of_cover 3 (G0 V c) (flushed0_eq V c) fun i => by
    have hi0 : (i 0).val < 800000 := (i 0).isLt
    have hi1 : (i 1).val < 128 := (i 1).isLt
    have hlt : (i 0).val / 1280 * 28 + 27 < cfg0.N := by rw [show cfg0.N = 17500 from N_0]; omega
    refine ⟨⟨(i 0).val / 1280 * 28 + 27, hlt⟩, (flush0_3 _).mpr (by show ((i 0).val / 1280 * 28 + 27) % 28 = 27; omega), ?_⟩
    rw [mem_blk0_3]
    intro a
    match a with
    | ⟨0, _⟩ =>
      show win0_3.index _ 0 * 1280 ≤ (i 0).val ∧ (i 0).val < win0_3.index _ 0 * 1280 + 1280
      rw [(idx0_3 _).1]
      show ((i 0).val / 1280 * 28 + 27) / 28 * 1280 ≤ (i 0).val ∧ (i 0).val < ((i 0).val / 1280 * 28 + 27) / 28 * 1280 + 1280
      omega
    | ⟨1, _⟩ =>
      show win0_3.index _ 1 * 128 ≤ (i 1).val ∧ (i 1).val < win0_3.index _ 1 * 128 + 128
      rw [(idx0_3 _).2]
      omega

end Cert.KernelIdeal.Hand

end
-- ==== Proof.KI.R1Pieces.lean ====
/-
  Pallas call 1: what each kind of step leaves in the accumulator and, at a last step, in the output window, as the
  body's arithmetic applied to the step's input blocks and to what the step before left.
-/
import proofs.«171925_j65137474011136_1_alg».proof.Proof.KI.R1Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2' : (![0, 0] : Fin 2 → Nat) = fun _ => 0 := funext fun a => by fin_cases a <;> rfl

theorem soutA1_eq (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : cond1_0 i) (hc1 : ¬cond1_1 i)
    (x0 : Vec F S1x1280 .i32) (x1 : Vec F S1280x128 .bf16) (x2 : Vec F S128x128 .f32) (x3 : Vec F S1x128 .f32) :
    sout1_A_0 c i arg2 harg2 arg3 harg3 arg4 harg4 arg5 harg5 arg6 harg6 arg7 harg7 hc0 hc1 x0 x1 x2 x3 = k1_pay2 i x0 x1 (k1_pay1 (F := F)) := by
  have hz2 := hz2'
  unfold sout1_A_0
  rw [View.read_writes_eq_canon _ _ _ (scover1_A_0 c i arg2 harg2 arg3 harg3 arg4 harg4 arg5 harg5 arg6 harg6 arg7 harg7 hc0 hc1 x0 x1 x2 x3)]
  unfold kernelRun1_A
  dsimp only
  try sl_unfold_words
  rw [View.canon_cons_unit_zero hz2]
  simp only [View.readAt_eq_ld, harg2.read_unread, harg3.read_unread, harg4.read_unread, harg5.read_unread, harg7.read_unread, View.ld_unit_zero (S := S1x1280) hz2, View.ld_unit_zero (S := S1280x128) hz2, View.ld_unit_zero (S := S128x128) hz2, View.ld_unit_zero (S := S1x128) hz2, View.ld_unit_zero (S := S1792x128) hz2, View.readCov_unit_zero (S := S1792x128) _ hz2]

theorem soutB1_eq (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : ¬cond1_0 i) (hc1 : ¬cond1_1 i)
    (x0 : Vec F S1x1280 .i32) (x1 : Vec F S1280x128 .bf16) (x2 : Vec F S128x128 .f32) (x3 : Vec F S1x128 .f32) (xs0 : Vec F S1792x128 .f32) :
    sout1_B_0 c i arg2 harg2 arg3 harg3 arg4 harg4 arg5 harg5 arg6 harg6 arg7 harg7 hc0 hc1 x0 x1 x2 x3 xs0 = k1_pay2 i x0 x1 xs0 := by
  have hz2 := hz2'
  unfold sout1_B_0
  rw [View.read_writes_eq_canon _ _ _ (scover1_B_0 c i arg2 harg2 arg3 harg3 arg4 harg4 arg5 harg5 arg6 harg6 arg7 harg7 hc0 hc1 x0 x1 x2 x3 xs0)]
  unfold kernelRun1_B
  dsimp only
  try sl_unfold_words
  rw [View.canon_unit_zero hz2]
  simp only [View.readAt_eq_ld, harg2.read_unread, harg3.read_unread, harg4.read_unread, harg5.read_unread, harg7.read_unread, View.ld_unit_zero (S := S1x1280) hz2, View.ld_unit_zero (S := S1280x128) hz2, View.ld_unit_zero (S := S128x128) hz2, View.ld_unit_zero (S := S1x128) hz2, View.ld_unit_zero (S := S1792x128) hz2, View.readCov_unit_zero (S := S1792x128) _ hz2]

theorem soutC1_eq (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : ¬cond1_0 i) (hc1 : cond1_1 i)
    (x0 : Vec F S1x1280 .i32) (x1 : Vec F S1280x128 .bf16) (x2 : Vec F S128x128 .f32) (x3 : Vec F S1x128 .f32) (xs0 : Vec F S1792x128 .f32) :
    sout1_C_0 c i arg2 harg2 arg3 harg3 arg4 harg4 arg5 harg5 arg6 harg6 arg7 harg7 hc0 hc1 x0 x1 x2 x3 xs0 = k1_pay2 i x0 x1 xs0 := by
  have hz2 := hz2'
  unfold sout1_C_0
  rw [View.read_writes_eq_canon _ _ _ (scover1_C_0 c i arg2 harg2 arg3 harg3 arg4 harg4 arg5 harg5 arg6 harg6 arg7 harg7 hc0 hc1 x0 x1 x2 x3 xs0)]
  unfold kernelRun1_C
  dsimp only
  try sl_unfold_words
  rw [View.canon_unit_zero hz2]
  simp only [View.readAt_eq_ld, harg2.read_unread, harg3.read_unread, harg4.read_unread, harg5.read_unread, harg7.read_unread, View.ld_unit_zero (S := S1x1280) hz2, View.ld_unit_zero (S := S1280x128) hz2, View.ld_unit_zero (S := S128x128) hz2, View.ld_unit_zero (S := S1x128) hz2, View.ld_unit_zero (S := S1792x128) hz2, View.readCov_unit_zero (S := S1792x128) _ hz2]

theorem outC1_eq (c : Dev nD) (i : grid1.Coords) (arg2 : Memref sig .tc .vmem S1x1280 .i32) (harg2 : arg2.IsWhole) (arg3 : Memref sig .tc .vmem S1280x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1792x128 .f32) (harg6 : arg6.IsWhole) (arg7 : Memref sig .tc .vmem S1792x128 .f32) (harg7 : arg7.IsWhole) (hc0 : ¬cond1_0 i) (hc1 : cond1_1 i)
    (x0 : Vec F S1x1280 .i32) (x1 : Vec F S1280x128 .bf16) (x2 : Vec F S128x128 .f32) (x3 : Vec F S1x128 .f32) (xs0 : Vec F S1792x128 .f32) :
    out1_C_4 c i arg2 harg2 arg3 harg3 arg4 harg4 arg5 harg5 arg6 harg6 arg7 harg7 hc0 hc1 x0 x1 x2 x3 xs0 = k1_pay3 (k1_pay2 i x0 x1 xs0) x2 x3 := by
  have hz2 := hz2'
  unfold out1_C_4
  rw [View.read_writes_eq_canon _ _ _ (cover1_C_4 c i arg2 harg2 arg3 harg3 arg4 harg4 arg5 harg5 arg6 harg6 arg7 harg7 hc0 hc1 x0 x1 x2 x3 xs0)]
  unfold kernelRun1_C
  dsimp only
  try sl_unfold_words
  rw [View.canon_unit_zero hz2]
  simp only [View.readAt_eq_ld, harg2.read_unread, harg3.read_unread, harg4.read_unread, harg5.read_unread, harg7.read_unread, View.ld_unit_zero (S := S1x1280) hz2, View.ld_unit_zero (S := S1280x128) hz2, View.ld_unit_zero (S := S128x128) hz2, View.ld_unit_zero (S := S1x128) hz2, View.ld_unit_zero (S := S1792x128) hz2, View.readCov_unit_zero (S := S1792x128) _ hz2]

end Cert.KernelIdeal.Hand

end
-- ==== Proof.KI.R1Acc.lean ====
/-
  Pallas call 1 at the ideal instance: where a block's element sits in its array, and the accumulator after every grid
  point in closed form. Point t is node tile b = t / 625 at reduction step a = t % 625; after it, entry (r, d) of the
  accumulator is the sum over the edge blocks 0 … a and the edges j of a block of
  [src (1280 block + j) = 1792 b + r] · gathered (1280 block + j, d).
-/
import proofs.«171925_j65137474011136_1_alg».proof.Proof.KI.R1Pieces
import proofs.«171925_j65137474011136_1_alg».proof.Proof.KI.Idx
import proofs.«171925_j65137474011136_1_alg».proof.Proof.PayloadValue
import proofs.«171925_j65137474011136_1_alg».proof.Proof.LibTileSums
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx Cert.KernelIdeal.PayloadValue

variable (V : (c : Dev nD) → (b : Ref sig .tc) → Buf (Elt Ideal) ((c : Thread nD τ).loc b))

/-! ## Where a block's element sits -/

/-- Source words: element (0, j) of the block at point t is element (0, 1280 (t % 625) + j) of the array. -/
theorem iblk1_0_apply (c : Dev nD) (t : Fin cfg1.N) (j : Fin 1280) (k : Fin 800000) (hk : k.val = t.val % 625 * 1280 + j.val) :
    (iblk1 V c 0 t : Vec Ideal S1x1280 .i32) (ix2 (0 : Fin 1) j) = (V c main_v31 : S1x800000.Idx → BitVec 32) (ix2 (0 : Fin 1) k) := by
  unfold iblk1
  rw [View.read_apply]
  show V c main_v31 _ = V c main_v31 _
  congr 1
  funext a
  apply Fin.ext
  match a with
  | ⟨0, _⟩ => show win1_0.index t 0 * 1 + 1 * 0 = 0; rw [(idx1_0 t).1]
  | ⟨1, _⟩ => show win1_0.index t 1 * 1280 + 1 * j.val = k.val; rw [(idx1_0 t).2, hk]; omega

/-- Gathered rows: element (j, d) of the block at point t is element (1280 (t % 625) + j, d) of the array. -/
theorem iblk1_1_apply (c : Dev nD) (t : Fin cfg1.N) (j : Fin 1280) (d : Fin 128) (k : Fin 800000) (hk : k.val = t.val % 625 * 1280 + j.val) :
    (iblk1 V c 1 t : Vec Ideal S1280x128 .bf16) (ix2 j d) = (V c main_v34 : S800000x128.Idx → EReal) (ix2 k d) := by
  unfold iblk1
  rw [View.read_apply]
  show V c main_v34 _ = V c main_v34 _
  congr 1
  funext a
  apply Fin.ext
  match a with
  | ⟨0, _⟩ => show win1_1.index t 0 * 1280 + 1 * j.val = k.val; rw [(idx1_1 t).1, hk]; omega
  | ⟨1, _⟩ => show win1_1.index t 1 * 128 + 1 * d.val = d.val; rw [(idx1_1 t).2]; omega

/-- The weight matrix is one block: the block is the array. -/
theorem iblk1_2_apply (c : Dev nD) (t : Fin cfg1.N) (o k : Fin 128) :
    (iblk1 V c 2 t : Vec Ideal S128x128 .f32) (ix2 o k) = (V c main_arg2 : S128x128.Idx → EReal) (ix2 o k) := by
  unfold iblk1
  rw [View.read_apply]
  show V c main_arg2 _ = V c main_arg2 _
  congr 1
  funext a
  apply Fin.ext
  match a with
  | ⟨0, _⟩ => show win1_2.index t 0 * 128 + 1 * o.val = o.val; rw [(idx1_2 t).1]; omega
  | ⟨1, _⟩ => show win1_2.index t 1 * 128 + 1 * k.val = k.val; rw [(idx1_2 t).2]; omega

/-- So is the bias row. -/
theorem iblk1_3_apply (c : Dev nD) (t : Fin cfg1.N) (o : Fin 128) :
    (iblk1 V c 3 t : Vec Ideal S1x128 .f32) (ix2 (0 : Fin 1) o) = (V c main_v33 : S1x128.Idx → EReal) (ix2 (0 : Fin 1) o) := by
  unfold iblk1
  rw [View.read_apply]
  show V c main_v33 _ = V c main_v33 _
  congr 1
  funext a
  apply Fin.ext
  match a with
  | ⟨0, _⟩ => show win1_3.index t 0 * 1 + 1 * 0 = 0; rw [(idx1_3 t).1]
  | ⟨1, _⟩ => show win1_3.index t 1 * 128 + 1 * o.val = o.val; rw [(idx1_3 t).2]; omega

/-! ## The arrays as functions of plain numbers -/

/-- The source word of edge k, as a number. -/
def sW (c : Dev nD) (k : ℕ) : ℕ := if h : k < 800000 then ((V c main_v31 : S1x800000.Idx → BitVec 32) (ix2 (0 : Fin 1) (⟨k, h⟩ : Fin 800000))).toNat else 0
/-- Row k of the gathered array at column d. -/
def yE (c : Dev nD) (k : ℕ) (d : Fin 128) : EReal := if h : k < 800000 then (V c main_v34 : S800000x128.Idx → EReal) (ix2 (⟨k, h⟩ : Fin 800000) d) else 0

/-- One reduction step's product for node tile b and edge block a, at entry y of the accumulator. -/
def step1 (c : Dev nD) (b a : ℕ) (y : S1792x128.Idx) : EReal :=
  ∑ j : Fin 1280, (if sW V c (a * 1280 + j.val) = b * 1792 + (y 0).val then (1 : EReal) else 0) * yE V c (a * 1280 + j.val) (y 1)

/-- The body's accumulation at point t: what it was, plus the point's product. -/
theorem pay2_step1 (c : Dev nD) (t : Fin cfg1.N) (acc : Vec Ideal S1792x128 .f32) :
    k1_pay2 (F := Ideal) (grid1.coords t) (iblk1 V c 0 t) (iblk1 V c 1 t) acc
      = fun y => acc y + step1 V c (t.val / 625) (t.val % 625) y := by
  have hN : t.val < 17500 := lt_of_lt_of_eq t.isLt (show cfg1.N = 17500 from N_1)
  funext y
  obtain ⟨r, d, rfl⟩ : ∃ (r : Fin 1792) (d : Fin 128), y = ix2 r d := ⟨y 0, y 1, eq_ix2 y⟩
  have hi : (grid1.coords t 0).val < 28 := by rw [coords1_0]; omega
  refine (k1_pay2_apply (grid1.coords t) hi _ _ _ r d).trans ?_
  unfold step1
  congr 1
  refine Finset.sum_congr rfl fun j _ => ?_
  have hk : t.val % 625 * 1280 + j.val < 800000 := by omega
  rw [iblk1_0_apply V c t j ⟨_, hk⟩ rfl, iblk1_1_apply V c t j d ⟨_, hk⟩ rfl, coords1_0]
  show _ = (if sW V c (t.val % 625 * 1280 + j.val) = _ then (1 : EReal) else 0) * yE V c (t.val % 625 * 1280 + j.val) d
  unfold sW yE
  rw [dif_pos hk, dif_pos hk]

/-- THE ACCUMULATOR IN CLOSED FORM, after every point. -/
theorem acc1_closed (c : Dev nD) : ∀ (n : ℕ) (hn : n < cfg1.N),
    (outsAt1 V c n hn).2 = fun y => ∑ a ∈ Finset.range (n % 625 + 1), step1 V c (n / 625) a y := by
  intro n
  induction n with
  | zero =>
    intro hn
    rw [outsAt1_A V c ⟨0, hn⟩ (Nat.zero_mod _) (by show ¬ (0 : ℕ) % 625 = 624; decide)]
    dsimp only
    rw [soutA1_eq, pay2_step1]
    funext y
    obtain ⟨r, d, rfl⟩ : ∃ (r : Fin 1792) (d : Fin 128), y = ix2 r d := ⟨y 0, y 1, eq_ix2 y⟩
    rw [k1_pay1_apply, zero_add]
    show step1 V c (0 / 625) (0 % 625) _ = ∑ a ∈ Finset.range (0 % 625 + 1), step1 V c (0 / 625) a _
    simp only [Nat.zero_mod, Nat.zero_div, zero_add, Finset.sum_range_one]
  | succ n ih =>
    intro hn
    have hN : n + 1 < 17500 := lt_of_lt_of_eq hn (show cfg1.N = 17500 from N_1)
    by_cases h0 : (n + 1) % 625 = 0
    · rw [outsAt1_A V c ⟨n + 1, hn⟩ h0 (by show ¬ (n + 1) % 625 = 624; omega)]
      dsimp only
      rw [soutA1_eq, pay2_step1]
      funext y
      obtain ⟨r, d, rfl⟩ : ∃ (r : Fin 1792) (d : Fin 128), y = ix2 r d := ⟨y 0, y 1, eq_ix2 y⟩
      rw [k1_pay1_apply, zero_add]
      show step1 V c ((n + 1) / 625) ((n + 1) % 625) _ = ∑ a ∈ Finset.range ((n + 1) % 625 + 1), step1 V c ((n + 1) / 625) a _
      rw [h0, Finset.sum_range_one]
    · have hd : (n + 1) / 625 = n / 625 := by omega
      have hm : (n + 1) % 625 = n % 625 + 1 := by omega
      have hprev := ih (Nat.lt_of_succ_lt hn)
      by_cases h1 : (n + 1) % 625 = 624
      · rw [outsAt1_C V c ⟨n + 1, hn⟩ h0 h1]
        dsimp only
        rw [soutC1_eq, pay2_step1]
        funext y
        show (outsAt1 V c n _).2 y + step1 V c ((n + 1) / 625) ((n + 1) % 625) y = _
        rw [hprev, hd, hm, Finset.sum_range_succ]
      · rw [outsAt1_B V c ⟨n + 1, hn⟩ h0 h1]
        dsimp only
        rw [soutB1_eq, pay2_step1]
        funext y
        show (outsAt1 V c n _).2 y + step1 V c ((n + 1) / 625) ((n + 1) % 625) y = _
        rw [hprev, hd, hm, Finset.sum_range_succ]

end Cert.KernelIdeal.Hand

end
-- ==== Proof.KI.R1Out.lean ====
/-
  Pallas call 1, the result: at the last reduction step of a node tile the accumulator holds, at entry (r, d), the sum
  over ALL edges e with src e = 1792 tile + r of gathered (e, d); the block stored into the output window is
  max (0, accumulator · Wᵀ + bias); the write-backs of the 28 node tiles tile the output array, which therefore ends
  holding that function of the node and the column.
-/
import proofs.«171925_j65137474011136_1_alg».proof.Proof.KI.R1Acc

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx Cert.KernelIdeal.PayloadValue

variable (V : (c : Dev nD) → (b : Ref sig .tc) → Buf (Elt Ideal) ((c : Thread nD τ).loc b))

/-- The aggregate at (padded) node n, column k: the gathered rows of the edges leaving n, added. -/
def agg1 (c : Dev nD) (n : ℕ) (k : Fin 128) : EReal := ∑ e : Fin 800000, if sW V c e.val = n then yE V c e.val k else 0

/-- The layer's output at (padded) node row and column: entry of the second call's output array. -/
def G1 (c : Dev nD) : S50176x128.Idx → EReal := fun i =>
  max ((∑ k : Fin 128, agg1 V c (i 0).val k * (V c main_arg2 : S128x128.Idx → EReal) (ix2 (i 1) k)) + (V c main_v33 : S1x128.Idx → EReal) (ix2 (0 : Fin 1) (i 1))) 0

/-- At a last reduction step the accumulator is the aggregate of the tile's nodes. -/
theorem lastAcc1 (c : Dev nD) (t : Fin cfg1.N) (h : t.val % 625 = 624) :
    (outsAt1 V c t.val t.isLt).2 = fun y => agg1 V c (t.val / 625 * 1792 + (y 0).val) (y 1) := by
  rw [acc1_closed V c t.val t.isLt]
  funext y
  rw [h]
  unfold step1 agg1
  exact Cert.PayloadSums.scatter_tiles (sW V c) _ (fun k => yE V c k (y 1))

/-- … and the stored block is the layer's output on the tile's rows. -/
theorem last1 (c : Dev nD) (t : Fin cfg1.N) (h : t.val % 625 = 624) :
    (outsAt1 V c t.val t.isLt).1 = fun y =>
      max ((∑ k : Fin 128, agg1 V c (t.val / 625 * 1792 + (y 0).val) k * (V c main_arg2 : S128x128.Idx → EReal) (ix2 (y 1) k)) + (V c main_v33 : S1x128.Idx → EReal) (ix2 (0 : Fin 1) (y 1))) 0 := by
  have h0 : ¬ t.val % 625 = 0 := by omega
  have e2 := lastAcc1 V c t h
  rw [outsAt1_C V c t h0 h] at e2 ⊢
  dsimp only at e2 ⊢
  rw [outC1_eq]
  rw [soutC1_eq] at e2
  rw [e2]
  funext y
  obtain ⟨r, o, rfl⟩ : ∃ (r : Fin 1792) (o : Fin 128), y = ix2 r o := ⟨y 0, y 1, eq_ix2 y⟩
  refine (k1_pay3_apply _ _ _ r o).trans ?_
  simp only [iblk1_2_apply V c t, iblk1_3_apply V c t]

theorem mem_blk1_4 (t : Fin cfg1.N) (i : S50176x128.Idx) :
    i ∈ ((cfg1.win 4).blk t).view.set ↔ ∀ a : Fin 2, win1_4.index t a * S1792x128.size a ≤ (i a).val ∧ (i a).val < win1_4.index t a * S1792x128.size a + S1792x128.size a := by
  show i ∈ ((View.whole main_v35).slice (win1_4.rect t)).set ↔ _
  rw [View.set_slice_whole, Rect.mem_set_unit]
  exact Iff.rfl

/-- Any contents read through point t's block of the output array, at an index of the block. -/
theorem read_blk1_4 (t : Fin cfg1.N) (f : S50176x128.Idx → EReal) (j : ((cfg1.win 4).xblock (grid1.coords t)).Idx) :
    ((cfg1.win 4).blk t).view.read (Elt Ideal) f j = f (((cfg1.win 4).blk t).view.emb j) := rfl

/-- The layer's output at an index i of the array that is row A + y 0, column y 1: the closed form with the row split. -/
theorem G1_of_tile (c : Dev nD) (A : ℕ) (i : S50176x128.Idx) (y : S1792x128.Idx)
    (h0 : (i 0).val = A + (y 0).val) (h1 : (i 1).val = (y 1).val) :
    G1 V c i = max ((∑ k : Fin 128, agg1 V c (A + (y 0).val) k * (V c main_arg2 : S128x128.Idx → EReal) (ix2 (y 1) k)) + (V c main_v33 : S1x128.Idx → EReal) (ix2 (0 : Fin 1) (y 1))) 0 := by
  have e1 : i 1 = y 1 := Fin.ext h1
  unfold G1
  rw [h0, e1]

/-- What a last step writes back is its block of the output array. -/
theorem flushed1_eq (c : Dev nD) (t : Fin cfg1.N) (hf : (cfg1.win 4).flush t = true) :
    (dat1 V c).flushed 4 t = ((cfg1.win 4).blk t).view.read (Elt Ideal) (G1 V c) := by
  have h := (flush1_4 t).mp hf
  show (cfg1.win 4).cut (grid1.coords t) ((dat1 V c).after 4 t) = _
  rw [after1_4, last1 V c t h]
  funext j
  have e0 : ((((cfg1.win 4).blk t).view.emb j) 0).val = t.val / 625 * 1792 + (((cfg1.win 4).xinj (grid1.coords t) j) 0).val := by
    show win1_4.index t 0 * 1792 + 1 * (j 0).val = t.val / 625 * 1792 + (j 0).val
    rw [(idx1_4 t).1]; omega
  have e1 : ((((cfg1.win 4).blk t).view.emb j) 1).val = (((cfg1.win 4).xinj (grid1.coords t) j) 1).val := by
    show win1_4.index t 1 * 128 + 1 * (j 1).val = (j 1).val
    rw [(idx1_4 t).2]; omega
  rw [read_blk1_4 t (G1 V c) j,
    G1_of_tile V c (t.val / 625 * 1792) (((cfg1.win 4).blk t).view.emb j) ((cfg1.win 4).xinj (grid1.coords t) j) e0 e1]

/-- The output array after the call. -/
theorem final1 (c : Dev nD) : (dat1 V c).arrAt 4 cfg1.N = G1 V c :=
  (dat1 V c).arrAt_eq_of_cover 4 (G1 V c) (flushed1_eq V c) fun i => by
    have hi0 : (i 0).val < 50176 := (i 0).isLt
    have hi1 : (i 1).val < 128 := (i 1).isLt
    have hlt : (i 0).val / 1792 * 625 + 624 < cfg1.N := by rw [show cfg1.N = 17500 from N_1]; omega
    refine ⟨⟨(i 0).val / 1792 * 625 + 624, hlt⟩, (flush1_4 _).mpr (by show ((i 0).val / 1792 * 625 + 624) % 625 = 624; omega), ?_⟩
    rw [mem_blk1_4]
    intro a
    match a with
    | ⟨0, _⟩ =>
      show win1_4.index _ 0 * 1792 ≤ (i 0).val ∧ (i 0).val < win1_4.index _ 0 * 1792 + 1792
      rw [(idx1_4 _).1]
      show ((i 0).val / 1792 * 625 + 624) / 625 * 1792 ≤ (i 0).val ∧ (i 0).val < ((i 0).val / 1792 * 625 + 624) / 625 * 1792 + 1792
      omega
    | ⟨1, _⟩ =>
      show win1_4.index _ 1 * 128 ≤ (i 1).val ∧ (i 1).val < win1_4.index _ 1 * 128 + 128
      rw [(idx1_4 _).2]
      omega

end Cert.KernelIdeal.Hand

end
-- ==== Proof.HostChain.lean ====
/-
  The arrays the kernel program's host operations prepare, read one element at a time on the extended reals:
  the edge words and weights laid out as one row, the node features padded with zero rows, the bias as one row,
  and the closing slice that drops the padding.
-/
import proofs.«171925_j65137474011136_1_alg».proof.Proof.Gen.KernelIdeal.Regions
import proofs.«171925_j65137474011136_1_alg».proof.Proof.RefReadP
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost
import Idealize.ShloMosaic.PureOps.Ideal.Laws

noncomputable section

namespace Cert.KernelIdeal.HostChain

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-! ## What each stretch of host operations writes, from any contents before it -/

section Stretches
variable (W : Valuation τ sig (Elt Ideal))

theorem s0_v1 : @Eq (S800000.Idx → BitVec 32) (StableHlo.after hostOps0 W (Proc.devRef .tc main_v1))
    (shapeCast S800000 (extractStridedSlice S1x800000 ![0, 0] (W (Proc.devRef .tc main_arg1) : S2x800000.Idx → BitVec 32)
      Facts₀.slices_S2x800000_S1x800000_0_0) Facts₀.shapeCasts_S1x800000_S800000) := by
  after_results
  rfl

theorem s0_v3 : @Eq (S800000.Idx → BitVec 32) (StableHlo.after hostOps0 W (Proc.devRef .tc main_v3))
    (shapeCast S800000 (extractStridedSlice S1x800000 ![1, 0] (W (Proc.devRef .tc main_arg1) : S2x800000.Idx → BitVec 32)
      Facts₀.slices_S2x800000_S1x800000_1_0) Facts₀.shapeCasts_S1x800000_S800000) := by
  after_results
  rfl

theorem s2_c6 : @Eq (IVec S_ 32) (StableHlo.after hostOps0_2 W (Proc.devRef .tc main_c_6)) (constantI S_ 32 0#32) := by
  after_results

theorem s3_v28 : @Eq (FVec Ideal S50176x128 .f32) (StableHlo.after hostOps0_3 W (Proc.devRef .tc main_v28))
    (pad S50176x128 ![0, 0] ![176, 0] ![0, 0] (W (Proc.devRef .tc main_arg0) : FVec Ideal S50000x128 .f32)
      (sitofp (F := Ideal) .f32 (W (Proc.devRef .tc main_c_6) : IVec S_ 32))
      Facts₀.pads_S50000x128_S50176x128_01760_000 Facts₀.h_S_) := by
  after_results
  rfl

theorem s4_v29 : @Eq (FVec Ideal S50176x128 .bf16) (StableHlo.after hostOps0_4 W (Proc.devRef .tc main_v29))
    (truncf (F := Ideal) .bf16 (W (Proc.devRef .tc main_v28) : FVec Ideal S50176x128 .f32) Facts₀.bitsLt_bf16_f32) := by
  after_results

theorem s4_v30 : @Eq (S1x800000.Idx → BitVec 32) (StableHlo.after hostOps0_4 W (Proc.devRef .tc main_v30))
    (shapeCast S1x800000 (W (Proc.devRef .tc main_v3) : S800000.Idx → BitVec 32) Facts₀.shapeCasts_S800000_S1x800000) := by
  after_results
  rfl

theorem s4_v31 : @Eq (S1x800000.Idx → BitVec 32) (StableHlo.after hostOps0_4 W (Proc.devRef .tc main_v31))
    (shapeCast S1x800000 (W (Proc.devRef .tc main_v1) : S800000.Idx → BitVec 32) Facts₀.shapeCasts_S800000_S1x800000) := by
  after_results
  rfl

theorem s4_v32 : @Eq (FVec Ideal S1x800000 .f32) (StableHlo.after hostOps0_4 W (Proc.devRef .tc main_v32))
    (shapeCast S1x800000 (W (Proc.devRef .tc main_v27) : FVec Ideal S800000 .f32) Facts₀.shapeCasts_S800000_S1x800000) := by
  after_results
  rfl

theorem s4_v33 : @Eq (FVec Ideal S1x128 .f32) (StableHlo.after hostOps0_4 W (Proc.devRef .tc main_v33))
    (shapeCast S1x128 (W (Proc.devRef .tc main_arg3) : FVec Ideal S128 .f32) Facts₀.shapeCasts_S128_S1x128) := by
  after_results
  rfl

theorem s5_v36 : @Eq (FVec Ideal S50000x128 .f32) (StableHlo.after hostOps2 W (Proc.devRef .tc main_v36))
    (extractStridedSlice S50000x128 ![0, 0] (W (Proc.devRef .tc main_v35) : FVec Ideal S50176x128 .f32)
      Facts₀.slices_S50176x128_S50000x128_0_0) := by
  after_results

end Stretches

/-! ## The arrays the kernels read, at an index -/

/-- The destination words: row 1 of the edge array. -/
theorem v30_apply (e : Fin 800000) :
    (V5 m c (Proc.devRef .tc main_v30) : S1x800000.Idx → BitVec 32) (ix2 (0 : Fin 1) e)
      = (m ((c : Thread nD τ).loc main_arg1) : S2x800000.Idx → BitVec 32) (ix2 (1 : Fin 2) e) := by
  have e4 : V4 m c (Proc.devRef .tc main_v3) = V1 m c (Proc.devRef .tc main_v3) :=
    (V4_of m c main_v3 (by decide)).trans ((V3_of m c main_v3 (by decide)).trans (V2_of m c main_v3 (by decide)))
  refine (congrFun (s4_v30 (V4 m c)) _).trans ?_
  rw [e4]
  refine (congrFun (congrArg (fun v => shapeCast S1x800000 v Facts₀.shapeCasts_S800000_S1x800000) (s0_v3 (V0 m c))) _).trans ?_
  rw [shapeCast_shapeCast]
  exact extractStridedSlice_apply _ _ _ _ (ix2 (1 : Fin 2) e) fun a => match a with
    | ⟨0, _⟩ => rfl
    | ⟨1, _⟩ => (Nat.zero_add _).symm

/-- The source words: row 0 of the edge array. -/
theorem v31_apply (e : Fin 800000) :
    (V5 m c (Proc.devRef .tc main_v31) : S1x800000.Idx → BitVec 32) (ix2 (0 : Fin 1) e)
      = (m ((c : Thread nD τ).loc main_arg1) : S2x800000.Idx → BitVec 32) (ix2 (0 : Fin 2) e) := by
  have e4 : V4 m c (Proc.devRef .tc main_v1) = V1 m c (Proc.devRef .tc main_v1) :=
    (V4_of m c main_v1 (by decide)).trans ((V3_of m c main_v1 (by decide)).trans (V2_of m c main_v1 (by decide)))
  refine (congrFun (s4_v31 (V4 m c)) _).trans ?_
  rw [e4]
  refine (congrFun (congrArg (fun v => shapeCast S1x800000 v Facts₀.shapeCasts_S800000_S1x800000) (s0_v1 (V0 m c))) _).trans ?_
  rw [shapeCast_shapeCast]
  exact extractStridedSlice_apply _ _ _ _ (ix2 (0 : Fin 2) e) fun a => match a with
    | ⟨0, _⟩ => rfl
    | ⟨1, _⟩ => (Nat.zero_add _).symm

/-- Row n of the padded features: the node's row below 50000, zero from there on. -/
theorem v29_apply (n : Fin 50176) (d : Fin 128) :
    @Eq EReal ((V5 m c (Proc.devRef .tc main_v29) : S50176x128.Idx → EReal) (ix2 n d))
      (if h : n.val < 50000 then (m ((c : Thread nD τ).loc main_arg0) : S50000x128.Idx → EReal) (ix2 (⟨n.val, h⟩ : Fin 50000) d) else 0) := by
  have e3c : (V3 m c (Proc.devRef .tc main_c_6) : IVec S_ 32) = constantI S_ 32 0#32 := s2_c6 (V2 m c)
  have e3a : V3 m c (Proc.devRef .tc main_arg0) = m ((c : Thread nD τ).loc main_arg0) :=
    (V3_of m c main_arg0 (by decide)).trans <| (V2_of m c main_arg0 (by decide)).trans <| (V1_of m c main_arg0 (by decide)).trans rfl
  refine (congrFun (s4_v29 (V4 m c)) _).trans ?_
  rw [truncf_apply]
  refine (congrFun (s3_v28 (V3 m c)) _).trans ?_
  by_cases h : n.val < 50000
  · rw [dif_pos h]
    refine (pad_apply_of_inside _ _ _ _ _ _ _ (ix2 n d) (ix2 (⟨n.val, h⟩ : Fin 50000) d) fun a => ?_).trans ?_
    · match a with
      | ⟨0, _⟩ => show n.val = 0 + n.val * (0 + 1); omega
      | ⟨1, _⟩ => show d.val = 0 + d.val * (0 + 1); omega
    · rw [e3a]
  · rw [dif_neg h]
    refine (pad_apply_of_not_inside _ _ _ _ _ _ _ (ix2 n d) (0 : Fin 2) ?_).trans ?_
    · show ¬(0 ≤ n.val ∧ (n.val - 0) % (0 + 1) = 0 ∧ (n.val - 0) / (0 + 1) < 50000)
      omega
    · rw [sitofp_apply, e3c]
      show (((((0#32 : BitVec 32).toInt : ℤ) : ℝ)) : EReal) = 0
      simp

/-- The bias row at column o is the bias at o. -/
theorem v33_apply (o : Fin 128) :
    @Eq EReal ((V5 m c (Proc.devRef .tc main_v33) : S1x128.Idx → EReal) (ix2 (0 : Fin 1) o))
      ((m ((c : Thread nD τ).loc main_arg3) : S128.Idx → EReal) (ix1 o)) := by
  have e4 : V4 m c (Proc.devRef .tc main_arg3) = m ((c : Thread nD τ).loc main_arg3) :=
    (V4_of m c main_arg3 (by decide)).trans <| (V3_of m c main_arg3 (by decide)).trans <| (V2_of m c main_arg3 (by decide)).trans <|
      (V1_of m c main_arg3 (by decide)).trans rfl
  refine (congrFun (s4_v33 (V4 m c)) _).trans ?_
  rw [e4]
  refine shapeCast_apply _ _ _ (ix1 o) ?_
  rw [Shape.rowMajor_val_one, Shape.rowMajor_val_two]
  show o.val = 0 * 128 + o.val
  omega

/-- No host operation writes the weights. -/
theorem arg2_eq : V5 m c (Proc.devRef .tc main_arg2) = m ((c : Thread nD τ).loc main_arg2) :=
  (V5_of m c main_arg2 (by decide)).trans <| (V4_of m c main_arg2 (by decide)).trans <| (V3_of m c main_arg2 (by decide)).trans <|
    (V2_of m c main_arg2 (by decide)).trans <| (V1_of m c main_arg2 (by decide)).trans rfl

/-- The result keeps the first 50000 rows of the padded array. -/
theorem v36_apply (Wv : Valuation τ sig (Elt Ideal)) (n : Fin 50000) (o : Fin 128) :
    @Eq EReal ((StableHlo.after hostOps2 Wv (Proc.devRef .tc main_v36) : S50000x128.Idx → EReal) (ix2 n o))
      ((Wv (Proc.devRef .tc main_v35) : S50176x128.Idx → EReal) (ix2 (⟨n.val, by have := n.isLt; omega⟩ : Fin 50176) o)) := by
  refine (congrFun (s5_v36 Wv) _).trans ?_
  exact extractStridedSlice_apply _ _ _ _ (ix2 (⟨n.val, by have := n.isLt; omega⟩ : Fin 50176) o) fun a => match a with
    | ⟨0, _⟩ => (Nat.zero_add _).symm
    | ⟨1, _⟩ => (Nat.zero_add _).symm

/-! ## The edge weights: the same host operations as the reference's -/

section Weights
open Cert.ReferenceIdeal.Read (val_main_v1 val_main_v3 val_main_v9 val_main_v10 val_main_v11 val_main_v12 val_main_v27)

/-- The product of the two gathered factors, from the per-node factor and the two endpoint word arrays (a negative
    word wraps around by the node count before the gather). -/
def wgt (v12 : FVec Ideal S50000 .f32) (v1 v3 : IVec S800000 32) : FVec Ideal S800000 .f32 :=
  mulf
    (Host.gather gather_S50000_S800000x1_S800000_n_0_n_n_0_1_1 v12
      (broadcastInDim S800000x1 ![0] Facts₀.bcast_S800000_S800000x1_0
        (select (cmpi .slt v1 (broadcastInDim S800000 ![] Facts₀.bcast_S_S800000 (constantI S_ 32 0#32)))
          (addi v1 (broadcastInDim S800000 ![] Facts₀.bcast_S_S800000 (constantI S_ 32 50000#32))) v1)))
    (Host.gather gather_S50000_S800000x1_S800000_n_0_n_n_0_1_1 v12
      (broadcastInDim S800000x1 ![0] Facts₀.bcast_S800000_S800000x1_0
        (select (cmpi .slt v3 (broadcastInDim S800000 ![] Facts₀.bcast_S_S800000 (constantI S_ 32 0#32)))
          (addi v3 (broadcastInDim S800000 ![] Facts₀.bcast_S_S800000 (constantI S_ 32 50000#32))) v3)))

variable (W : Valuation τ sig (Elt Ideal))

theorem s2_v27 : @Eq (FVec Ideal S800000 .f32) (StableHlo.after hostOps0_2 W (Proc.devRef .tc main_v27))
    (wgt (W (Proc.devRef .tc main_v12)) (W (Proc.devRef .tc main_v1)) (W (Proc.devRef .tc main_v3))) := by
  after_results_simp
  rfl

theorem s1_v12 : @Eq (FVec Ideal S50000 .f32) (StableHlo.after hostOps0_1 W (Proc.devRef .tc main_v12))
    (select (W (Proc.devRef .tc main_v9) : IVec S50000 1) (W (Proc.devRef .tc main_v10) : FVec Ideal S50000 .f32)
      (W (Proc.devRef .tc main_v11) : FVec Ideal S50000 .f32)) := by
  after_results
  rfl

theorem s0_v1_ref : @Eq (IVec S800000 32) (StableHlo.after hostOps0 W (Proc.devRef .tc main_v1))
    (val_main_v1 (F := Ideal) (W (Proc.devRef .tc main_arg1))) := (s0_v1 W).trans rfl

theorem s0_v3_ref : @Eq (IVec S800000 32) (StableHlo.after hostOps0 W (Proc.devRef .tc main_v3))
    (val_main_v3 (F := Ideal) (W (Proc.devRef .tc main_arg1))) := (s0_v3 W).trans rfl

theorem s0_v9_ref : @Eq (IVec S50000 1) (StableHlo.after hostOps0 W (Proc.devRef .tc main_v9))
    (val_main_v9 (F := Ideal) (W (Proc.devRef .tc main_arg1))) := by
  after_results
  rfl

theorem s0_v10_ref : @Eq (FVec Ideal S50000 .f32) (StableHlo.after hostOps0 W (Proc.devRef .tc main_v10))
    (val_main_v10 (F := Ideal) (W (Proc.devRef .tc main_arg1))) := by
  after_results
  rfl

theorem s0_v11_ref : @Eq (FVec Ideal S50000 .f32) (StableHlo.after hostOps0 W (Proc.devRef .tc main_v11))
    (val_main_v11 (F := Ideal)) := by
  after_results
  rfl

/-- The reference's weight stage is that product of its own earlier stages. -/
theorem wgt_ref (x1 : IVec S2x800000 32) :
    wgt (val_main_v12 (F := Ideal) x1) (val_main_v1 (F := Ideal) x1) (val_main_v3 (F := Ideal) x1) = val_main_v27 (F := Ideal) x1 := rfl

end Weights

/-- The edge weights as one row: the reference's weight stage of the same edge array. -/
theorem v32_apply (e : Fin 800000) :
    @Eq EReal ((V5 m c (Proc.devRef .tc main_v32) : S1x800000.Idx → EReal) (ix2 (0 : Fin 1) e))
      (Cert.ReferenceIdeal.Read.val_main_v27 (F := Ideal) (m ((c : Thread nD τ).loc main_arg1)) (ix1 e)) := by
  have h1 : V2 m c (Proc.devRef .tc main_v1) = Cert.ReferenceIdeal.Read.val_main_v1 (F := Ideal) (m ((c : Thread nD τ).loc main_arg1)) :=
    (V2_of m c main_v1 (by decide)).trans (s0_v1_ref (V0 m c))
  have h3 : V2 m c (Proc.devRef .tc main_v3) = Cert.ReferenceIdeal.Read.val_main_v3 (F := Ideal) (m ((c : Thread nD τ).loc main_arg1)) :=
    (V2_of m c main_v3 (by decide)).trans (s0_v3_ref (V0 m c))
  have h12 : V2 m c (Proc.devRef .tc main_v12) = Cert.ReferenceIdeal.Read.val_main_v12 (F := Ideal) (m ((c : Thread nD τ).loc main_arg1)) := by
    refine (s1_v12 (V1 m c)).trans ?_
    rw [show V1 m c (Proc.devRef .tc main_v9) = _ from s0_v9_ref (V0 m c), show V1 m c (Proc.devRef .tc main_v10) = _ from s0_v10_ref (V0 m c),
      show V1 m c (Proc.devRef .tc main_v11) = _ from s0_v11_ref (V0 m c)]
    rfl
  have e27 : V4 m c (Proc.devRef .tc main_v27) = Cert.ReferenceIdeal.Read.val_main_v27 (F := Ideal) (m ((c : Thread nD τ).loc main_arg1)) := by
    refine (V4_of m c main_v27 (by decide)).trans ?_
    refine (s2_v27 (V2 m c)).trans ?_
    rw [h12, h1, h3]
    exact wgt_ref _
  refine (congrFun (s4_v32 (V4 m c)) _).trans ?_
  rw [e27]
  refine shapeCast_apply _ _ _ (ix1 e) ?_
  rw [Shape.rowMajor_val_one, Shape.rowMajor_val_two]
  show e.val = 0 * 800000 + e.val
  omega

end Cert.KernelIdeal.HostChain

end
-- ==== Proof.Spec.lean ====
/-
  The layer's result as one function of the argument arrays, index by index, on the extended reals.

  Edge e goes from node src e to node dst e (row 0 and row 1 of the edge array, read as machine words). With a weight
  w e per edge, row n of the aggregate is the sum, over the edges whose source is n, of w e times row dst e of the
  node features; the result is max(0, aggregate · Wᵀ + bias).
-/
import Idealize.ShloMosaic.PureOps.Ideal
import Idealize.ShloMosaic.Lib.ValueIdx

noncomputable section

namespace Cert.Spec

open Idealize.ShloMosaic Idealize.ShloMosaic.ValueIdx

/-- The source word of edge e. -/
def src (ei : IVec (⟨2, ![2, 800000]⟩ : Shape) 32) (e : Fin 800000) : BitVec 32 := ei (ix2 (0 : Fin 2) e)
/-- The destination word of edge e. -/
def dst (ei : IVec (⟨2, ![2, 800000]⟩ : Shape) 32) (e : Fin 800000) : BitVec 32 := ei (ix2 (1 : Fin 2) e)

/-- Every endpoint of every edge names a node: read signed, it lies in [0, 50000). -/
def InRange (ei : IVec (⟨2, ![2, 800000]⟩ : Shape) 32) : Prop :=
  ∀ (r : Fin 2) (e : Fin 800000), 0 ≤ (ei (ix2 r e)).toInt ∧ (ei (ix2 r e)).toInt < 50000

/-- Row w of the node features at column k, for a machine word w; nothing (zero) when w names no node. -/
def xrow (x : (⟨2, ![50000, 128]⟩ : Shape).Idx → EReal) (w : BitVec 32) (k : Fin 128) : EReal :=
  if h : w.toNat < 50000 then x (ix2 (⟨w.toNat, h⟩ : Fin 50000) k) else 0

/-- The aggregate at node n, column k: over the edges leaving n, the edge weight times the destination's feature. -/
def agg (x : (⟨2, ![50000, 128]⟩ : Shape).Idx → EReal) (wgt : (⟨1, ![800000]⟩ : Shape).Idx → EReal)
    (ei : IVec (⟨2, ![2, 800000]⟩ : Shape) 32) (n : Fin 50000) (k : Fin 128) : EReal :=
  ∑ e : Fin 800000, if (src ei e).toNat = n.val then wgt (ix1 e) * xrow x (dst ei e) k else 0

/-- The layer: max(0, Σ_k agg n k · W j k + b j). -/
def layer (x : (⟨2, ![50000, 128]⟩ : Shape).Idx → EReal) (wgt : (⟨1, ![800000]⟩ : Shape).Idx → EReal)
    (ei : IVec (⟨2, ![2, 800000]⟩ : Shape) 32) (W : (⟨2, ![128, 128]⟩ : Shape).Idx → EReal)
    (b : (⟨1, ![128]⟩ : Shape).Idx → EReal) : (⟨2, ![50000, 128]⟩ : Shape).Idx → EReal :=
  fun i => max ((∑ k : Fin 128, agg x wgt ei (i 0) k * W (ix2 (i 1) k)) + b (ix1 (i 1))) 0

end Cert.Spec

end
-- ==== Proof.KI.Value.lean ====
/-
  The whole kernel program's result, on the extended reals: the array the closing slice leaves is the layer of the
  specification, applied to the node features, the edge weights the host operations compute, the edge array, the
  weight matrix and the bias. The second call's output is max (0, aggregate · Wᵀ + bias) on the padded node rows; its
  aggregate sums the first call's output rows over the edges leaving a node; the first call's output row of an edge is
  the edge's weight times the feature row its destination names (nothing when it names none); the closing slice keeps
  the first 50000 rows.
-/
import proofs.«171925_j65137474011136_1_alg».proof.Proof.KI.Main
import proofs.«171925_j65137474011136_1_alg».proof.Proof.KI.R0Out
import proofs.«171925_j65137474011136_1_alg».proof.Proof.KI.R1Out
import proofs.«171925_j65137474011136_1_alg».proof.Proof.HostChain
import proofs.«171925_j65137474011136_1_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx Cert.KernelIdeal.PayloadValue
open Cert.KernelIdeal.HostChain

variable (m : (ℓ : Loc nD τ sig) → Buf (Elt Ideal) ℓ) (c : Dev nD)

/-! ## The arguments, at their literal types -/

/-- The node features. -/
abbrev aX : S50000x128.Idx → EReal := m ((c : Thread nD τ).loc main_arg0)
/-- The edge array. -/
abbrev aE : IVec S2x800000 32 := m ((c : Thread nD τ).loc main_arg1)
/-- The weight matrix. -/
abbrev aW : S128x128.Idx → EReal := m ((c : Thread nD τ).loc main_arg2)
/-- The bias. -/
abbrev aB : S128.Idx → EReal := m ((c : Thread nD τ).loc main_arg3)
/-- The edge weights the host operations compute from the edge array. -/
abbrev aN : S800000.Idx → EReal := Cert.ReferenceIdeal.Read.val_main_v27 (F := Ideal) (m ((c : Thread nD τ).loc main_arg1))

/-! ## The first call's operands and result -/

/-- The weight of edge e is the host operations' weight. -/
theorem nW_eq (e : Fin 800000) : nW (Vr0 m) c e.val = aN m c (ix1 e) := by
  unfold nW
  rw [dif_pos e.isLt]
  exact v32_apply m c e

/-- The destination word of edge e is row 1 of the edge array. -/
theorem dW_eq (e : Fin 800000) : dW (Vr0 m) c e.val = (Cert.Spec.dst (aE m c) e).toNat := by
  unfold dW
  rw [dif_pos e.isLt]
  exact congrArg BitVec.toNat (v30_apply m c e)

/-- Row n of the padded features: the node's row below 50000, zero from there on. -/
theorem xP_eq (n : ℕ) (k : Fin 128) :
    xP (Vr0 m) c n k = if h : n < 50000 then aX m c (ix2 (⟨n, h⟩ : Fin 50000) k) else 0 := by
  unfold xP
  by_cases h : n < 50176
  · rw [dif_pos h]
    exact v29_apply m c ⟨n, h⟩ k
  · have h' : ¬ n < 50000 := by omega
    rw [dif_neg h, dif_neg h']

/-- The first call leaves, at edge e and column k, the edge's weight times the feature row its destination names. -/
theorem yE_eq (e : Fin 800000) (k : Fin 128) :
    yE (Vr1 m) c e.val k = aN m c (ix1 e) * Cert.Spec.xrow (aX m c) (Cert.Spec.dst (aE m c) e) k := by
  have h34 : @Eq (S800000x128.Idx → EReal) (W6 m c (Proc.devRef .tc main_v34)) (G0 (Vr0 m) c) :=
    (W6_arr m c 3).trans (final0 (Vr0 m) c)
  unfold yE
  rw [dif_pos e.isLt]
  refine (congrFun h34 _).trans ?_
  show nW (Vr0 m) c e.val * (if dW (Vr0 m) c e.val < 50176 then xP (Vr0 m) c (dW (Vr0 m) c e.val) k else 0) = _
  rw [nW_eq, dW_eq, xP_eq]
  unfold Cert.Spec.xrow
  generalize (Cert.Spec.dst (aE m c) e).toNat = D
  congr 1
  by_cases h : D < 50000
  · have h2 : D < 50176 := by omega
    rw [if_pos h2]
  · simp only [dif_neg h]
    exact ite_self 0

/-! ## The second call's operands -/

/-- The source word of edge e is row 0 of the edge array. -/
theorem sW_eq (e : Fin 800000) : sW (Vr1 m) c e.val = (Cert.Spec.src (aE m c) e).toNat := by
  have h31 : @Eq (S1x800000.Idx → BitVec 32) (W6 m c (Proc.devRef .tc main_v31)) (V5 m c (Proc.devRef .tc main_v31)) :=
    W6_of_ne m c main_v31 (by decide)
  unfold sW
  rw [dif_pos e.isLt]
  exact congrArg BitVec.toNat ((congrFun h31 (ix2 (0 : Fin 1) e)).trans (v31_apply m c e))

/-- The aggregate at node n, column k, is the specification's. -/
theorem agg_eq (n : Fin 50000) (k : Fin 128) :
    agg1 (Vr1 m) c n.val k = Cert.Spec.agg (aX m c) (aN m c) (aE m c) n k := by
  unfold agg1 Cert.Spec.agg
  refine Finset.sum_congr rfl fun e _ => ?_
  rw [sW_eq, yE_eq]

/-! ## The result -/

/-- The array the program returns is the specification's layer of its arguments. -/
theorem out_eq :
    (W8 m c (Proc.devRef .tc main_v36) : S50000x128.Idx → EReal)
      = Cert.Spec.layer (m ((c : Thread nD τ).loc main_arg0))
          (Cert.ReferenceIdeal.Read.val_main_v27 (F := Ideal) (m ((c : Thread nD τ).loc main_arg1)))
          (m ((c : Thread nD τ).loc main_arg1)) (m ((c : Thread nD τ).loc main_arg2)) (m ((c : Thread nD τ).loc main_arg3)) := by
  funext i
  obtain ⟨n, o, rfl⟩ : ∃ (n : Fin 50000) (o : Fin 128), i = ix2 n o := ⟨i 0, i 1, eq_ix2 i⟩
  have h35 : @Eq (S50176x128.Idx → EReal) (W7 m c (Proc.devRef .tc main_v35)) (G1 (Vr1 m) c) :=
    (W7_arr m c 4).trans (final1 (Vr1 m) c)
  have hW : @Eq (S128x128.Idx → EReal) (W6 m c (Proc.devRef .tc main_arg2)) (aW m c) :=
    (W6_of_ne m c main_arg2 (by decide)).trans (arg2_eq m c)
  have h33 : @Eq (S1x128.Idx → EReal) (W6 m c (Proc.devRef .tc main_v33)) (V5 m c (Proc.devRef .tc main_v33)) :=
    W6_of_ne m c main_v33 (by decide)
  have hB : (W6 m c (Proc.devRef .tc main_v33) : S1x128.Idx → EReal) (ix2 (0 : Fin 1) o) = aB m c (ix1 o) :=
    (congrFun h33 _).trans (v33_apply m c o)
  refine (v36_apply (W7 m c) n o).trans ?_
  refine (congrFun h35 _).trans ?_
  show max ((∑ k : Fin 128, agg1 (Vr1 m) c n.val k * (W6 m c (Proc.devRef .tc main_arg2) : S128x128.Idx → EReal) (ix2 o k))
        + (W6 m c (Proc.devRef .tc main_v33) : S1x128.Idx → EReal) (ix2 (0 : Fin 1) o)) 0
      = max ((∑ k : Fin 128, Cert.Spec.agg (aX m c) (aN m c) (aE m c) n k * aW m c (ix2 o k)) + aB m c (ix1 o)) 0
  rw [hW, hB]
  refine congrArg (fun s : EReal => max (s + aB m c (ix1 o)) 0) ?_
  refine Finset.sum_congr rfl fun k _ => ?_
  rw [agg_eq]

end Cert.KernelIdeal.Hand

end
-- ==== Proof.LibRowIndex.lean ====
/-
  A scatter-add of rows and a gather of rows, read at an index.

  Both operations address the rows of a table by an integer read off an index array, one integer per update (or per
  result row): the index array has shape [E, 1], entry (e, 0) naming the row that update (or result) row e goes to
  (or comes from). For the scatter the integer is read signed and NOT clamped: update row e lands on table row n
  exactly when the integer IS n, and an update whose integer is outside the table is dropped. For the gather it is
  read signed and clamped into the table.
-/
import Idealize.ShloMosaic.Lib.ValueIdx

namespace Cert.Lib.RowIndex

open Idealize.ShloMosaic Idealize.ShloMosaic.ValueIdx

/-- The dimension numbers of a scatter of E scalars into a vector of N entries: one index per update, naming the
    entry; no window. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The index array is read at (e, 0): the update's one coordinate on axis 0, the one component of the index vector
    on axis 1. -/
private theorem vec_siIdx {N E : Nat} (wf : ScatterDims.WF ⟨1, ![N]⟩ ⟨2, ![E, 1]⟩ ⟨1, ![E]⟩ [] [0] [0] 1)
    (j : (⟨1, ![E]⟩ : Shape).Idx) (c : Fin (vecDims N E wf).scatterDimsToOperandDims.length) :
    (vecDims N E wf).siIdx j c = ix2 (j 0) 0 := by
  funext b; refine Fin.ext ?_
  match b with
  | ⟨0, _⟩ => rfl
  | ⟨1, _⟩ =>
    have : c.val < 1 := c.isLt
    show c.val = 0
    omega

/-- On the vector's one axis the start is the integer at (e, 0): the axis is the one the index map names. -/
private theorem vec_start {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (a : Fin 1) :
    (vecDims N E wf).start j idx a = (idx (ix2 (j 0) 0)).toInt := by
  obtain rfl : a = 0 := Subsingleton.elim _ _
  unfold ScatterDims.start
  rw [dif_pos (show (0 : Fin 1) ∈ (vecDims N E wf).scatterDimsToOperandDims from List.mem_singleton.mpr rfl)]
  rw [vec_siIdx]
  rfl

/-- There is no window: the vector's one axis is an inserted one, so the window coordinate on it is 0. -/
private theorem vec_window {N E : Nat} (wf : ScatterDims.WF ⟨1, ![N]⟩ ⟨2, ![E, 1]⟩ ⟨1, ![E]⟩ [] [0] [0] 1)
    (j : (⟨1, ![E]⟩ : Shape).Idx) (a : Fin 1) :
    (vecDims N E wf).window j a = 0 := by
  unfold ScatterDims.window
  rw [dif_neg]
  obtain rfl : a = 0 := Subsingleton.elim _ _
  show (0 : Fin 1) ∉ (List.finRange 1).filter (fun a => decide (a ∉ [(0 : Fin 1)]))
  decide

/-- Update e of a vector scatter lands on entry i exactly when the integer at (e, 0) is i. -/
theorem vecDims_resultIdx?_eq_some_iff {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (i : (⟨1, ![N]⟩ : Shape).Idx) :
    (vecDims N E wf).resultIdx? j idx = some i ↔ (idx (ix2 (j 0) 0)).toInt = ((i 0).val : Int) := by
  unfold ScatterDims.resultIdx?
  have hi : (i 0).val < N := (i 0).isLt
  constructor
  · -- the landing index exists: read the equality of indices on axis 0
    intro h
    split at h
    · rename_i hb
      have h0 := congrArg Fin.val (congrFun (Option.some.inj h) 0)
      have hb0 := hb 0
      simp only [vec_start, vec_window] at h0 hb0
      omega
    · exact absurd h (by simp)
  · -- the integer is i's coordinate, which is inside the vector
    intro hz
    have hb : ∀ a, 0 ≤ (vecDims N E wf).start j idx a + (vecDims N E wf).window j a ∧
        (vecDims N E wf).start j idx a + (vecDims N E wf).window j a < (⟨1, ![N]⟩ : Shape).size a := by
      intro a
      obtain rfl : a = 0 := Subsingleton.elim _ _
      rw [vec_start, vec_window, hz]
      show (0 : Int) ≤ ((i 0).val : Int) + ((0 : Nat) : Int) ∧ ((i 0).val : Int) + ((0 : Nat) : Int) < (N : Int)
      omega
    rw [dif_pos hb]
    congr 1
    funext a
    obtain rfl : a = 0 := Subsingleton.elim _ _
    refine Fin.ext ?_
    show ((vecDims N E wf).start j idx 0 + (vecDims N E wf).window j 0).toNat = (i 0).val
    rw [vec_start, vec_window, hz]
    omega

/-- The dimension numbers of a scatter of E rows of C entries into a table of N rows: one index per update row,
    naming the table row; the window is the whole row. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The index array is read at (e, 0): the update row's coordinate on axis 0, the one component of the index vector
    on axis 1. -/
private theorem row_siIdx {N E C : Nat} (wf : ScatterDims.WF ⟨2, ![N, C]⟩ ⟨2, ![E, 1]⟩ ⟨2, ![E, C]⟩ [1] [0] [0] 1)
    (j : (⟨2, ![E, C]⟩ : Shape).Idx) (c : Fin (rowDims N E C wf).scatterDimsToOperandDims.length) :
    (rowDims N E C wf).siIdx j c = ix2 (j 0) 0 := by
  funext b; refine Fin.ext ?_
  match b with
  | ⟨0, _⟩ => rfl
  | ⟨1, _⟩ =>
    have : c.val < 1 := c.isLt
    show c.val = 0
    omega

/-- On the table's row axis the start is the integer at (e, 0): the index map names that axis. -/
private theorem row_start0 {N E C w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowDims N E C wf).start j idx 0 = (idx (ix2 (j 0) 0)).toInt := by
  unfold ScatterDims.start
  rw [dif_pos (show (0 : Fin 2) ∈ (rowDims N E C wf).scatterDimsToOperandDims from List.mem_singleton.mpr rfl)]
  rw [row_siIdx]
  rfl

/-- On the column axis the start is 0: the index map does not name it. -/
private theorem row_start1 {N E C w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowDims N E C wf).start j idx 1 = 0 := by
  unfold ScatterDims.start
  rw [dif_neg]
  show (1 : Fin 2) ∉ [(0 : Fin 2)]
  decide

/-- The row axis is an inserted one: the window coordinate on it is 0. -/
private theorem row_window0 {N E C : Nat} (wf : ScatterDims.WF ⟨2, ![N, C]⟩ ⟨2, ![E, 1]⟩ ⟨2, ![E, C]⟩ [1] [0] [0] 1)
    (j : (⟨2, ![E, C]⟩ : Shape).Idx) :
    (rowDims N E C wf).window j 0 = 0 := by
  unfold ScatterDims.window
  rw [dif_neg]
  show (0 : Fin 2) ∉ (List.finRange 2).filter (fun a => decide (a ∉ [(0 : Fin 2)]))
  decide

/-- The column axis is the one kept axis, and the updates' one window axis goes to it: the window coordinate is the
    update's column. -/
private theorem row_window1 {N E C : Nat} (wf : ScatterDims.WF ⟨2, ![N, C]⟩ ⟨2, ![E, 1]⟩ ⟨2, ![E, C]⟩ [1] [0] [0] 1)
    (j : (⟨2, ![E, C]⟩ : Shape).Idx) :
    (rowDims N E C wf).window j 1 = (j 1).val := by
  unfold ScatterDims.window
  have h1 : (1 : Fin 2) ∈ (rowDims N E C wf).sKept := by
    show (1 : Fin 2) ∈ (List.finRange 2).filter (fun a => decide (a ∉ [(0 : Fin 2)]))
    decide
  rw [dif_pos h1]
  rfl

/-- Entry (e, f) of the updates of a row scatter lands on table entry (n, f') exactly when the integer at (e, 0) is n
    and f = f'. -/
theorem rowDims_resultIdx?_eq_some_iff {N E C w : Nat}
    (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) (i : (⟨2, ![N, C]⟩ : Shape).Idx) :
    (rowDims N E C wf).resultIdx? j idx = some i ↔
      (idx (ix2 (j 0) 0)).toInt = ((i 0).val : Int) ∧ (j 1).val = (i 1).val := by
  unfold ScatterDims.resultIdx?
  have hi0 : (i 0).val < N := idx2_lt0 i
  have hi1 : (i 1).val < C := idx2_lt1 i
  have hj1 : (j 1).val < C := idx2_lt1 j
  constructor
  · -- the landing index exists: read the equality of indices on each axis
    intro h
    split at h
    · rename_i hb
      have h0 := congrArg Fin.val (congrFun (Option.some.inj h) 0)
      have h1 := congrArg Fin.val (congrFun (Option.some.inj h) 1)
      have hb0 := hb 0
      simp only [row_start0, row_start1, row_window0, row_window1] at h0 h1 hb0
      omega
    · exact absurd h (by simp)
  · -- the integer is i's row, inside the table; the column is the update's own, inside the row
    rintro ⟨hz, hc⟩
    have hb : ∀ a, 0 ≤ (rowDims N E C wf).start j idx a + (rowDims N E C wf).window j a ∧
        (rowDims N E C wf).start j idx a + (rowDims N E C wf).window j a < (⟨2, ![N, C]⟩ : Shape).size a := by
      rw [Fin.forall_fin_two]
      refine ⟨?_, ?_⟩
      · rw [row_start0, row_window0, hz]
        show (0 : Int) ≤ ((i 0).val : Int) + ((0 : Nat) : Int) ∧ ((i 0).val : Int) + ((0 : Nat) : Int) < (N : Int)
        omega
      · rw [row_start1, row_window1]
        show (0 : Int) ≤ 0 + ((j 1).val : Int) ∧ (0 : Int) + ((j 1).val : Int) < (C : Int)
        omega
    rw [dif_pos hb]
    congr 1
    funext a
    refine Fin.ext ?_
    match a with
    | ⟨0, _⟩ =>
      show ((rowDims N E C wf).start j idx 0 + (rowDims N E C wf).window j 0).toNat = (i 0).val
      rw [row_start0, row_window0, hz]
      omega
    | ⟨1, _⟩ =>
      show ((rowDims N E C wf).start j idx 1 + (rowDims N E C wf).window j 1).toNat = (i 1).val
      rw [row_start1, row_window1]
      omega

/-- The dimension numbers of a gather of E rows out of a table of N rows of C entries: one index per result row. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The index array is read at (e, 0): the result row's coordinate on axis 0 (the result's one batch axis), the one
    component of the index vector on axis 1. -/
private theorem rowGather_siIdx {N E C : Nat}
    (wf : GatherDims.WF ⟨2, ![N, C]⟩ ⟨2, ![E, 1]⟩ ⟨2, ![E, C]⟩ [1] [0] [] [0] [] 1 ![1, C])
    (e : Fin E) (f : Fin C) (c : Fin (rowGatherDims N E C wf).startIndexMap.length) :
    (rowGatherDims N E C wf).siIdx (ix2 e f) c = ix2 e 0 := by
  funext b; refine Fin.ext ?_
  match b with
  | ⟨0, _⟩ => rfl
  | ⟨1, _⟩ =>
    have : c.val < 1 := c.isLt
    show c.val = 0
    omega

/-- The row gather read at (e, f): the table at the row the integer at (e, 0) names, read signed and clamped into
    [0, N - 1], same column. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowGatherDims N E C wf) x idx (ix2 e f)
      = x (ix2 ⟨min (idx (ix2 e 0)).toInt.toNat (N - 1), by omega⟩ f) := by
  unfold Host.gather
  congr 1
  funext a
  refine Fin.ext ?_
  match a with
  | ⟨0, _⟩ =>
    -- the row axis: collapsed (no offset), not batching, named by the start index map, slice size 1: the clamped integer
    show (rowGatherDims N E C wf).start (ix2 e f) idx 0 + (rowGatherDims N E C wf).batchCoord (ix2 e f) 0
        + (rowGatherDims N E C wf).offCoord (ix2 e f) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    rw [rowGather_siIdx]
    rfl
  | ⟨1, _⟩ =>
    -- the column axis: not named by the start index map (start 0), not batching, the one offset axis: the result's column
    show (rowGatherDims N E C wf).start (ix2 e f) idx 1 + (rowGatherDims N E C wf).batchCoord (ix2 e f) 1
        + (rowGatherDims N E C wf).offCoord (ix2 e f) 1 = f.val
    have hs : (rowGatherDims N E C wf).start (ix2 e f) idx 1 = 0 := by
      unfold GatherDims.start
      rw [dif_neg]
      show (1 : Fin 2) ∉ [(0 : Fin 2)]
      decide
    have ho : (rowGatherDims N E C wf).offCoord (ix2 e f) 1 = f.val := by
      have h1 : (1 : Fin 2) ∈ (rowGatherDims N E C wf).sKept := by
        show (1 : Fin 2) ∈ (List.finRange 2).filter (fun a => decide (a ∉ [(0 : Fin 2)] ++ ([] : List (Fin 2))))
        decide
      unfold GatherDims.offCoord
      rw [dif_pos h1]
      rfl
    rw [hs, GatherDims.batchCoord_eq_zero _ _ _ List.not_mem_nil, ho]
    omega

end Cert.Lib.RowIndex
-- ==== Proof.LibScatterSum.lean ====
/-
  The accumulating scatter at the ideal instance, read at an index as a sum over the update rows.

  At the ideal instance a scatter-add leaves, at each entry of its operand, the entry plus the exact sum of the updates
  that land there. With one integer per update row naming the row it goes to, entry n of a vector receives the
  updates e whose integer is n; entry (n, f) of a table receives, from each update row e whose integer is n, its
  entry (e, f). Updates whose integer names no row contribute nothing.
-/
import proofs.«171925_j65137474011136_1_alg».proof.Proof.LibRowIndex
import Idealize.ShloMosaic.PureOps.Ideal
import Idealize.ShloMosaic.PureOps.Contract

noncomputable section

namespace Cert.Lib.RowIndex

open Idealize.ShloMosaic Idealize.ShloMosaic.ValueIdx

/-- A vector's index set is its one coordinate's range. -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Entry n of a vector after a scatter-add of E scalars: the entry, plus the updates whose integer is n. -/
theorem scatterVec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Host.scatterAdd (F := Ideal) (φ := .f32) (vecDims N E wf) x idx upd (ix1 n)
      = x (ix1 n) + ∑ e : Fin E, if (idx (ix2 e 0)).toInt = (n.val : Int) then upd (ix1 e) else 0 := by
  unfold Host.scatterAdd
  rw [Ideal.hostScatterAdd_def]
  unfold Ideal.hostScatterAdd
  simp only [vecDims_resultIdx?_eq_some_iff]
  rw [Finset.sum_filter, sum_idx1]
  rfl

/-- Entry (n, f) of a table after a scatter-add of E rows: the entry, plus entry f of each update row whose integer
    is n. -/
theorem scatterRow_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (f : Fin C) :
    Host.scatterAdd (F := Ideal) (φ := .f32) (rowDims N E C wf) x idx upd (ix2 n f)
      = x (ix2 n f) + ∑ e : Fin E, if (idx (ix2 e 0)).toInt = (n.val : Int) then upd (ix2 e f) else 0 := by
  unfold Host.scatterAdd
  rw [Ideal.hostScatterAdd_def]
  unfold Ideal.hostScatterAdd
  simp only [rowDims_resultIdx?_eq_some_iff]
  rw [Finset.sum_filter, sum_idx2]
  congr 1
  refine Finset.sum_congr rfl fun e _ => ?_
  show (∑ b : Fin C, if (idx (ix2 e 0)).toInt = (n.val : Int) ∧ b.val = f.val then upd (ix2 e b) else 0) = _
  by_cases h : (idx (ix2 e 0)).toInt = (n.val : Int)
  · rw [if_pos h, Finset.sum_eq_single f]
    · rw [if_pos ⟨h, rfl⟩]
    · intro b _ hb
      rw [if_neg (fun hv => hb (Fin.ext hv.2))]
    · intro hf; exact absurd (Finset.mem_univ f) hf
  · rw [if_neg h]
    exact Finset.sum_eq_zero fun b _ => if_neg (fun hv => h hv.1)

end Cert.Lib.RowIndex

end
-- ==== Proof.RefValue.lean ====
/-
  The reference's result, read off its run: at the ideal instance it is the layer of Spec.lean applied to the reference's own
  edge weights.

  The reference gathers, for each edge e, row dst e of the node features (a negative word is first wrapped by adding
  the number of nodes, and the row number is clamped into the table: both are the identity for a word in [0, 50000)),
  multiplies the row by the edge's weight, and adds it into row src e of a zero table (an edge is added to row n exactly
  when its source word, read signed, is n: for a word in [0, 50000) that is the word read unsigned). The table is then
  multiplied by the transposed weight matrix, the bias is added along rows, and the result is clipped below at 0.
-/
import proofs.«171925_j65137474011136_1_alg».proof.Proof.RefReadP
import proofs.«171925_j65137474011136_1_alg».proof.Proof.Spec
import proofs.«171925_j65137474011136_1_alg».proof.Proof.LibScatterSum

noncomputable section

namespace Cert.RefValue

open Idealize.ShloMosaic Idealize.ShloMosaic.ValueIdx
open Cert.ReferenceIdeal

/-! ## Words in range -/

/-- A word that reads signed in [0, 50000) reads the same unsigned. -/
theorem word_facts (w : BitVec 32) (h0 : 0 ≤ w.toInt) (h1 : w.toInt < 50000) :
    w.toInt = (w.toNat : Int) ∧ w.toNat < 50000 := by
  have hlt := w.isLt
  rw [BitVec.toInt_eq_toNat_cond] at h0 h1 ⊢
  by_cases hc : 2 * w.toNat < 2 ^ 32
  · rw [if_pos hc] at h0 h1 ⊢; omega
  · rw [if_neg hc] at h0 h1 ⊢; omega

/-- Wrapping a nonnegative word (adding an offset when it is negative) leaves it as it is. -/
theorem sel_nonneg (w a : BitVec 32) (h0 : 0 ≤ w.toInt) :
    Scalar.select (IntOp.cmpi .slt w 0#32) a w = w := by
  unfold Scalar.select
  rw [if_neg]
  intro hc
  have h := IntOp.cmpi_slt.1 hc
  have hz : (0#32 : BitVec 32).toInt = 0 := by decide
  omega

/-! ## The index words -/

/-- Row 0 of the edge array, flattened: entry e is the source word of edge e. -/
theorem v1_at (x1 : IVec S2x800000 32) (e : Fin 800000) :
    Read.val_main_v1 (F := Ideal) x1 (ix1 e) = x1 (ix2 (0 : Fin 2) e) := by
  rw [Read.val_main_v1_apply, Read.val_main_v0_apply]
  congr 1
  funext a
  match a with
  | ⟨0, _⟩ => rfl
  | ⟨1, _⟩ => exact Fin.ext (Nat.mod_eq_of_lt e.isLt)

/-- Row 1 of the edge array, flattened: entry e is the destination word of edge e. -/
theorem v3_at (x1 : IVec S2x800000 32) (e : Fin 800000) :
    Read.val_main_v3 (F := Ideal) x1 (ix1 e) = x1 (ix2 (1 : Fin 2) e) := by
  rw [Read.val_main_v3_apply, Read.val_main_v2_apply]
  congr 1
  funext a
  match a with
  | ⟨0, _⟩ => rfl
  | ⟨1, _⟩ => exact Fin.ext (Nat.mod_eq_of_lt e.isLt)

/-- The scatter's index column: entry (e, 0) is the source word of edge e. -/
theorem v39_at (x1 : IVec S2x800000 32) (e : Fin 800000) :
    Read.val_main_v39 (F := Ideal) x1 (ix2 e (0 : Fin 1)) = x1 (ix2 (0 : Fin 2) e) := by
  rw [Read.val_main_v39_apply]
  have hi : Read.idx_main_v39 (ix2 e (0 : Fin 1)) = ix1 e := by
    funext a; match a with | ⟨0, _⟩ => rfl
  rw [hi, v1_at]

/-- The wrapped destination word of edge e is the destination word, when that is nonnegative. -/
theorem v32_at (x1 : IVec S2x800000 32) (h : Cert.Spec.InRange x1) (e : Fin 800000) :
    Read.val_main_v32 (F := Ideal) x1 (ix1 e) = x1 (ix2 (1 : Fin 2) e) := by
  rw [Read.val_main_v32_apply, Read.val_main_v29_apply, Read.val_main_v28_apply, Read.val_main_c_6_apply, v3_at]
  exact sel_nonneg _ _ (h 1 e).1

/-- The gather's index column: entry (e, 0) is the destination word of edge e. -/
theorem v33_at (x1 : IVec S2x800000 32) (h : Cert.Spec.InRange x1) (e : Fin 800000) :
    Read.val_main_v33 (F := Ideal) x1 (ix2 e (0 : Fin 1)) = x1 (ix2 (1 : Fin 2) e) := by
  rw [Read.val_main_v33_apply]
  have hi : Read.idx_main_v33 (ix2 e (0 : Fin 1)) = ix1 e := by
    funext a; match a with | ⟨0, _⟩ => rfl
  rw [hi, v32_at x1 h]

/-! ## The gathered rows, weighted -/

/-- The gathered table at (e, f): column f of the feature row the destination word of edge e names. -/
theorem v34_at (x0 : FVec Ideal S50000x128 .f32) (x1 : IVec S2x800000 32) (h : Cert.Spec.InRange x1)
    (e : Fin 800000) (f : Fin 128) :
    Read.val_main_v34 (F := Ideal) x0 x1 (ix2 e f) = Cert.Spec.xrow x0 (x1 (ix2 (1 : Fin 2) e)) f := by
  show Host.gather (Cert.Lib.RowIndex.rowGatherDims 50000 800000 128
      Facts₀.gather_S50000x128_S800000x1_S800000x128_1_0_n_n_0_1_1128_wf) x0 (Read.val_main_v33 (F := Ideal) x1) (ix2 e f) = _
  rw [Cert.Lib.RowIndex.rowGather_apply (by decide)]
  obtain ⟨hw, hlt⟩ := word_facts _ (h 1 e).1 (h 1 e).2
  unfold Cert.Spec.xrow
  rw [dif_pos hlt]
  congr 2
  refine Fin.ext ?_
  show min (Read.val_main_v33 (F := Ideal) x1 (ix2 e (0 : Fin 1))).toInt.toNat (50000 - 1)
    = (x1 (ix2 (1 : Fin 2) e)).toNat
  rw [v33_at x1 h, hw]
  omega

/-- The weight column spread over the row: entry (e, f) is the weight of edge e. -/
theorem v36_at (x1 : IVec S2x800000 32) (e : Fin 800000) (f : Fin 128) :
    Read.val_main_v36 (F := Ideal) x1 (ix2 e f) = Read.val_main_v27 (F := Ideal) x1 (ix1 e) := by
  rw [Read.val_main_v36_apply, Read.val_main_v35_apply]
  congr 1
  funext a
  match a with
  | ⟨0, _⟩ => rfl

/-- The update table at (e, f): the gathered feature times the weight of edge e. -/
theorem v37_at (x0 : FVec Ideal S50000x128 .f32) (x1 : IVec S2x800000 32) (h : Cert.Spec.InRange x1)
    (e : Fin 800000) (f : Fin 128) :
    Read.val_main_v37 (F := Ideal) x0 x1 (ix2 e f)
      = Cert.Spec.xrow x0 (x1 (ix2 (1 : Fin 2) e)) f * Read.val_main_v27 (F := Ideal) x1 (ix1 e) := by
  rw [Read.val_main_v37_apply, v34_at x0 x1 h, v36_at]
  rfl

/-! ## The zero tables -/

theorem v38_at (i : S50000x128.Idx) : Read.val_main_v38 (F := Ideal) i = 0 := by
  rw [Read.val_main_v38_apply, Read.val_main_cst_8_apply]
  exact Ideal.ofBits_zero_f32

theorem relu0_at (i : S50000x128.Idx) : Read.val_main_call1_v0 (F := Ideal) i = 0 := by
  rw [Read.val_main_call1_v0_apply, Read.val_main_call1_cst_apply]
  exact Ideal.ofBits_zero_f32

/-! ## The aggregate -/

/-- The scattered table at (n, k) is the aggregate of Spec.lean at node n, column k, under the reference's weights. -/
theorem v40_at (x0 : FVec Ideal S50000x128 .f32) (x1 : IVec S2x800000 32) (h : Cert.Spec.InRange x1)
    (n : Fin 50000) (k : Fin 128) :
    Read.val_main_v40 (F := Ideal) x0 x1 (ix2 n k)
      = Cert.Spec.agg x0 (Read.val_main_v27 (F := Ideal) x1) x1 n k := by
  show Host.scatterAdd (F := Ideal) (φ := .f32) (Cert.Lib.RowIndex.rowDims 50000 800000 128
      Facts₀.scatter_S50000x128_S800000x1_S800000x128_1_0_0_1_wf) (Read.val_main_v38 (F := Ideal))
      (Read.val_main_v39 (F := Ideal) x1) (Read.val_main_v37 (F := Ideal) x0 x1) (ix2 n k) = _
  rw [Cert.Lib.RowIndex.scatterRow_apply, v38_at, zero_add]
  unfold Cert.Spec.agg
  refine Finset.sum_congr rfl fun e _ => ?_
  rw [v39_at, v37_at x0 x1 h]
  obtain ⟨hw, -⟩ := word_facts _ (h 0 e).1 (h 0 e).2
  have hiff : (x1 (ix2 (0 : Fin 2) e)).toInt = (n.val : Int) ↔ (Cert.Spec.src x1 e).toNat = n.val := by
    show _ ↔ (x1 (ix2 (0 : Fin 2) e)).toNat = n.val
    rw [hw]
    exact Nat.cast_inj
  rw [if_congr hiff (mul_comm _ _) rfl]
  rfl

/-! ## The layer -/

/-- The reference's result is the layer of Spec.lean, with the reference's own edge weights. -/
theorem ref_layer (x0 : FVec Ideal S50000x128 .f32) (x1 : IVec S2x800000 32) (x2 : FVec Ideal S128x128 .f32)
    (x3 : FVec Ideal S128 .f32) (h : Cert.Spec.InRange x1) :
    Read.val_main_v46 (F := Ideal) x0 x1 x2 x3
      = Cert.Spec.layer x0 (Read.val_main_v27 (F := Ideal) x1) x1 x2 x3 := by
  funext i
  obtain ⟨n, j, rfl⟩ : ∃ (n : Fin 50000) (j : Fin 128), i = ix2 n j := ⟨i 0, i 1, eq_ix2 i⟩
  have h44 : Read.val_main_v44 (F := Ideal) x3 (ix2 n j) = x3 (ix1 j) := by
    rw [Read.val_main_v44_apply, Read.val_main_v43_apply]
    congr 1
    funext a
    match a with
    | ⟨0, _⟩ => rfl
  have hs : ∀ k : Fin 128,
      Read.val_main_v40 (F := Ideal) x0 x1 (Read.lidx_main_v42 (ix2 n j) k)
          * Read.val_main_v41 (F := Ideal) x2 (Read.ridx_main_v42 (ix2 n j) k)
        = Cert.Spec.agg x0 (Read.val_main_v27 (F := Ideal) x1) x1 n k * x2 (ix2 j k) := by
    intro k
    have hl : Read.lidx_main_v42 (ix2 n j) k = ix2 n k := by
      funext a; match a with | ⟨0, _⟩ => rfl | ⟨1, _⟩ => rfl
    have hr : Read.idx_main_v41 (Read.ridx_main_v42 (ix2 n j) k) = ix2 j k := by
      funext a; match a with | ⟨0, _⟩ => rfl | ⟨1, _⟩ => rfl
    rw [hl, Read.val_main_v41_apply, hr, v40_at x0 x1 h]
  rw [Read.val_main_v46_apply, Read.val_main_v45_apply, relu0_at, h44, Read.val_main_v42_apply,
    Finset.sum_congr rfl fun k _ => hs k]
  rfl

end Cert.RefValue

end
-- ==== Proof.PreRange.lean ====
/-
  The index-range conjunct of the precondition, read back.

  The precondition is a conjunction of four one-bit words: three say the float arrays are finite, the fourth is the
  conjunction, over every entry of the [2, 800000] edge array, of (entry ≥ 0 signed) and (entry < 50000 signed), both
  compared against a constant spread over the array. The whole being 1 makes the fourth conjunct 1; a conjunction over
  all entries that is 1 is 1 at each entry; at an entry the two comparisons read 0 ≤ toInt and toInt < 50000.
-/
import proofs.«171925_j65137474011136_1_alg».proof.Pre_finite_inputs
import proofs.«171925_j65137474011136_1_alg».proof.Proof.Spec
import Idealize.ShloMosaic.Lib.ReduceAll
import Idealize.ShloMosaic.Lib.ValueIdx
import Idealize.ShloMosaic.PureOps.Ideal

noncomputable section

namespace Cert.PreRange

open Idealize.ShloMosaic Idealize.ShloMosaic.ValueIdx

variable [Cert.Pre_finite_inputs.Facts]

/-- The rank-0 shape has one index. -/
instance : Subsingleton Cert.Pre_finite_inputs.S_.Idx := ⟨fun a b => funext fun d => d.elim0⟩

/-- The precondition being 1 puts every entry of the edge array, read signed, in [0, 50000). -/
theorem inRange_of_pre {F : FTy → Type} [FloatOps F]
    (x : FVec F Cert.Pre_finite_inputs.S50000x128 .f32) (ei : IVec Cert.Pre_finite_inputs.S2x800000 32)
    (W : FVec F Cert.Pre_finite_inputs.S128x128 .f32) (b : FVec F Cert.Pre_finite_inputs.S128 .f32)
    (h : Cert.Pre_finite_inputs.fn (F := F) x ei W b = fun _ => 1#1) : Cert.Spec.InRange ei := by
  intro r e
  have h0 := congrFun h ix0
  dsimp only [Cert.Pre_finite_inputs.fn, Cert.Pre_finite_inputs.fn_part1] at h0
  -- the last conjunct of the outer conjunction: the conjunction over all entries
  have hall := (IntOp.andi_eq_one.1 h0).2
  -- at the entry (r, e)
  have hel := Host.reduce_andi_all _ _ _ _ _ hall (ix2 r e)
  obtain ⟨hge, hlt⟩ := IntOp.andi_eq_one.1 hel
  have hge' := IntOp.cmpi_sge.1 hge
  have hlt' := IntOp.cmpi_slt.1 hlt
  exact ⟨hge', hlt'⟩

end Cert.PreRange

end
-- ==== Proof.lean ====
/-
  A graph-convolution layer: out = max(0, agg · Wᵀ + b), agg (n, ·) = Σ over the edges e leaving node n of
  weight e · x (dst e, ·), weight e = dinv (src e) · dinv (dst e), dinv = 1/√(out-degree) where the degree is positive
  and 0 elsewhere.

  The kernel program computes the gather x (dst e, ·) and the scatter-add by source as two dense products against
  0/1 matrices built on the fly — [dst e = n] over the rows n of the zero-padded features, tile by tile into an
  accumulator, then [src e = n] over the edges, block by block into a second accumulator — and finishes each node
  tile with the linear map, the bias and the maximum with 0. On the extended reals a 0/1 factor either keeps or
  kills a term (0 · y = 0 for every y, infinite or not), so each dense product is the one row it selects and the
  two programs are one function of the arguments, provided every edge endpoint names a node: the reference's
  gather clamps an endpoint outside [0, 50000) to the nearest node where the one-hot product selects nothing.
  Only commutativity and associativity of + and · are used; finiteness of the float inputs is not.

  The three frames: the two kernel programs run as eight segments (host stretches, the two calls, a closing slice),
  each call's accumulator carried from grid point to grid point by the call's invariant — one argument, read at the
  word-level instance (KB/) and at the ideal instance (KI/); the reference's frame is its run with the result dropped.
-/
import proofs.«171925_j65137474011136_1_alg».proof.Defs
import proofs.«171925_j65137474011136_1_alg».proof.Proof.Gen.Kernel
import proofs.«171925_j65137474011136_1_alg».proof.Proof.Gen.KernelIdeal
import proofs.«171925_j65137474011136_1_alg».proof.Proof.Gen.ReferenceIdeal
import proofs.«171925_j65137474011136_1_alg».proof.Proof.Gen.Pre_finite_inputs
import proofs.«171925_j65137474011136_1_alg».proof.Proof.KB.Main
import proofs.«171925_j65137474011136_1_alg».proof.Proof.KI.Main
import proofs.«171925_j65137474011136_1_alg».proof.Proof.KI.Value
import proofs.«171925_j65137474011136_1_alg».proof.Proof.RefValue
import proofs.«171925_j65137474011136_1_alg».proof.Proof.PreRange
import proofs.«171925_j65137474011136_1_alg».proof.Proof.RefReadP
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the layer of Spec.lean applied to the shared edge weights. -/
theorem algebraic : Cert.algebraic_KernelIdeal_ReferenceIdeal := by
  intro m ρ m' ρ' hpre hagree
  refine ⟨fun c => Cert.Spec.layer (m ((c.tc : Thread Cert.KernelIdeal.nD Cert.KernelIdeal.τ).loc Cert.KernelIdeal.main_arg0))
      (Cert.ReferenceIdeal.Read.val_main_v27 (F := Ideal) (m ((c.tc : Thread Cert.KernelIdeal.nD Cert.KernelIdeal.τ).loc Cert.KernelIdeal.main_arg1)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Hand.run_all m ρ)
    exact ⟨(h c _ (Cert.KernelIdeal.Hand.mem_uc Cert.KernelIdeal.main_v36 (by decide))).trans (Cert.KernelIdeal.Hand.out_eq m c),
      (h c _ (Cert.KernelIdeal.Hand.mem_uc Cert.KernelIdeal.main_arg0 (by decide))).trans (Cert.KernelIdeal.Hand.W8_main_arg0 m c),
      (h c _ (Cert.KernelIdeal.Hand.mem_uc Cert.KernelIdeal.main_arg1 (by decide))).trans (Cert.KernelIdeal.Hand.W8_main_arg1 m c),
      (h c _ (Cert.KernelIdeal.Hand.mem_uc Cert.KernelIdeal.main_arg2 (by decide))).trans (Cert.KernelIdeal.Hand.W8_main_arg2 m c),
      (h c _ (Cert.KernelIdeal.Hand.mem_uc Cert.KernelIdeal.main_arg3 (by decide))).trans (Cert.KernelIdeal.Hand.W8_main_arg3 m c)⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v46_eq, (hagree c).1, (hagree c).2.1, (hagree c).2.2.1, (hagree c).2.2.2]
    exact Cert.RefValue.ref_layer _ _ _ _ (Cert.PreRange.inRange_of_pre (F := Ideal) _ _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
